-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x1 .f32) (main_arg7 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_v33

def fn {F : FTy → Type} [FloatOps F] (main_arg0 : FVec F S8192x128 .f32) (main_arg1 : FVec F S8192x8192 .f32) (main_arg2 : FVec F S128x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S8192x32 : Shape := ⟨2, ![8192, 32]⟩
abbrev S1x32 : Shape := ⟨2, ![1, 32]⟩
abbrev S1024x4096 : Shape := ⟨2, ![1024, 4096]⟩
abbrev S4096x32 : Shape := ⟨2, ![4096, 32]⟩
abbrev S1024x32 : Shape := ⟨2, ![1024, 32]⟩
abbrev S1x1 : Shape := ⟨2, ![1, 1]⟩
abbrev S8192 : Shape := ⟨1, ![8192]⟩

abbrev nBuf : Space → Nat
  | .hbm => 29
  | .vmem => 29
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S8192x1, .f32⟩
  | .hbm, ⟨9, _⟩ => ⟨S8192x8192, .bf16⟩
  | .hbm, ⟨10, _⟩ => ⟨S8192x32, .f32⟩
  | .hbm, ⟨11, _⟩ => ⟨S1x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x1, .f32⟩
  | .hbm, ⟨25, _⟩ => ⟨S1x1, .f32⟩
  | .hbm, ⟨26, _⟩ => ⟨S8192x1, .f32⟩
  | .hbm, ⟨27, _⟩ => ⟨S8192x1, .f32⟩
  | .hbm, ⟨28, _⟩ => ⟨S8192, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x2048, .bf16⟩
  | .local _ .vmem, ⟨5, _⟩ => ⟨S1024x2048, .bf16⟩
  | .local _ .vmem, ⟨6, _⟩ => ⟨S1024x1, .f32⟩
  | .local _ .vmem, ⟨7, _⟩ => ⟨S1024x4096, .bf16⟩
  | .local _ .vmem, ⟨8, _⟩ => ⟨S1024x4096, .bf16⟩
  | .local _ .vmem, ⟨9, _⟩ => ⟨S4096x32, .f32⟩
  | .local _ .vmem, ⟨10, _⟩ => ⟨S4096x32, .f32⟩
  | .local _ .vmem, ⟨11, _⟩ => ⟨S1024x32, .f32⟩
  | .local _ .vmem, ⟨12, _⟩ => ⟨S1024x32, .f32⟩
  | .local _ .vmem, ⟨13, _⟩ => ⟨S1024x1, .f32⟩
  | .local _ .vmem, ⟨14, _⟩ => ⟨S1024x1, .f32⟩
  | .local _ .vmem, ⟨15, _⟩ => ⟨S1024x32, .f32⟩
  | .local _ .vmem, ⟨16, _⟩ => ⟨S1024x32, .f32⟩
  | .local _ .vmem, ⟨17, _⟩ => ⟨S1024x32, .f32⟩
  | .local _ .vmem, ⟨18, _⟩ => ⟨S1024x4096, .bf16⟩
  | .local _ .vmem, ⟨19, _⟩ => ⟨S1024x4096, .bf16⟩
  | .local _ .vmem, ⟨20, _⟩ => ⟨S4096x32, .f32⟩
  | .local _ .vmem, ⟨21, _⟩ => ⟨S4096x32, .f32⟩
  | .local _ .vmem, ⟨22, _⟩ => ⟨S1024x32, .f32⟩
  | .local _ .vmem, ⟨23, _⟩ => ⟨S1024x32, .f32⟩
  | .local _ .vmem, ⟨24, _⟩ => ⟨S1024x1, .f32⟩
  | .local _ .vmem, ⟨25, _⟩ => ⟨S1024x1, .f32⟩
  | .local _ .vmem, ⟨26, _⟩ => ⟨S1024x32, .f32⟩
  | .local _ .vmem, ⟨27, _⟩ => ⟨S1024x32, .f32⟩
  | .local _ .vmem, ⟨28, _⟩ => ⟨S1024x32, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 2], ![false, false]⟩

def k2_cond2 (i : grid2.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S8192x1_S8192x32_0_1 : S8192x1.BroadcastsInDim S8192x32 (![0, 1] : Fin 2 → Fin S8192x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  broadcasts_S1024x1_S1024x32 : S1024x1.Broadcasts S1024x32
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x128_S128x32_S8192x32_1_0_0_1_n_n_wf : DotDims.WF S8192x128 S128x32 S8192x32 [1] [0] [0] [1] [] []
  dot_S1024x4096_S4096x32_S1024x32_1_0_0_1_n_n_wf : DotDims.WF S1024x4096 S4096x32 S1024x32 [1] [0] [0] [1] [] []
  dot_S8192x32_S32x32_S8192x32_1_0_0_1_n_n_wf : DotDims.WF S8192x32 S32x32 S8192x32 [1] [0] [0] [1] [] []
  dot_S8192x32_S32x1_S8192x1_1_0_0_1_n_n_wf : DotDims.WF S8192x32 S32x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .bf16 = 32 ∨ (Rect.block (s := S8192x8192) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .bf16 = 32 ∨ (Rect.block (s := S8192x8192) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S8192x32.size a
  hwx1_1 : ∀ i : grid1.Coords, EltTy.bits .f32 = 32 ∨ (Rect.block (s := S8192x32) S4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x32.size a ≤ S8192x32.size a
  hwx1_4 : ∀ i : grid1.Coords, EltTy.bits .f32 = 32 ∨ (Rect.block (s := S8192x32) S1024x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x8192.size a
  hwx2_0 : ∀ i : grid2.Coords, EltTy.bits .bf16 = 32 ∨ (Rect.block (s := S8192x8192) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x32.size a ≤ S8192x32.size a
  hwx2_1 : ∀ i : grid2.Coords, EltTy.bits .f32 = 32 ∨ (Rect.block (s := S8192x32) S4096x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .f32 = 32 ∨ (Rect.block (s := S8192x32) S1024x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x32.size a ≤ S8192x32.size a
  hwx2_4 : ∀ i : grid2.Coords, EltTy.bits .f32 = 32 ∨ (Rect.block (s := S8192x32) S1024x32.size (cc2_transform_4 i) (hinb2_4 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v0_1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0_1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S4096x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1024x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_0) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1024x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x32 : Shape := ⟨2, ![8192, 32]⟩
abbrev S1x32 : Shape := ⟨2, ![1, 32]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x32, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S_, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S1x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S_, .f32⟩
  | .hbm, ⟨45, _⟩ => ⟨S8192x32, .f32⟩
  | .hbm, ⟨46, _⟩ => ⟨S8192x32, .f32⟩
  | .hbm, ⟨47, _⟩ => ⟨S8192x1, .f32⟩
  | .hbm, ⟨48, _⟩ => ⟨S1x1, .f32⟩
  | .hbm, ⟨49, _⟩ => ⟨S8192x1, .f32⟩
  | .hbm, ⟨50, _⟩ => ⟨S8192x1, .f32⟩
  | .hbm, ⟨51, _⟩ => ⟨S8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call2_cst : Ref sig .tc := ⟨.hbm, 44, rfl⟩
abbrev main_call2_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x128_S128x32_S8192x32_1_0_0_1_n_n_wf : DotDims.WF S8192x128 S128x32 S8192x32 [1] [0] [0] [1] [] []
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []
  dot_S8192x32_S32x1_S8192x1_1_0_0_1_n_n_wf : DotDims.WF S8192x32 S32x1 S8192x1 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.K.Reg0Runs.lean ====
/-
  The degree pass (the first of the program's three pipelined regions), part 1: what its per-point runs share.

  The region walks an 8 × 4 grid; point t has row block t / 4 and column block j = t % 4. The body keeps a column
  of 1024 partial row sums in a scratch buffer across the four column blocks of a row block: it clears the scratch
  when j = 0, adds the block's row sums at every point, copies the block in the narrower format at every point, and
  when j = 3 stores the reciprocal square root of the clipped degree. So a point is in one of three cases:
  first (j = 0), middle (j = 1, 2), last (j = 3). The degree output is idle, and not written back, except at the
  last point of a row block.
-/
import proofs.«136441_j876173328454_2_alg».proof.Proof.Gen.Kernel.Launch
import proofs.«136441_j876173328454_2_alg».proof.Proof.Gen.Kernel.Skeleton
import proofs.«136441_j876173328454_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the processor's buffers when the region is entered: a parameter here
variable (V : (c : Dev nD) → (b : Ref sig .tc) → Buf (Elt F) ((c : Thread nD τ).loc b))

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point (it is fetched at every point, never cut,
    never idle), for any proof data over the entry contents whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two conditions, decided over the grid -/

/-- "This is the first column block" as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last column block". -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are live -/

theorem live_in : ∀ t : Fin cfg0.N, cfg0.idle 0 (grid0.coords t) = false := by decide +kernel
theorem live_copy : ∀ t : Fin cfg0.N, cfg0.idle 2 (grid0.coords t) = false := by decide +kernel
/-- Off the last column block the degree output is idle and not written back. -/
theorem idle_deg : ∀ t : Fin cfg0.N, ¬isLast (grid0.coords t) → cfg0.idle 1 (grid0.coords t) = true := by decide +kernel
theorem noFlush_deg : ∀ t : Fin cfg0.N, ¬isLast (grid0.coords t) → (cfg0.win 1).flush t = false := by decide +kernel
theorem live_deg : ∀ t : Fin cfg0.N, isLast (grid0.coords t) → cfg0.idle 1 (grid0.coords t) = false := by decide +kernel

/-! ## The memrefs the body is called with -/

abbrev mIn (t : Fin cfg0.N) : Memref sig .tc .vmem S1024x2048 .f32 := win0_0.stage (cfg0.slots t 0)
abbrev hIn (t : Fin cfg0.N) : (mIn t).IsWhole := hstage0_0 ((cfg0.slots t 0).cast nbuf0_0)
abbrev mDeg (t : Fin cfg0.N) : Memref sig .tc .vmem S1024x1 .f32 := win0_1.stage (cfg0.slots t 1)
abbrev hDeg (t : Fin cfg0.N) : (mDeg t).IsWhole := hstage0_1 ((cfg0.slots t 1).cast nbuf0_1)
abbrev mCopy (t : Fin cfg0.N) : Memref sig .tc .vmem S1024x2048 .bf16 := win0_2.stage (cfg0.slots t 2)
abbrev hCopy (t : Fin cfg0.N) : (mCopy t).IsWhole := hstage0_2 ((cfg0.slots t 2).cast nbuf0_2)
/-- The scratch column of partial row sums: a whole scoped buffer of the kernel's own. -/
abbrev mAcc : Memref sig .tc .vmem S1024x1 .f32 := Memref.whole cc0_scratch0
/-- Views through which buffer contents are stated (any whole buffer of the shape would do). -/
abbrev vAcc : View sig .tc .vmem S1024x1 .f32 := mAcc.view
abbrev vDeg : View sig .tc .vmem S1024x1 .f32 := (Memref.whole cc0_stg1_0 : Memref sig .tc .vmem S1024x1 .f32).view
abbrev vCopy : View sig .tc .vmem S1024x2048 .bf16 := (Memref.whole cc0_stg2_0 : Memref sig .tc .vmem S1024x2048 .bf16).view

/-- The region's resting invariant with the scratch column spelled as a memref owned at some contents. -/
theorem restInv_eq (c : Dev nD) :
    (Pipeline.ΦA spec0 c : sProp 𝕄)
      = iprop(iprop((∃ d, owns (c : Thread nD τ) mAcc fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest0_eq]; simp only [mAcc, owns_whole]; try rfl

end Cert.Kernel.Reg0

end
-- ==== Proof.K.Reg0RunFirst.lean ====
/-
  The degree pass, part 2: the body at a point of the first column block. The scratch column is cleared and then
  receives the block's row sums; the block is copied in the narrower format; the degree output is left alone.
  The lists of stored pieces (last store first) are found by running the body.
-/
import proofs.«136441_j876173328454_2_alg».proof.Proof.K.Reg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x2048 .bf16) (harg4 : arg4.IsWhole) (arg5 : Memref sig .tc .vmem S1024x1 .f32) (harg5 : arg5.IsWhole) (hc0 : isFirst i) (hc1 : ¬isLast i)
    (x0 : Vec F S1024x2048 .f32) :
    Σ' (LC : List (View.Piece (Elt F) S1024x2048 .bf16)), { LA : List (View.Piece (Elt F) S1024x1 .f32) //
      ∀ (xd : Vec F S1024x1 .f32) (E : Set ℕ) (K : PUnit → sProp 𝕄),
        iprop(owns (c : Thread nD τ) arg2 fullShare x0 ∗ owns (c : Thread nD τ) arg3 fullShare xd ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xd ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LA)) -∗ K ⟨⟩))
          ⊢ wp frame (wpE (defs₀ (F := F)) Variants.none c none) E (cc0__degree_kernel i arg2 harg2 arg3 harg3 arg4 harg4 arg5 harg5) K } := by
  refine ⟨?_, ?_, fun xd E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Reg0

end
-- ==== Proof.K.Reg0RunMiddle.lean ====
/-
  The degree pass, part 3: the body at a point of a middle column block. The scratch column, holding the partial
  row sums `xa` of the blocks before, receives them plus this block's row sums; the block is copied in the narrower
  format; the degree output is left alone.
-/
import proofs.«136441_j876173328454_2_alg».proof.Proof.K.Reg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x2048 .bf16) (harg4 : arg4.IsWhole) (arg5 : Memref sig .tc .vmem S1024x1 .f32) (harg5 : arg5.IsWhole) (hc0 : ¬isFirst i) (hc1 : ¬isLast i)
    (x0 : Vec F S1024x2048 .f32) (xa : Vec F S1024x1 .f32) :
    Σ' (LC : List (View.Piece (Elt F) S1024x2048 .bf16)), { LA : List (View.Piece (Elt F) S1024x1 .f32) //
      ∀ (xd : Vec F S1024x1 .f32) (E : Set ℕ) (K : PUnit → sProp 𝕄),
        iprop(owns (c : Thread nD τ) arg2 fullShare x0 ∗ owns (c : Thread nD τ) arg3 fullShare xd ∗ (∃ d, owns (c : Thread nD τ) arg4 fullShare d) ∗ owns (c : Thread nD τ) arg5 fullShare xa
            ∗ (iprop(owns (c : Thread nD τ) arg2 fullShare x0 ∗ owns (c : Thread nD τ) arg3 fullShare xd ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LA)) -∗ K ⟨⟩))
          ⊢ wp frame (wpE (defs₀ (F := F)) Variants.none c none) E (cc0__degree_kernel i arg2 harg2 arg3 harg3 arg4 harg4 arg5 harg5) K } := by
  refine ⟨?_, ?_, fun xd E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Reg0

end
-- ==== Proof.K.Reg0RunLast.lean ====
/-
  The degree pass, part 4: the body at a point of the last column block. The scratch column receives the last
  block's row sums; the block is copied in the narrower format; the degree output receives the reciprocal square
  root of the clipped total.
-/
import proofs.«136441_j876173328454_2_alg».proof.Proof.K.Reg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x2048 .bf16) (harg4 : arg4.IsWhole) (arg5 : Memref sig .tc .vmem S1024x1 .f32) (harg5 : arg5.IsWhole) (hc0 : ¬isFirst i) (hc1 : isLast i)
    (x0 : Vec F S1024x2048 .f32) (xa : Vec F S1024x1 .f32) :
    Σ' (LD : List (View.Piece (Elt F) S1024x1 .f32)) (LC : List (View.Piece (Elt F) S1024x2048 .bf16)), { LA : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xa
            ∗ (iprop(owns (c : Thread nD τ) arg2 fullShare x0 ∗ (∃ f, arg3.view.loc (c : Thread nD τ) ↦[arg3.view.set]{fullShare} arg3.view.writes (Elt F) f LD) ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LA)) -∗ K ⟨⟩))
          ⊢ wp frame (wpE (defs₀ (F := F)) Variants.none c none) E (cc0__degree_kernel i arg2 harg2 arg3 harg3 arg4 harg4 arg5 harg5) K } := by
  refine ⟨?_, ?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.Kernel.Reg0

end
-- ==== Proof.K.Reg0.lean ====
/-
  The degree pass, part 5: what its buffers hold point by point, the region's invariant, and the body's obligation
  to the pipeline at every point.

  After point t the scratch column holds the row sums of the column blocks 0 … t % 4 of row block t / 4 (by
  recursion on the point: cleared at a first block, else the previous point's column plus this block's row sums);
  the copy buffer holds the block in the narrower format; the degree buffer is written only at a last block, from
  the scratch column the point before left.
-/
import proofs.«136441_j876173328454_2_alg».proof.Proof.K.Reg0RunFirst
import proofs.«136441_j876173328454_2_alg».proof.Proof.K.Reg0RunMiddle
import proofs.«136441_j876173328454_2_alg».proof.Proof.K.Reg0RunLast

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as its stored pieces read back -/

section Cases
variable (c : Dev nD) (t : Fin cfg0.N)

/-- First column block: the scratch column and the copy. -/
def accFirst (h0 : t.val % 4 = 0) : Vec F S1024x1 .f32 :=
  vAcc.read (Elt F) (vAcc.writes (Elt F) vAcc.junk (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.1)
def copyFirst (h0 : t.val % 4 = 0) : Vec F S1024x2048 .bf16 :=
  vCopy.read (Elt F) (vCopy.writes (Elt F) vCopy.junk (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).1)
theorem coverAccFirst (h0 : t.val % 4 = 0) (y : S1024x1.Idx) :
    ∃ pc ∈ (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.1, y ∈ pc.1.set :=
  View.cover_of_tiledL _ S1024x1.size (by sl_kernel_rfl) y
theorem coverCopyFirst (h0 : t.val % 4 = 0) (y : S1024x2048.Idx) :
    ∃ pc ∈ (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).1, y ∈ pc.1.set :=
  View.cover_of_tiledL _ S1024x2048.size (by sl_kernel_rfl) y

/-- Middle column block, over the scratch column `xa` the point before left. -/
def accMiddle (h0 : ¬t.val % 4 = 0) (h1 : ¬t.val % 4 = 3) (xa : Vec F S1024x1 .f32) : Vec F S1024x1 .f32 :=
  vAcc.read (Elt F) (vAcc.writes (Elt F) vAcc.junk (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).2.1)
def copyMiddle (h0 : ¬t.val % 4 = 0) (h1 : ¬t.val % 4 = 3) (xa : Vec F S1024x1 .f32) : Vec F S1024x2048 .bf16 :=
  vCopy.read (Elt F) (vCopy.writes (Elt F) vCopy.junk (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).1)
theorem coverAccMiddle (h0 : ¬t.val % 4 = 0) (h1 : ¬t.val % 4 = 3) (xa : Vec F S1024x1 .f32) (y : S1024x1.Idx) :
    ∃ pc ∈ (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).2.1, y ∈ pc.1.set :=
  View.cover_of_tiledL _ S1024x1.size (by sl_kernel_rfl) y
theorem coverCopyMiddle (h0 : ¬t.val % 4 = 0) (h1 : ¬t.val % 4 = 3) (xa : Vec F S1024x1 .f32) (y : S1024x2048.Idx) :
    ∃ pc ∈ (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).1, y ∈ pc.1.set :=
  View.cover_of_tiledL _ S1024x2048.size (by sl_kernel_rfl) y

/-- Last column block, over the scratch column `xa` the point before left. -/
def accLast (h1 : t.val % 4 = 3) (xa : Vec F S1024x1 .f32) : Vec F S1024x1 .f32 :=
  vAcc.read (Elt F) (vAcc.writes (Elt F) vAcc.junk (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.2.1)
def copyLast (h1 : t.val % 4 = 3) (xa : Vec F S1024x1 .f32) : Vec F S1024x2048 .bf16 :=
  vCopy.read (Elt F) (vCopy.writes (Elt F) vCopy.junk (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.1)
def degLast (h1 : t.val % 4 = 3) (xa : Vec F S1024x1 .f32) : Vec F S1024x1 .f32 :=
  vDeg.read (Elt F) (vDeg.writes (Elt F) vDeg.junk (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).1)
theorem coverAccLast (h1 : t.val % 4 = 3) (xa : Vec F S1024x1 .f32) (y : S1024x1.Idx) :
    ∃ pc ∈ (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.2.1, y ∈ pc.1.set :=
  View.cover_of_tiledL _ S1024x1.size (by sl_kernel_rfl) y
theorem coverCopyLast (h1 : t.val % 4 = 3) (xa : Vec F S1024x1 .f32) (y : S1024x2048.Idx) :
    ∃ pc ∈ (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.1, y ∈ pc.1.set :=
  View.cover_of_tiledL _ S1024x2048.size (by sl_kernel_rfl) y
theorem coverDegLast (h1 : t.val % 4 = 3) (xa : Vec F S1024x1 .f32) (y : S1024x1.Idx) :
    ∃ pc ∈ (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).1, y ∈ pc.1.set :=
  View.cover_of_tiledL _ S1024x1.size (by sl_kernel_rfl) y

end Cases

/-! ## The accumulation, by recursion on the point -/

/-- The scratch column after point `n`. -/
def accAt (c : Dev nD) : (n : ℕ) → n < cfg0.N → Vec F S1024x1 .f32
  | 0, hn => accFirst V c ⟨0, hn⟩ (Nat.zero_mod 4)
  | n + 1, hn =>
    if h0 : (n + 1) % 4 = 0 then accFirst V c ⟨n + 1, hn⟩ h0
    else if h1 : (n + 1) % 4 = 3 then accLast V c ⟨n + 1, hn⟩ h1 (accAt c n (Nat.lt_of_succ_lt hn))
    else accMiddle V c ⟨n + 1, hn⟩ h0 h1 (accAt c n (Nat.lt_of_succ_lt hn))

/-- The scratch column the point before `t` left (at `t = 0`: an unread placeholder). -/
abbrev accBefore (c : Dev nD) (t : Fin cfg0.N) : Vec F S1024x1 .f32 :=
  accAt V c (t.val - 1) (Nat.lt_of_le_of_lt (Nat.sub_le _ _) t.isLt)

theorem accAt_first (c : Dev nD) (t : Fin cfg0.N) (h0 : t.val % 4 = 0) :
    accAt V c t.val t.isLt = accFirst V c t h0 := by
  obtain ⟨n, hn⟩ := t
  cases n with
  | zero => rfl
  | succ n => exact (dif_pos h0).trans rfl
theorem accAt_middle (c : Dev nD) (t : Fin cfg0.N) (h0 : ¬t.val % 4 = 0) (h1 : ¬t.val % 4 = 3) :
    accAt V c t.val t.isLt = accMiddle V c t h0 h1 (accBefore V c t) := by
  obtain ⟨n, hn⟩ := t
  cases n with
  | zero => exact absurd (Nat.zero_mod _) h0
  | succ n => exact (dif_neg h0).trans ((dif_neg h1).trans rfl)
theorem accAt_last (c : Dev nD) (t : Fin cfg0.N) (h1 : t.val % 4 = 3) :
    accAt V c t.val t.isLt = accLast V c t h1 (accBefore V c t) := by
  obtain ⟨n, hn⟩ := t
  cases n with
  | zero => exfalso; simp at h1
  | succ n => exact (dif_neg (by dsimp only at h1 ⊢; omega)).trans ((dif_pos h1).trans rfl)

/-- The copy buffer after point `t`. -/
def copyAt (c : Dev nD) (t : Fin cfg0.N) : Vec F S1024x2048 .bf16 :=
  if h0 : t.val % 4 = 0 then copyFirst V c t h0
  else if h1 : t.val % 4 = 3 then copyLast V c t h1 (accBefore V c t)
  else copyMiddle V c t h0 h1 (accBefore V c t)

/-- The degree buffer after point `t`: written at a last column block only (elsewhere a placeholder nothing reads:
    the window is idle there and not written back). -/
def degAt (c : Dev nD) (t : Fin cfg0.N) : Vec F S1024x1 .f32 :=
  if h1 : t.val % 4 = 3 then degLast V c t h1 (accBefore V c t) else vDeg.read (Elt F) vDeg.junk

/-! ## The invariant -/

/-- The processor's other scoped buffers (the later regions' staging and scratch), each whole at some contents. -/
def others (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

theorem restInv_eq' (c : Dev nD) :
    (Pipeline.ΦA spec0 c : sProp 𝕄) = iprop(iprop((∃ d, owns (c : Thread nD τ) mAcc fullShare d) ∗ others c) ∗ (∃ r, prngReg c r)) := by
  unfold others; exact restInv_eq c

/-- Before point `n`: at the start the resting invariant; afterwards the same with the scratch column at what the
    point before left. -/
def inv (c : Dev nD) : (n : ℕ) → n ≤ cfg0.N → sProp 𝕄
  | 0, _ => Pipeline.ΦA spec0 c
  | n + 1, hn => iprop(iprop(owns (c : Thread nD τ) mAcc fullShare (accAt V c n hn) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) mAcc fullShare (accAt V c n hn) ∗ others c) ∗ (∃ r, prngReg c r)) := rfl
theorem inv_pos (c : Dev nD) (n : ℕ) (h : n ≤ cfg0.N) (hz : n ≠ 0) :
    inv V c n h = iprop(iprop(owns (c : Thread nD τ) mAcc fullShare (accAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => degAt V c t
    | ⟨2, _⟩ => copyAt V c t
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_in (c : Dev nD) (t : Fin cfg0.N) : (dat V c).after 0 t = iblk V c 0 t := by dsimp only [dat]
theorem after_deg (c : Dev nD) (t : Fin cfg0.N) : (dat V c).after 1 t = degAt V c t := by dsimp only [dat]
theorem after_copy (c : Dev nD) (t : Fin cfg0.N) : (dat V c).after 2 t = copyAt V c t := by dsimp only [dat]
theorem before_in (c : Dev nD) (t : Fin cfg0.N) (d) : (dat V c).before 0 t d = iblk V c 0 t :=
  before_in_of V (dat V c) (A_eq V c 0) (after_in V c) t d

/-! ## The body's obligation at every point -/

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mDeg t) fullShare ((dat V c).before 1 t d))
    ∗ (∃ d, owns (c : Thread nD τ) (mCopy t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The residue of the point modulo 4 says which case it is in; the invariant hands the body the
    scratch column at what the point before left (at anything, at the very first point) and takes it back at this
    point's contents; the degree buffer is handed back untouched off a last column block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (mIn t) fullShare ((dat V c).after 0 t) from by
    unfold Dat.leavesExact; rw [live_in t], after_in]
  rw [show (dat V c).leavesExact 2 t = owns (c : Thread nD τ) (mCopy t) fullShare ((dat V c).after 2 t) from by
    unfold Dat.leavesExact; rw [live_copy t], after_copy]
  have hN : t.val < 32 := lt_of_lt_of_eq t.isLt (show cfg0.N = 32 from N_0)
  by_cases h0 : t.val % 4 = 0
  · have hnl : ¬isLast (grid0.coords t) := fun h => by have := (isLast_iff t).mp h; omega
    rw [Dat.leavesExact_idle (dat V c) 1 t (idle_deg t hnl) (noFlush_deg t hnl)]
    rw [accAt_first V c t h0, show copyAt V c t = copyFirst V c t h0 from dif_pos h0]
    unfold accFirst copyFirst; (try dsimp only)
    by_cases hz : t.val = 0
    · rw [inv_castSucc V c t, inv_zero V c _ _ hz, restInv_eq']
      iintro ⟨⟨⟨HS, Hoth⟩, Hg⟩, Ho, ⟨%d0, H0⟩, ⟨%d1, H1⟩, ⟨%d2, H2⟩⟩
      iapply ((runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccFirst V c t h0)
          iexact Hoth
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopyFirst V c t h0)
    · rw [inv_castSucc V c t, inv_pos V c _ _ hz]
      iintro ⟨⟨⟨HS, Hoth⟩, Hg⟩, Ho, ⟨%d0, H0⟩, ⟨%d1, H1⟩, ⟨%d2, H2⟩⟩
      iapply ((runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.2 _ Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccFirst V c t h0)
          iexact Hoth
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopyFirst V c t h0)
  · have hz : t.val ≠ 0 := fun hz => h0 (by rw [hz])
    by_cases h1 : t.val % 4 = 3
    · rw [show (dat V c).leavesExact 1 t = owns (c : Thread nD τ) (mDeg t) fullShare ((dat V c).after 1 t) from by
        unfold Dat.leavesExact; rw [live_deg t ((isLast_iff t).mpr h1)], after_deg]
      rw [accAt_last V c t h1, show copyAt V c t = copyLast V c t h1 (accBefore V c t) from (dif_neg h0).trans (dif_pos h1),
        show degAt V c t = degLast V c t h1 (accBefore V c t) from dif_pos h1]
      unfold accLast copyLast degLast accBefore; (try dsimp only)
      rw [inv_castSucc V c t, inv_pos V c _ _ hz]
      iintro ⟨⟨⟨HS, Hoth⟩, Hg⟩, Ho, ⟨%d0, H0⟩, ⟨%d1, H1⟩, ⟨%d2, H2⟩⟩
      iapply ((runLast c (grid0.coords t) (mIn t) (hIn t) (mDeg t) (hDeg t) (mCopy t) (hCopy t) mAcc (Memref.isWhole_whole _) (fun h => by have := (isFirst_iff t).mp h; omega) ((isLast_iff t).mpr h1) (iblk V c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccLast V c t h1 _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverDegLast V c t h1 _)
      unfold owns; iexists _; isplitr
      swap; · iexact H2
      ipureintro; exact View.read_writes_of_cover _ _ _ _ _ (coverCopyLast V c t h1 _)
    · have hnl : ¬isLast (grid0.coords t) := fun h => h1 ((isLast_iff t).mp h)
      rw [Dat.leavesExact_idle (dat V c) 1 t (idle_deg t hnl) (noFlush_deg t hnl)]
      rw [accAt_middle V c t h0 h1, show copyAt V c t = copyMiddle V c t h0 h1 (accBefore V c t) from (dif_neg h0).trans (dif_neg h1)]
      unfold accMiddle copyMiddle accBefore; (try dsimp only)
      rw [inv_castSucc V c t, inv_pos V c _ _ hz]
      iintro ⟨⟨⟨HS, Hoth⟩, Hg⟩, Ho, ⟨%d0, H0⟩, ⟨%d1, H1⟩, ⟨%d2, H2⟩⟩
      iapply ((runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) _).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccMiddle V c t h0 h1 _)
          iexact Hoth
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopyMiddle V c t h0 h1 _)

/-- The pipeline's body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After any point the invariant gives the resting invariant back (the scratch column's contents forgotten). -/
theorem inv_out (c : Dev nD) (t : Fin (cfg0.N + 1)) (ht : t.val ≠ 0) : (dat V c).Φ t ⊢ Pipeline.ΦA spec0 c := by
  rw [show (dat V c).Φ t = inv V c t.val (Nat.le_of_lt_succ t.isLt) from rfl, inv_pos V c _ _ ht, restInv_eq']
  iintro ⟨⟨HS, Hoth⟩, Hg⟩
  isplitl [HS Hoth]
  · isplitl [HS]
    · iexists _; iexact HS
    iexact Hoth
  iexact Hg

theorem hout (c : Dev nD) : (dat V c).Φ (Fin.last cfg0.N) ⊢ Pipeline.ΦA spec0 c :=
  inv_out V c _ (by rw [Fin.val_last]; have : cfg0.N = 32 := N_0; omega)

end Cert.Kernel.Reg0

end
-- ==== Proof.K.Reg1Runs.lean ====
/- The layer kernel's pipeline number 1, the part its two cases share: each window's block read off the contents
   the region is entered with, the two branch conditions in closed form over the grid, where the output window
   is idle, and the scratch accumulator as a memref and as a view, split out of the region's invariant. -/
import proofs.«136441_j876173328454_2_alg».proof.Proof.Gen.Kernel.Launch
import proofs.«136441_j876173328454_2_alg».proof.Proof.Gen.Kernel.Skeleton
import proofs.«136441_j876173328454_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

/-! ## The body's branch conditions -/

/-- The first conditional's test, from the grid coordinates: the inner coordinate is 0. -/
abbrev cond_0 (i : grid1.Coords) : Prop := (Scalar.cmpi .ne (Scalar.extui (Scalar.cmpi .eq (BitVec.ofNat 32 (i 1).val) 0#32)) 0#32) = 1#1
/-- It holds at the even points. -/
theorem hcond_0 : ∀ t : Fin cfg1.N, cond_0 (grid1.coords t) ↔ t.val % 2 = 0 :=
  (by decide +kernel : ∀ t : Fin grid1.N, cond_0 (grid1.coords t) ↔ t.val % 2 = 0)

/-- The second conditional's test: the inner coordinate is the last. -/
abbrev cond_1 (i : grid1.Coords) : Prop := k1_cond2 i = 1#1
/-- It holds at the odd points. -/
theorem hcond_1 : ∀ t : Fin cfg1.N, cond_1 (grid1.coords t) ↔ t.val % 2 = 1 :=
  (by decide +kernel : ∀ t : Fin grid1.N, cond_1 (grid1.coords t) ↔ t.val % 2 = 1)

/-! ## Where the windows are idle -/

/-- The inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At the even points the output window is idle: the body stores nothing into it, -/
theorem idleAt_4_A : ∀ t : Fin cfg1.N, cond_0 (grid1.coords t) → ¬cond_1 (grid1.coords t) → cfg1.idle 4 (grid1.coords t) = true := by decide +kernel
/-- and the pipeline does not write its block back there. -/
theorem noFlush_4_A : ∀ t : Fin cfg1.N, cond_0 (grid1.coords t) → ¬cond_1 (grid1.coords t) → (cfg1.win 4).flush t = false := by decide +kernel
/-- At the odd points the output window is live. -/
theorem liveAt_4_B : ∀ t : Fin cfg1.N, ¬cond_0 (grid1.coords t) → cond_1 (grid1.coords t) → cfg1.idle 4 (grid1.coords t) = false := by decide +kernel

/-! ## The staging memrefs and the scratch -/

/-- One staging buffer of the output window, through which its contents are stated. -/
abbrev VO_4 : View sig .tc .vmem S1024x32 .f32 := (Memref.whole cc1_stg4_0 : Memref sig .tc .vmem S1024x32 .f32).view
/-- Each window's current staging memref at point `t`, as the pipeline passes it, and its wholeness. -/
abbrev ms_0 (t : Fin cfg1.N) : Memref sig .tc .vmem S1024x4096 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4096x32 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x32 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x1 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x32 .f32 := win1_4.stage (cfg1.slots t 4)
abbrev hs_4 (t : Fin cfg1.N) : (ms_4 t).IsWhole := hstage1_4 ((cfg1.slots t 4).cast nbuf1_4)
/-- The scratch accumulator: a whole scoped buffer of the kernel's own, passed beside the windows, -/
abbrev scM : Memref sig .tc .vmem S1024x32 .f32 := Memref.whole cc1_scratch0
/-- and as a view: what it holds between points is stated through it. -/
abbrev VS : View sig .tc .vmem S1024x32 .f32 := scM.view

/-- The core's scoped buffers that are neither a staging buffer of this pipeline nor its scratch accumulator, each
    whole at some contents: the body never touches them. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f))

/-- The region's invariant hands out the scratch accumulator as a memref owned at some contents, beside the other
    scoped buffers and the generator register, -/
theorem PhiA_split (c : Dev nD) :
    (Pipeline.ΦA spec1 c : sProp 𝕄)
      ⊢ iprop((∃ d, owns (c : Thread nD τ) scM fullShare d) ∗ restS (F := F) c ∗ (∃ r, prngReg c r)) := by
  unfold Pipeline.ΦA restS; rw [scopedRest1_eq]; simp only [scM, owns_whole]
  iintro ⟨⟨H0, H1, H2, H3, H4, H5, H6, HS, H8, H9, H10, H11, H12, H13, H14, H15, H16, H17, H18⟩, Hg⟩
  isplitl [HS]; · iexact HS
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- and takes it back at any contents. -/
theorem PhiA_join (c : Dev nD) :
    iprop((∃ d, owns (c : Thread nD τ) scM fullShare d) ∗ restS (F := F) c ∗ (∃ r, prngReg c r))
      ⊢ (Pipeline.ΦA spec1 c : sProp 𝕄) := by
  unfold Pipeline.ΦA restS; rw [scopedRest1_eq]; simp only [scM, owns_whole]
  iintro ⟨HS, ⟨H0, H1, H2, H3, H4, H5, H6, H8, H9, H10, H11, H12, H13, H14, H15, H16, H17, H18⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Kernel.Reg1

end
-- ==== Proof.K.Reg1RunA.lean ====
/- The layer kernel's pipeline number 1, the body's run at an even point (the first conditional taken, the second not):
   the accumulator is zeroed and the product of the two blocks added into it; the output window is left as found. -/
import proofs.«136441_j876173328454_2_alg».proof.Proof.K.Reg1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the scratch accumulator at an even point, as pieces (last first), with the proof
    that on whole staging memrefs — the inputs' at their contents, the output's at contents `xi4` handed back
    untouched, the accumulator at anything — the body runs to the continuation holding the inputs' and the output's
    as they were and the accumulator with its pieces written. The output's piece list is empty. -/
noncomputable def kernelRun_A (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) :
    Σ' (L4 : List (View.Piece (Elt F) S1024x32 .f32)), { LS : List (View.Piece (Elt F) S1024x32 .f32) //
      ∀ (xi4 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Reg1

end
-- ==== Proof.K.Reg1RunB.lean ====
/- The layer kernel's pipeline number 1, the body's run at an odd point (the first conditional not taken, the second
   taken): the product of the two blocks is added into the accumulator the point before left, and the output block
   is stored whole from the accumulator, the degree block and the pre-activation block. -/
import proofs.«136441_j876173328454_2_alg».proof.Proof.K.Reg1RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator at an odd point, as
    pieces (last first), with the proof that on whole staging memrefs — the inputs' at their contents, the output's
    at anything, the accumulator at the contents `xs` the point before left — the body runs to the continuation
    holding the inputs' as they were and the output's and the accumulator each with its pieces written. -/
noncomputable def kernelRun_B (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    Σ' (L4 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Reg1

end
-- ==== Proof.K.Reg1.lean ====
/- The layer kernel's pipeline number 1: what the output's staging buffer and the scratch accumulator hold after
   each grid point, the pipeline's proof data over them at the contents the region is entered with, and the body
   obligation — the body's two runs applied at the even and at the odd points. -/
import proofs.«136441_j876173328454_2_alg».proof.Proof.K.Reg1RunB

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At an even point the body stores nothing into the output: no pieces — a placeholder that nothing consults,
    the window being neither written back there nor read at the next point. -/
def out_A_4 (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VO_4.read (Elt F) (VO_4.writes (Elt F) VO_4.junk (kernelRun_A c i arg2 harg2 arg3 harg3 arg4 harg4 arg5 harg5 arg6 harg6 arg7 harg7 hc0 hc1 x0 x1 x2 x3).1)

/-- At an even point the accumulator's pieces (the zeros, then the sum) tile it, so they cover it. -/
theorem scover_A (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) (y : S1024x32.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S1024x32.size (by sl_kernel_rfl) y

/-- What an even point leaves in the accumulator: its pieces read back. -/
def sout_A (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VS.read (Elt F) (VS.writes (Elt F) VS.junk (kernelRun_A c i arg2 harg2 arg3 harg3 arg4 harg4 arg5 harg5 arg6 harg6 arg7 harg7 hc0 hc1 x0 x1 x2 x3).2.1)

/-- At an odd point the output's one store tiles its block, so it covers it. -/
theorem cover_B_4 (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).1, y ∈ pc.1.set :=
  View.cover_of_tiledL (kernelRun_B c i arg2 harg2 arg3 harg3 arg4 harg4 arg5 harg5 arg6 harg6 arg7 harg7 hc0 hc1 x0 x1 x2 x3 xs).1 S1024x32.size (by sl_kernel_rfl) y

/-- What an odd point leaves in the output's staging buffer: its pieces read back. -/
def out_B_4 (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VO_4.read (Elt F) (VO_4.writes (Elt F) VO_4.junk (kernelRun_B c i arg2 harg2 arg3 harg3 arg4 harg4 arg5 harg5 arg6 harg6 arg7 harg7 hc0 hc1 x0 x1 x2 x3 xs).1)

/-- At an odd point the accumulator's piece (the sum) tiles it, so it covers it. -/
theorem scover_B (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).2.1, y ∈ pc.1.set :=
  View.cover_of_tiledL (kernelRun_B c i arg2 harg2 arg3 harg3 arg4 harg4 arg5 harg5 arg6 harg6 arg7 harg7 hc0 hc1 x0 x1 x2 x3 xs).2.1 S1024x32.size (by sl_kernel_rfl) y

/-- What an odd point leaves in the accumulator: its pieces read back. -/
def sout_B (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VS.read (Elt F) (VS.writes (Elt F) VS.junk (kernelRun_B c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## What the output and the accumulator hold after each point -/

/-- What the output's staging buffer and the scratch accumulator hold after the body at position `n`: the even
    case at the point's memrefs and input blocks; the odd case over what the accumulator held after `n - 1`. -/
def outsAt (c : Dev nD) : (n : ℕ) → n < cfg1.N → Vec F S1024x32 .f32 × Vec F S1024x32 .f32
  | 0, hn => (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 2 = 0 then
      (out_A_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩))
    else
      (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at an even point: that case's contents. -/
theorem outsAt_A (c : Dev nD) (t : Fin cfg1.N) (h0 : t.val % 2 = 0) :
    outsAt V c t.val t.isLt = (out_A_4 c (grid1.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t), sout_A c (grid1.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t)) := by
  obtain ⟨n, hn⟩ := t
  cases n with
  | zero => exact rfl
  | succ n => exact (dif_pos h0).trans rfl

/-- `outsAt` at an odd point: that case's contents, over what the point before left in the accumulator. -/
theorem outsAt_B (c : Dev nD) (t : Fin cfg1.N) (h0 : ¬t.val % 2 = 0) :
    outsAt V c t.val t.isLt = (out_B_4 c (grid1.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2, sout_B c (grid1.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point what the launch hands the region; afterwards
    the accumulator at what the point before left in it, beside the other scoped buffers and the generator register. -/
def PhiS (c : Dev nD) : (n : ℕ) → n ≤ cfg1.N → sProp 𝕄
  | 0, _ => Pipeline.ΦA spec1 c
  | n + 1, hn => iprop(owns (c : Thread nD τ) scM fullShare ((outsAt V c n hn).2) ∗ restS (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt V c n hn).2) ∗ restS (F := F) c ∗ (∃ r, prngReg c r)) := rfl

theorem PhiS_pos (c : Dev nD) (n : ℕ) (h : n ≤ cfg1.N) (hz : n ≠ 0) :
    PhiS V c n h = iprop(owns (c : Thread nD τ) scM fullShare ((outsAt V c (n - 1) (by omega)).2) ∗ restS (F := F) c ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; the parity of the point says which case it is in;
    the invariant hands the body the accumulator at what the point before left (at anything at the first point) and
    takes it back at this point's contents; the other scoped buffers, the generator register and the core's debts
    pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  by_cases h0 : t.val % 2 = 0
  · have h1 : ¬t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := PhiA_split (F := F) c $$ HΦ
      icases HΦ' with ⟨HS, Hrest, Hg⟩
      iapply ((kernelRun_A c (grid1.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, Hrest, Hg⟩, Ho, ⟨%d0, H0⟩, ⟨%d1, H1⟩, ⟨%d2, H2⟩, ⟨%d3, H3⟩, ⟨%d4, H4⟩⟩
      iapply ((kernelRun_A c (grid1.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [show (dat V c).leavesExact 4 t = owns (c : Thread nD τ) (ms_4 t) fullShare ((dat V c).after 4 t) from by
        unfold Dat.leavesExact; rw [liveAt_4_B t (fun h => h0 ((hcond_0 t).mp h)) ((hcond_1 t).mpr h1)], after_4]
    rw [outsAt_B V c t h0]
    unfold out_B_4 sout_B; (try dsimp only)
    have hz : t.val ≠ 0 := by omega
    rw [PhiS_castSucc V c t, PhiS_pos V c _ _ hz]
    iintro ⟨⟨HS, Hrest, Hg⟩, Ho, ⟨%d0, H0⟩, ⟨%d1, H1⟩, ⟨%d2, H2⟩, ⟨%d3, H3⟩, ⟨%d4, H4⟩⟩
    iapply ((kernelRun_B c (grid1.coords t) _ _ _ _ _ _ _ _ _ _ _ _ (fun h => h0 ((hcond_0 t).mp h)) ((hcond_1 t).mpr h1) (iblk V c 0 t) (iblk V c 1 t) (iblk V c 2 t) (iblk V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS]
      · unfold owns; iexists _; isplitr
        swap; · iexact HS
        ipureintro; exact View.read_writes_of_cover _ _ _ _ _ (scover_B c _ _ _ _ _ _ _ _ _ _ _ _ _ _ _ _ _ _ _ _)
      isplitl [Hrest]; · iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B_4 c _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HS, Hrest, Hg⟩
  iapply (PhiA_join (F := F) c)
  isplitl [HS]
  · iexists _; iexact HS
  isplitl [Hrest]; · iexact Hrest
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end

end Cert.Kernel.Reg1

end
-- ==== Proof.K.Reg2Runs.lean ====
/- The layer kernel's pipeline number 2, the part its two cases share: each window's block read off the contents
   the region is entered with, the two branch conditions in closed form over the grid, where the output window
   is idle, and the scratch accumulator as a memref and as a view, split out of the region's invariant. -/
import proofs.«136441_j876173328454_2_alg».proof.Proof.Gen.Kernel.Launch
import proofs.«136441_j876173328454_2_alg».proof.Proof.Gen.Kernel.Skeleton
import proofs.«136441_j876173328454_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the
    block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

/-! ## The body's branch conditions -/

/-- The first conditional's test, from the grid coordinates: the inner coordinate is 0. -/
abbrev cond_0 (i : grid2.Coords) : Prop := (Scalar.cmpi .ne (Scalar.extui (Scalar.cmpi .eq (BitVec.ofNat 32 (i 1).val) 0#32)) 0#32) = 1#1
/-- It holds at the even points. -/
theorem hcond_0 : ∀ t : Fin cfg2.N, cond_0 (grid2.coords t) ↔ t.val % 2 = 0 :=
  (by decide +kernel : ∀ t : Fin grid2.N, cond_0 (grid2.coords t) ↔ t.val % 2 = 0)

/-- The second conditional's test: the inner coordinate is the last. -/
abbrev cond_1 (i : grid2.Coords) : Prop := k2_cond2 i = 1#1
/-- It holds at the odd points. -/
theorem hcond_1 : ∀ t : Fin cfg2.N, cond_1 (grid2.coords t) ↔ t.val % 2 = 1 :=
  (by decide +kernel : ∀ t : Fin grid2.N, cond_1 (grid2.coords t) ↔ t.val % 2 = 1)

/-! ## Where the windows are idle -/

/-- The inputs are never idle. -/
theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
theorem liveAt_3 : ∀ t : Fin cfg2.N, cfg2.idle 3 (grid2.coords t) = false := by decide +kernel
/-- At the even points the output window is idle: the body stores nothing into it, -/
theorem idleAt_4_A : ∀ t : Fin cfg2.N, cond_0 (grid2.coords t) → ¬cond_1 (grid2.coords t) → cfg2.idle 4 (grid2.coords t) = true := by decide +kernel
/-- and the pipeline does not write its block back there. -/
theorem noFlush_4_A : ∀ t : Fin cfg2.N, cond_0 (grid2.coords t) → ¬cond_1 (grid2.coords t) → (cfg2.win 4).flush t = false := by decide +kernel
/-- At the odd points the output window is live. -/
theorem liveAt_4_B : ∀ t : Fin cfg2.N, ¬cond_0 (grid2.coords t) → cond_1 (grid2.coords t) → cfg2.idle 4 (grid2.coords t) = false := by decide +kernel

/-! ## The staging memrefs and the scratch -/

/-- One staging buffer of the output window, through which its contents are stated. -/
abbrev VO_4 : View sig .tc .vmem S1024x32 .f32 := (Memref.whole cc2_stg4_0 : Memref sig .tc .vmem S1024x32 .f32).view
/-- Each window's current staging memref at point `t`, as the pipeline passes it, and its wholeness. -/
abbrev ms_0 (t : Fin cfg2.N) : Memref sig .tc .vmem S1024x4096 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S4096x32 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x32 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1024x1 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S1024x32 .f32 := win2_4.stage (cfg2.slots t 4)
abbrev hs_4 (t : Fin cfg2.N) : (ms_4 t).IsWhole := hstage2_4 ((cfg2.slots t 4).cast nbuf2_4)
/-- The scratch accumulator: a whole scoped buffer of the kernel's own, passed beside the windows, -/
abbrev scM : Memref sig .tc .vmem S1024x32 .f32 := Memref.whole cc2_scratch0
/-- and as a view: what it holds between points is stated through it. -/
abbrev VS : View sig .tc .vmem S1024x32 .f32 := scM.view

/-- The core's scoped buffers that are neither a staging buffer of this pipeline nor its scratch accumulator, each
    whole at some contents: the body never touches them. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The region's invariant hands out the scratch accumulator as a memref owned at some contents, beside the other
    scoped buffers and the generator register, -/
theorem PhiA_split (c : Dev nD) :
    (Pipeline.ΦA spec2 c : sProp 𝕄)
      ⊢ iprop((∃ d, owns (c : Thread nD τ) scM fullShare d) ∗ restS (F := F) c ∗ (∃ r, prngReg c r)) := by
  unfold Pipeline.ΦA restS; rw [scopedRest2_eq]; simp only [scM, owns_whole]
  iintro ⟨⟨H0, H1, H2, H3, H4, H5, H6, H7, H8, H9, H10, H11, H12, H13, H14, H15, H16, H17, HS⟩, Hg⟩
  isplitl [HS]; · iexact HS
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- and takes it back at any contents. -/
theorem PhiA_join (c : Dev nD) :
    iprop((∃ d, owns (c : Thread nD τ) scM fullShare d) ∗ restS (F := F) c ∗ (∃ r, prngReg c r))
      ⊢ (Pipeline.ΦA spec2 c : sProp 𝕄) := by
  unfold Pipeline.ΦA restS; rw [scopedRest2_eq]; simp only [scM, owns_whole]
  iintro ⟨HS, ⟨H0, H1, H2, H3, H4, H5, H6, H7, H8, H9, H10, H11, H12, H13, H14, H15, H16, H17⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HS

end Cert.Kernel.Reg2

end
-- ==== Proof.K.Reg2RunA.lean ====
/- The layer kernel's pipeline number 2, the body's run at an even point (the first conditional taken, the second not):
   the accumulator is zeroed and the product of the two blocks added into it; the output window is left as found. -/
import proofs.«136441_j876173328454_2_alg».proof.Proof.K.Reg2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the scratch accumulator at an even point, as pieces (last first), with the proof
    that on whole staging memrefs — the inputs' at their contents, the output's at contents `xi4` handed back
    untouched, the accumulator at anything — the body runs to the continuation holding the inputs' and the output's
    as they were and the accumulator with its pieces written. The output's piece list is empty. -/
noncomputable def kernelRun_A (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) :
    Σ' (L4 : List (View.Piece (Elt F) S1024x32 .f32)), { LS : List (View.Piece (Elt F) S1024x32 .f32) //
      ∀ (xi4 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Reg2

end
-- ==== Proof.K.Reg2RunB.lean ====
/- The layer kernel's pipeline number 2, the body's run at an odd point (the first conditional not taken, the second
   taken): the product of the two blocks is added into the accumulator the point before left, and the output block
   is stored whole from the accumulator, the degree block and the pre-activation block. -/
import proofs.«136441_j876173328454_2_alg».proof.Proof.K.Reg2RunA

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator at an odd point, as
    pieces (last first), with the proof that on whole staging memrefs — the inputs' at their contents, the output's
    at anything, the accumulator at the contents `xs` the point before left — the body runs to the continuation
    holding the inputs' as they were and the output's and the accumulator each with its pieces written. -/
noncomputable def kernelRun_B (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    Σ' (L4 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Reg2

end
-- ==== Proof.K.Reg2.lean ====
/- The layer kernel's pipeline number 2: what the output's staging buffer and the scratch accumulator hold after
   each grid point, the pipeline's proof data over them at the contents the region is entered with, and the body
   obligation — the body's two runs applied at the even and at the odd points. -/
import proofs.«136441_j876173328454_2_alg».proof.Proof.K.Reg2RunB

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At an even point the body stores nothing into the output: no pieces — a placeholder that nothing consults,
    the window being neither written back there nor read at the next point. -/
def out_A_4 (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VO_4.read (Elt F) (VO_4.writes (Elt F) VO_4.junk (kernelRun_A c i arg2 harg2 arg3 harg3 arg4 harg4 arg5 harg5 arg6 harg6 arg7 harg7 hc0 hc1 x0 x1 x2 x3).1)

/-- At an even point the accumulator's pieces (the zeros, then the sum) tile it, so they cover it. -/
theorem scover_A (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) (y : S1024x32.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S1024x32.size (by sl_kernel_rfl) y

/-- What an even point leaves in the accumulator: its pieces read back. -/
def sout_A (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VS.read (Elt F) (VS.writes (Elt F) VS.junk (kernelRun_A c i arg2 harg2 arg3 harg3 arg4 harg4 arg5 harg5 arg6 harg6 arg7 harg7 hc0 hc1 x0 x1 x2 x3).2.1)

/-- At an odd point the output's one store tiles its block, so it covers it. -/
theorem cover_B_4 (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).1, y ∈ pc.1.set :=
  View.cover_of_tiledL (kernelRun_B c i arg2 harg2 arg3 harg3 arg4 harg4 arg5 harg5 arg6 harg6 arg7 harg7 hc0 hc1 x0 x1 x2 x3 xs).1 S1024x32.size (by sl_kernel_rfl) y

/-- What an odd point leaves in the output's staging buffer: its pieces read back. -/
def out_B_4 (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VO_4.read (Elt F) (VO_4.writes (Elt F) VO_4.junk (kernelRun_B c i arg2 harg2 arg3 harg3 arg4 harg4 arg5 harg5 arg6 harg6 arg7 harg7 hc0 hc1 x0 x1 x2 x3 xs).1)

/-- At an odd point the accumulator's piece (the sum) tiles it, so it covers it. -/
theorem scover_B (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).2.1, y ∈ pc.1.set :=
  View.cover_of_tiledL (kernelRun_B c i arg2 harg2 arg3 harg3 arg4 harg4 arg5 harg5 arg6 harg6 arg7 harg7 hc0 hc1 x0 x1 x2 x3 xs).2.1 S1024x32.size (by sl_kernel_rfl) y

/-- What an odd point leaves in the accumulator: its pieces read back. -/
def sout_B (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VS.read (Elt F) (VS.writes (Elt F) VS.junk (kernelRun_B c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## What the output and the accumulator hold after each point -/

/-- What the output's staging buffer and the scratch accumulator hold after the body at position `n`: the even
    case at the point's memrefs and input blocks; the odd case over what the accumulator held after `n - 1`. -/
def outsAt (c : Dev nD) : (n : ℕ) → n < cfg2.N → Vec F S1024x32 .f32 × Vec F S1024x32 .f32
  | 0, hn => (out_A_4 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩), sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 2 = 0 then
      (out_A_4 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩), sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩))
    else
      (out_B_4 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at an even point: that case's contents. -/
theorem outsAt_A (c : Dev nD) (t : Fin cfg2.N) (h0 : t.val % 2 = 0) :
    outsAt V c t.val t.isLt = (out_A_4 c (grid2.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t), sout_A c (grid2.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t)) := by
  obtain ⟨n, hn⟩ := t
  cases n with
  | zero => exact rfl
  | succ n => exact (dif_pos h0).trans rfl

/-- `outsAt` at an odd point: that case's contents, over what the point before left in the accumulator. -/
theorem outsAt_B (c : Dev nD) (t : Fin cfg2.N) (h0 : ¬t.val % 2 = 0) :
    outsAt V c t.val t.isLt = (out_B_4 c (grid2.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2, sout_B c (grid2.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point what the launch hands the region; afterwards
    the accumulator at what the point before left in it, beside the other scoped buffers and the generator register. -/
def PhiS (c : Dev nD) : (n : ℕ) → n ≤ cfg2.N → sProp 𝕄
  | 0, _ => Pipeline.ΦA spec2 c
  | n + 1, hn => iprop(owns (c : Thread nD τ) scM fullShare ((outsAt V c n hn).2) ∗ restS (F := F) c ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare ((outsAt V c n hn).2) ∗ restS (F := F) c ∗ (∃ r, prngReg c r)) := rfl

theorem PhiS_pos (c : Dev nD) (n : ℕ) (h : n ≤ cfg2.N) (hz : n ≠ 0) :
    PhiS V c n h = iprop(owns (c : Thread nD τ) scM fullShare ((outsAt V c (n - 1) (by omega)).2) ∗ restS (F := F) c ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by
  dsimp only [dat]

/-- The invariant at a point's start, restated at the point's position. -/
theorem PhiS_castSucc (c : Dev nD) (t : Fin cfg2.N) :
    (dat V c).Φ t.castSucc = PhiS V c t.val (Nat.le_of_lt t.isLt) := by
  dsimp only [dat]; simp only [Fin.coe_castSucc]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; the parity of the point says which case it is in;
    the invariant hands the body the accumulator at what the point before left (at anything at the first point) and
    takes it back at this point's contents; the other scoped buffers, the generator register and the core's debts
    pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg2.N = 16 from N_2)
  by_cases h0 : t.val % 2 = 0
  · have h1 : ¬t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := PhiA_split (F := F) c $$ HΦ
      icases HΦ' with ⟨HS, Hrest, Hg⟩
      iapply ((kernelRun_A c (grid2.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, Hrest, Hg⟩, Ho, ⟨%d0, H0⟩, ⟨%d1, H1⟩, ⟨%d2, H2⟩, ⟨%d3, H3⟩, ⟨%d4, H4⟩⟩
      iapply ((kernelRun_A c (grid2.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [show (dat V c).leavesExact 4 t = owns (c : Thread nD τ) (ms_4 t) fullShare ((dat V c).after 4 t) from by
        unfold Dat.leavesExact; rw [liveAt_4_B t (fun h => h0 ((hcond_0 t).mp h)) ((hcond_1 t).mpr h1)], after_4]
    rw [outsAt_B V c t h0]
    unfold out_B_4 sout_B; (try dsimp only)
    have hz : t.val ≠ 0 := by omega
    rw [PhiS_castSucc V c t, PhiS_pos V c _ _ hz]
    iintro ⟨⟨HS, Hrest, Hg⟩, Ho, ⟨%d0, H0⟩, ⟨%d1, H1⟩, ⟨%d2, H2⟩, ⟨%d3, H3⟩, ⟨%d4, H4⟩⟩
    iapply ((kernelRun_B c (grid2.coords t) _ _ _ _ _ _ _ _ _ _ _ _ (fun h => h0 ((hcond_0 t).mp h)) ((hcond_1 t).mpr h1) (iblk V c 0 t) (iblk V c 1 t) (iblk V c 2 t) (iblk V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS]
      · unfold owns; iexists _; isplitr
        swap; · iexact HS
        ipureintro; exact View.read_writes_of_cover _ _ _ _ _ (scover_B c _ _ _ _ _ _ _ _ _ _ _ _ _ _ _ _ _ _ _ _)
      isplitl [Hrest]; · iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B_4 c _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht]
  iintro ⟨HS, Hrest, Hg⟩
  iapply (PhiA_join (F := F) c)
  isplitl [HS]
  · iexists _; iexact HS
  isplitl [Hrest]; · iexact Hrest
  iexact Hg

/-- The same after the last point. -/
theorem hout (c : Dev nD) : (dat V c).Φ (Fin.last cfg2.N) ⊢ Pipeline.ΦA spec2 c :=
  Phi_out V c _ (by rw [Fin.val_last]; have : cfg2.N = 16 := N_2; omega)

end

end Cert.Kernel.Reg2

end
-- ==== Proof.K.Whole.lean ====
/-
  The whole program's run: the contents of the processor's buffers at every boundary between @main's six items (three
  pipelined regions, each followed by a stretch of host operations), as a fold from the launch memory; each region as
  a segment between two such boundaries; and the launch: every fair execution terminates with every unscoped buffer
  at the last boundary's contents.
-/
import proofs.«136441_j876173328454_2_alg».proof.Proof.K.Reg0
import proofs.«136441_j876173328454_2_alg».proof.Proof.K.Reg1
import proofs.«136441_j876173328454_2_alg».proof.Proof.K.Reg2
import proofs.«136441_j876173328454_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0 is @main's first item). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- After region 0: its arrays at what the write-backs leave, every other buffer as entered. -/
def W1 (c : Dev nD) : Valuation τ sig (Elt F) :=
  Pipeline.withArrays spec0 c (W0 m ρ c) fun w => (Reg0.dat (E0 m ρ) c).arrAt w cfg0.N
theorem W1_arr (c : Dev nD) (w : Fin cfg0.W) :
    W1 m ρ c (Proc.devRef .tc (Pipeline.arrRef spec0 w)) = (Reg0.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (Reg0.dat (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)
/-- After the host stretch that follows. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- After region 1: its arrays at what the write-backs leave, every other buffer as entered. -/
def W3 (c : Dev nD) : Valuation τ sig (Elt F) :=
  Pipeline.withArrays spec1 c (W2 m ρ c) fun w => (Reg1.dat (E2 m ρ) c).arrAt w cfg1.N
theorem W3_arr (c : Dev nD) (w : Fin cfg1.W) :
    W3 m ρ c (Proc.devRef .tc (Pipeline.arrRef spec1 w)) = (Reg1.dat (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (Reg1.dat (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)
/-- After the host stretch that follows. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- After region 2: its arrays at what the write-backs leave, every other buffer as entered. -/
def W5 (c : Dev nD) : Valuation τ sig (Elt F) :=
  Pipeline.withArrays spec2 c (W4 m ρ c) fun w => (Reg2.dat (E4 m ρ) c).arrAt w cfg2.N
theorem W5_arr (c : Dev nD) (w : Fin cfg2.W) :
    W5 m ρ c (Proc.devRef .tc (Pipeline.arrRef spec2 w)) = (Reg2.dat (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev E5 : (c : Dev nD) → (b : Ref sig .tc) → Buf (Elt F) ((c : Thread nD τ).loc b) := fun c b => W5 m ρ c b
theorem hF2 (c : Dev nD) (w : Fin cfg2.W) : (Reg2.dat (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)
/-- After the last host stretch: the end. -/
abbrev W6 : Dev nD → Valuation τ sig (Elt F) := fun c => StableHlo.after hostOps3 (W5 m ρ c)

/-! ## The arguments end as launched -/

/-- A buffer no host stretch writes and no later region stages reaches the end as region 0 left it. -/
theorem W6_of (c : Dev nD) (b : Ref sig .tc) (h3 : b ∉ hostOps3_W) (h2 : b ∉ hostOps2_W) (h1 : b ∉ hostOps1_W)
    (a2 : ∀ w, Pipeline.arrRef spec2 w ≠ b) (a1 : ∀ w, Pipeline.arrRef spec1 w ≠ b) :
    W6 m ρ c (Proc.devRef .tc b) = W1 m ρ c (Proc.devRef .tc b) :=
  (StableHlo.after_of_writes_sub hostOps3 _ hostOps3_writes h3).trans <|
    (W5_of_ne m ρ c b a2).trans <| (StableHlo.after_of_writes_sub hostOps2 _ hostOps2_writes h2).trans <|
    (W3_of_ne m ρ c b a1).trans <| (StableHlo.after_of_writes_sub hostOps1 _ hostOps1_writes h1)

theorem W6_main_arg0 (c : Dev nD) : W6 m ρ c (Proc.devRef .tc main_arg0) = m ((c : Thread nD τ).loc main_arg0) :=
  (W6_of m ρ c main_arg0 (by decide) (by decide) (by decide) (by decide) (by decide)).trans ((W1_of_ne m ρ c main_arg0 (by decide)).trans rfl)
theorem W6_main_arg2 (c : Dev nD) : W6 m ρ c (Proc.devRef .tc main_arg2) = m ((c : Thread nD τ).loc main_arg2) :=
  (W6_of m ρ c main_arg2 (by decide) (by decide) (by decide) (by decide) (by decide)).trans ((W1_of_ne m ρ c main_arg2 (by decide)).trans rfl)
theorem W6_main_arg3 (c : Dev nD) : W6 m ρ c (Proc.devRef .tc main_arg3) = m ((c : Thread nD τ).loc main_arg3) :=
  (W6_of m ρ c main_arg3 (by decide) (by decide) (by decide) (by decide) (by decide)).trans ((W1_of_ne m ρ c main_arg3 (by decide)).trans rfl)
theorem W6_main_arg4 (c : Dev nD) : W6 m ρ c (Proc.devRef .tc main_arg4) = m ((c : Thread nD τ).loc main_arg4) :=
  (W6_of m ρ c main_arg4 (by decide) (by decide) (by decide) (by decide) (by decide)).trans ((W1_of_ne m ρ c main_arg4 (by decide)).trans rfl)
theorem W6_main_arg5 (c : Dev nD) : W6 m ρ c (Proc.devRef .tc main_arg5) = m ((c : Thread nD τ).loc main_arg5) :=
  (W6_of m ρ c main_arg5 (by decide) (by decide) (by decide) (by decide) (by decide)).trans ((W1_of_ne m ρ c main_arg5 (by decide)).trans rfl)
theorem W6_main_arg6 (c : Dev nD) : W6 m ρ c (Proc.devRef .tc main_arg6) = m ((c : Thread nD τ).loc main_arg6) :=
  (W6_of m ρ c main_arg6 (by decide) (by decide) (by decide) (by decide) (by decide)).trans ((W1_of_ne m ρ c main_arg6 (by decide)).trans rfl)
theorem W6_main_arg7 (c : Dev nD) : W6 m ρ c (Proc.devRef .tc main_arg7) = m ((c : Thread nD τ).loc main_arg7) :=
  (W6_of m ρ c main_arg7 (by decide) (by decide) (by decide) (by decide) (by decide)).trans ((W1_of_ne m ρ c main_arg7 (by decide)).trans rfl)
/-- The adjacency matrix is region 0's input window's array: an input array is never written. -/
theorem W6_main_arg1 (c : Dev nD) : W6 m ρ c (Proc.devRef .tc main_arg1) = m ((c : Thread nD τ).loc main_arg1) :=
  (W6_of m ρ c main_arg1 (by decide) (by decide) (by decide) (by decide) (by decide)).trans
    ((W1_arr m ρ c 0).trans (((Reg0.dat (E0 m ρ) c).arrAt_in 0 rfl _).trans ((Reg0.A_eq (E0 m ρ) c 0).trans rfl)))

/-! ## The proof data family and what rides beside the buffers -/

abbrev admK : (p : Fin 3) → (pcfgs (F := F) p).Adm := fun p => (cfgs p).toPCfg_adm
/-- Every region's proof data at its entry contents: a literal match on the region's number. -/
def pdats : (p : Fin 3) → (c : Dev nD) → Dat τ (Elt F) Unit ℕ (UR sig nD τ) ℕ (Pipeline.pin (pcfgs (F := F)) admK p) c
  | ⟨0, _⟩ => fun c => Reg0.dat (E0 m ρ) c
  | ⟨1, _⟩ => fun c => Reg1.dat (E2 m ρ) c
  | ⟨2, _⟩ => fun c => Reg2.dat (E4 m ρ) c
abbrev 𝒱₀ : Variants := Variants.none
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered with every unscoped buffer at `W0`, left with them at `W1`; its arrays split
    out of the unscoped buffers and put back at their final contents; the generator register into the region's
    invariant and out; nothing owed; no semaphore of the kernel's own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from Reg0.hout (E0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`; its arrays split
    out of the unscoped buffers and put back at their final contents; the generator register into the region's
    invariant and out; nothing owed; no semaphore of the kernel's own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from Reg1.hout (E2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`; its arrays split
    out of the unscoped buffers and put back at their final contents; the generator register into the region's
    invariant and out; nothing owed; no semaphore of the kernel's own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from Reg2.hout (E4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev items : List (Pipeline.Seg (pcfgs (F := F)) admK (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (items m ρ) := (main_chain c).trans (by chain_rfl)

set_option backward.isDefEq.respectTransparency.types false in
/-- From any memory with zero counters every fair execution of @main terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admK (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Whole

end
-- ==== Proof.KI.Reg0Runs.lean ====
/-
  The degree pass (the first of the program's three pipelined regions), part 1: what its per-point runs share.

  The region walks an 8 × 4 grid; point t has row block t / 4 and column block j = t % 4. The body keeps a column
  of 1024 partial row sums in a scratch buffer across the four column blocks of a row block: it clears the scratch
  when j = 0, adds the block's row sums at every point, copies the block in the narrower format at every point, and
  when j = 3 stores the reciprocal square root of the clipped degree. So a point is in one of three cases:
  first (j = 0), middle (j = 1, 2), last (j = 3). The degree output is idle, and not written back, except at the
  last point of a row block.
-/
import proofs.«136441_j876173328454_2_alg».proof.Proof.Gen.KernelIdeal.Launch
import proofs.«136441_j876173328454_2_alg».proof.Proof.Gen.KernelIdeal.Skeleton
import proofs.«136441_j876173328454_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the processor's buffers when the region is entered: a parameter here
variable (V : (c : Dev nD) → (b : Ref sig .tc) → Buf (Elt F) ((c : Thread nD τ).loc b))

/-! ## A window's block at a point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point (it is fetched at every point, never cut,
    never idle), for any proof data over the entry contents whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The two conditions, decided over the grid -/

/-- "This is the first column block" as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last column block". -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are live -/

theorem live_in : ∀ t : Fin cfg0.N, cfg0.idle 0 (grid0.coords t) = false := by decide +kernel
theorem live_copy : ∀ t : Fin cfg0.N, cfg0.idle 2 (grid0.coords t) = false := by decide +kernel
/-- Off the last column block the degree output is idle and not written back. -/
theorem idle_deg : ∀ t : Fin cfg0.N, ¬isLast (grid0.coords t) → cfg0.idle 1 (grid0.coords t) = true := by decide +kernel
theorem noFlush_deg : ∀ t : Fin cfg0.N, ¬isLast (grid0.coords t) → (cfg0.win 1).flush t = false := by decide +kernel
theorem live_deg : ∀ t : Fin cfg0.N, isLast (grid0.coords t) → cfg0.idle 1 (grid0.coords t) = false := by decide +kernel

/-! ## The memrefs the body is called with -/

abbrev mIn (t : Fin cfg0.N) : Memref sig .tc .vmem S1024x2048 .f32 := win0_0.stage (cfg0.slots t 0)
abbrev hIn (t : Fin cfg0.N) : (mIn t).IsWhole := hstage0_0 ((cfg0.slots t 0).cast nbuf0_0)
abbrev mDeg (t : Fin cfg0.N) : Memref sig .tc .vmem S1024x1 .f32 := win0_1.stage (cfg0.slots t 1)
abbrev hDeg (t : Fin cfg0.N) : (mDeg t).IsWhole := hstage0_1 ((cfg0.slots t 1).cast nbuf0_1)
abbrev mCopy (t : Fin cfg0.N) : Memref sig .tc .vmem S1024x2048 .bf16 := win0_2.stage (cfg0.slots t 2)
abbrev hCopy (t : Fin cfg0.N) : (mCopy t).IsWhole := hstage0_2 ((cfg0.slots t 2).cast nbuf0_2)
/-- The scratch column of partial row sums: a whole scoped buffer of the kernel's own. -/
abbrev mAcc : Memref sig .tc .vmem S1024x1 .f32 := Memref.whole cc0_scratch0
/-- Views through which buffer contents are stated (any whole buffer of the shape would do). -/
abbrev vAcc : View sig .tc .vmem S1024x1 .f32 := mAcc.view
abbrev vDeg : View sig .tc .vmem S1024x1 .f32 := (Memref.whole cc0_stg1_0 : Memref sig .tc .vmem S1024x1 .f32).view
abbrev vCopy : View sig .tc .vmem S1024x2048 .bf16 := (Memref.whole cc0_stg2_0 : Memref sig .tc .vmem S1024x2048 .bf16).view

/-- The region's resting invariant with the scratch column spelled as a memref owned at some contents. -/
theorem restInv_eq (c : Dev nD) :
    (Pipeline.ΦA spec0 c : sProp 𝕄)
      = iprop(iprop((∃ d, owns (c : Thread nD τ) mAcc fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest0_eq]; simp only [mAcc, owns_whole]; try rfl

end Cert.KernelIdeal.Reg0

end
-- ==== Proof.KI.Reg0RunFirst.lean ====
/-
  The degree pass, part 2: the body at a point of the first column block. The scratch column is cleared and then
  receives the block's row sums; the block is copied in the narrower format; the degree output is left alone.
  The lists of stored pieces (last store first) are found by running the body.
-/
import proofs.«136441_j876173328454_2_alg».proof.Proof.KI.Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x2048 .bf16) (harg4 : arg4.IsWhole) (arg5 : Memref sig .tc .vmem S1024x1 .f32) (harg5 : arg5.IsWhole) (hc0 : isFirst i) (hc1 : ¬isLast i)
    (x0 : Vec F S1024x2048 .f32) :
    Σ' (LC : List (View.Piece (Elt F) S1024x2048 .bf16)), { LA : List (View.Piece (Elt F) S1024x1 .f32) //
      ∀ (xd : Vec F S1024x1 .f32) (E : Set ℕ) (K : PUnit → sProp 𝕄),
        iprop(owns (c : Thread nD τ) arg2 fullShare x0 ∗ owns (c : Thread nD τ) arg3 fullShare xd ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xd ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LA)) -∗ K ⟨⟩))
          ⊢ wp frame (wpE (defs₀ (F := F)) Variants.none c none) E (cc0__degree_kernel i arg2 harg2 arg3 harg3 arg4 harg4 arg5 harg5) K } := by
  refine ⟨?_, ?_, fun xd E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Reg0

end
-- ==== Proof.KI.Reg0RunMiddle.lean ====
/-
  The degree pass, part 3: the body at a point of a middle column block. The scratch column, holding the partial
  row sums `xa` of the blocks before, receives them plus this block's row sums; the block is copied in the narrower
  format; the degree output is left alone.
-/
import proofs.«136441_j876173328454_2_alg».proof.Proof.KI.Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMiddle (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x2048 .bf16) (harg4 : arg4.IsWhole) (arg5 : Memref sig .tc .vmem S1024x1 .f32) (harg5 : arg5.IsWhole) (hc0 : ¬isFirst i) (hc1 : ¬isLast i)
    (x0 : Vec F S1024x2048 .f32) (xa : Vec F S1024x1 .f32) :
    Σ' (LC : List (View.Piece (Elt F) S1024x2048 .bf16)), { LA : List (View.Piece (Elt F) S1024x1 .f32) //
      ∀ (xd : Vec F S1024x1 .f32) (E : Set ℕ) (K : PUnit → sProp 𝕄),
        iprop(owns (c : Thread nD τ) arg2 fullShare x0 ∗ owns (c : Thread nD τ) arg3 fullShare xd ∗ (∃ d, owns (c : Thread nD τ) arg4 fullShare d) ∗ owns (c : Thread nD τ) arg5 fullShare xa
            ∗ (iprop(owns (c : Thread nD τ) arg2 fullShare x0 ∗ owns (c : Thread nD τ) arg3 fullShare xd ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LA)) -∗ K ⟨⟩))
          ⊢ wp frame (wpE (defs₀ (F := F)) Variants.none c none) E (cc0__degree_kernel i arg2 harg2 arg3 harg3 arg4 harg4 arg5 harg5) K } := by
  refine ⟨?_, ?_, fun xd E K => ?run⟩
  case run =>
    simp only [cc0__degree_kernel_eq_skeleton]; unfold cc0__degree_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Reg0

end
-- ==== Proof.KI.Reg0RunLast.lean ====
/-
  The degree pass, part 4: the body at a point of the last column block. The scratch column receives the last
  block's row sums; the block is copied in the narrower format; the degree output receives the reciprocal square
  root of the clipped total.
-/
import proofs.«136441_j876173328454_2_alg».proof.Proof.KI.Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x2048 .bf16) (harg4 : arg4.IsWhole) (arg5 : Memref sig .tc .vmem S1024x1 .f32) (harg5 : arg5.IsWhole) (hc0 : ¬isFirst i) (hc1 : isLast i)
    (x0 : Vec F S1024x2048 .f32) (xa : Vec F S1024x1 .f32) :
    Σ' (LD : List (View.Piece (Elt F) S1024x1 .f32)) (LC : List (View.Piece (Elt F) S1024x2048 .bf16)), { LA : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xa
            ∗ (iprop(owns (c : Thread nD τ) arg2 fullShare x0 ∗ (∃ f, arg3.view.loc (c : Thread nD τ) ↦[arg3.view.set]{fullShare} arg3.view.writes (Elt F) f LD) ∗ (∃ f, arg4.view.loc (c : Thread nD τ) ↦[arg4.view.set]{fullShare} arg4.view.writes (Elt F) f LC) ∗ (∃ f, arg5.view.loc (c : Thread nD τ) ↦[arg5.view.set]{fullShare} arg5.view.writes (Elt F) f LA)) -∗ K ⟨⟩))
          ⊢ wp frame (wpE (defs₀ (F := F)) Variants.none c none) E (cc0__degree_kernel i arg2 harg2 arg3 harg3 arg4 harg4 arg5 harg5) K } := by
  refine ⟨?_, ?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.KernelIdeal.Reg0

end
-- ==== Proof.KI.Reg0.lean ====
/-
  The degree pass, part 5: what its buffers hold point by point, the region's invariant, and the body's obligation
  to the pipeline at every point.

  After point t the scratch column holds the row sums of the column blocks 0 … t % 4 of row block t / 4 (by
  recursion on the point: cleared at a first block, else the previous point's column plus this block's row sums);
  the copy buffer holds the block in the narrower format; the degree buffer is written only at a last block, from
  the scratch column the point before left.
-/
import proofs.«136441_j876173328454_2_alg».proof.Proof.KI.Reg0RunFirst
import proofs.«136441_j876173328454_2_alg».proof.Proof.KI.Reg0RunMiddle
import proofs.«136441_j876173328454_2_alg».proof.Proof.KI.Reg0RunLast

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, as its stored pieces read back -/

section Cases
variable (c : Dev nD) (t : Fin cfg0.N)

/-- First column block: the scratch column and the copy. -/
def accFirst (h0 : t.val % 4 = 0) : Vec F S1024x1 .f32 :=
  vAcc.read (Elt F) (vAcc.writes (Elt F) vAcc.junk (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.1)
def copyFirst (h0 : t.val % 4 = 0) : Vec F S1024x2048 .bf16 :=
  vCopy.read (Elt F) (vCopy.writes (Elt F) vCopy.junk (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).1)
theorem coverAccFirst (h0 : t.val % 4 = 0) (y : S1024x1.Idx) :
    ∃ pc ∈ (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.1, y ∈ pc.1.set :=
  View.cover_of_tiledL _ S1024x1.size (by sl_kernel_rfl) y
theorem coverCopyFirst (h0 : t.val % 4 = 0) (y : S1024x2048.Idx) :
    ∃ pc ∈ (runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).1, y ∈ pc.1.set :=
  View.cover_of_tiledL _ S1024x2048.size (by sl_kernel_rfl) y

/-- Middle column block, over the scratch column `xa` the point before left. -/
def accMiddle (h0 : ¬t.val % 4 = 0) (h1 : ¬t.val % 4 = 3) (xa : Vec F S1024x1 .f32) : Vec F S1024x1 .f32 :=
  vAcc.read (Elt F) (vAcc.writes (Elt F) vAcc.junk (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).2.1)
def copyMiddle (h0 : ¬t.val % 4 = 0) (h1 : ¬t.val % 4 = 3) (xa : Vec F S1024x1 .f32) : Vec F S1024x2048 .bf16 :=
  vCopy.read (Elt F) (vCopy.writes (Elt F) vCopy.junk (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).1)
theorem coverAccMiddle (h0 : ¬t.val % 4 = 0) (h1 : ¬t.val % 4 = 3) (xa : Vec F S1024x1 .f32) (y : S1024x1.Idx) :
    ∃ pc ∈ (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).2.1, y ∈ pc.1.set :=
  View.cover_of_tiledL _ S1024x1.size (by sl_kernel_rfl) y
theorem coverCopyMiddle (h0 : ¬t.val % 4 = 0) (h1 : ¬t.val % 4 = 3) (xa : Vec F S1024x1 .f32) (y : S1024x2048.Idx) :
    ∃ pc ∈ (runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) xa).1, y ∈ pc.1.set :=
  View.cover_of_tiledL _ S1024x2048.size (by sl_kernel_rfl) y

/-- Last column block, over the scratch column `xa` the point before left. -/
def accLast (h1 : t.val % 4 = 3) (xa : Vec F S1024x1 .f32) : Vec F S1024x1 .f32 :=
  vAcc.read (Elt F) (vAcc.writes (Elt F) vAcc.junk (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.2.1)
def copyLast (h1 : t.val % 4 = 3) (xa : Vec F S1024x1 .f32) : Vec F S1024x2048 .bf16 :=
  vCopy.read (Elt F) (vCopy.writes (Elt F) vCopy.junk (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.1)
def degLast (h1 : t.val % 4 = 3) (xa : Vec F S1024x1 .f32) : Vec F S1024x1 .f32 :=
  vDeg.read (Elt F) (vDeg.writes (Elt F) vDeg.junk (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).1)
theorem coverAccLast (h1 : t.val % 4 = 3) (xa : Vec F S1024x1 .f32) (y : S1024x1.Idx) :
    ∃ pc ∈ (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.2.1, y ∈ pc.1.set :=
  View.cover_of_tiledL _ S1024x1.size (by sl_kernel_rfl) y
theorem coverCopyLast (h1 : t.val % 4 = 3) (xa : Vec F S1024x1 .f32) (y : S1024x2048.Idx) :
    ∃ pc ∈ (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).2.1, y ∈ pc.1.set :=
  View.cover_of_tiledL _ S1024x2048.size (by sl_kernel_rfl) y
theorem coverDegLast (h1 : t.val % 4 = 3) (xa : Vec F S1024x1 .f32) (y : S1024x1.Idx) :
    ∃ pc ∈ (runLast c (grid0.coords t) (mIn t) (hIn t) (mDeg t) (hDeg t) (mCopy t) (hCopy t) mAcc (Memref.isWhole_whole _) (fun h => by have := (isFirst_iff t).mp h; omega) ((isLast_iff t).mpr h1) (iblk V c 0 t) xa).1, y ∈ pc.1.set :=
  View.cover_of_tiledL _ S1024x1.size (by sl_kernel_rfl) y

end Cases

/-! ## The accumulation, by recursion on the point -/

/-- The scratch column after point `n`. -/
def accAt (c : Dev nD) : (n : ℕ) → n < cfg0.N → Vec F S1024x1 .f32
  | 0, hn => accFirst V c ⟨0, hn⟩ (Nat.zero_mod 4)
  | n + 1, hn =>
    if h0 : (n + 1) % 4 = 0 then accFirst V c ⟨n + 1, hn⟩ h0
    else if h1 : (n + 1) % 4 = 3 then accLast V c ⟨n + 1, hn⟩ h1 (accAt c n (Nat.lt_of_succ_lt hn))
    else accMiddle V c ⟨n + 1, hn⟩ h0 h1 (accAt c n (Nat.lt_of_succ_lt hn))

/-- The scratch column the point before `t` left (at `t = 0`: an unread placeholder). -/
abbrev accBefore (c : Dev nD) (t : Fin cfg0.N) : Vec F S1024x1 .f32 :=
  accAt V c (t.val - 1) (Nat.lt_of_le_of_lt (Nat.sub_le _ _) t.isLt)

theorem accAt_first (c : Dev nD) (t : Fin cfg0.N) (h0 : t.val % 4 = 0) :
    accAt V c t.val t.isLt = accFirst V c t h0 := by
  obtain ⟨n, hn⟩ := t
  cases n with
  | zero => rfl
  | succ n => exact (dif_pos h0).trans rfl
theorem accAt_middle (c : Dev nD) (t : Fin cfg0.N) (h0 : ¬t.val % 4 = 0) (h1 : ¬t.val % 4 = 3) :
    accAt V c t.val t.isLt = accMiddle V c t h0 h1 (accBefore V c t) := by
  obtain ⟨n, hn⟩ := t
  cases n with
  | zero => exact absurd (Nat.zero_mod _) h0
  | succ n => exact (dif_neg h0).trans ((dif_neg h1).trans rfl)
theorem accAt_last (c : Dev nD) (t : Fin cfg0.N) (h1 : t.val % 4 = 3) :
    accAt V c t.val t.isLt = accLast V c t h1 (accBefore V c t) := by
  obtain ⟨n, hn⟩ := t
  cases n with
  | zero => exfalso; simp at h1
  | succ n => exact (dif_neg (by dsimp only at h1 ⊢; omega)).trans ((dif_pos h1).trans rfl)

/-- The copy buffer after point `t`. -/
def copyAt (c : Dev nD) (t : Fin cfg0.N) : Vec F S1024x2048 .bf16 :=
  if h0 : t.val % 4 = 0 then copyFirst V c t h0
  else if h1 : t.val % 4 = 3 then copyLast V c t h1 (accBefore V c t)
  else copyMiddle V c t h0 h1 (accBefore V c t)

/-- The degree buffer after point `t`: written at a last column block only (elsewhere a placeholder nothing reads:
    the window is idle there and not written back). -/
def degAt (c : Dev nD) (t : Fin cfg0.N) : Vec F S1024x1 .f32 :=
  if h1 : t.val % 4 = 3 then degLast V c t h1 (accBefore V c t) else vDeg.read (Elt F) vDeg.junk

/-! ## The invariant -/

/-- The processor's other scoped buffers (the later regions' staging and scratch), each whole at some contents. -/
def others (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

theorem restInv_eq' (c : Dev nD) :
    (Pipeline.ΦA spec0 c : sProp 𝕄) = iprop(iprop((∃ d, owns (c : Thread nD τ) mAcc fullShare d) ∗ others c) ∗ (∃ r, prngReg c r)) := by
  unfold others; exact restInv_eq c

/-- Before point `n`: at the start the resting invariant; afterwards the same with the scratch column at what the
    point before left. -/
def inv (c : Dev nD) : (n : ℕ) → n ≤ cfg0.N → sProp 𝕄
  | 0, _ => Pipeline.ΦA spec0 c
  | n + 1, hn => iprop(iprop(owns (c : Thread nD τ) mAcc fullShare (accAt V c n hn) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(iprop(owns (c : Thread nD τ) mAcc fullShare (accAt V c n hn) ∗ others c) ∗ (∃ r, prngReg c r)) := rfl
theorem inv_pos (c : Dev nD) (n : ℕ) (h : n ≤ cfg0.N) (hz : n ≠ 0) :
    inv V c n h = iprop(iprop(owns (c : Thread nD τ) mAcc fullShare (accAt V c (n - 1) (by omega)) ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => degAt V c t
    | ⟨2, _⟩ => copyAt V c t
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = inv V c t.val (Nat.le_of_lt t.isLt) := by
  dsimp only [dat]; simp only [Fin.coe_castSucc]
theorem after_in (c : Dev nD) (t : Fin cfg0.N) : (dat V c).after 0 t = iblk V c 0 t := by dsimp only [dat]
theorem after_deg (c : Dev nD) (t : Fin cfg0.N) : (dat V c).after 1 t = degAt V c t := by dsimp only [dat]
theorem after_copy (c : Dev nD) (t : Fin cfg0.N) : (dat V c).after 2 t = copyAt V c t := by dsimp only [dat]
theorem before_in (c : Dev nD) (t : Fin cfg0.N) (d) : (dat V c).before 0 t d = iblk V c 0 t :=
  before_in_of V (dat V c) (A_eq V c 0) (after_in V c) t d

/-! ## The body's obligation at every point -/

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mDeg t) fullShare ((dat V c).before 1 t d))
    ∗ (∃ d, owns (c : Thread nD τ) (mCopy t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The residue of the point modulo 4 says which case it is in; the invariant hands the body the
    scratch column at what the point before left (at anything, at the very first point) and takes it back at this
    point's contents; the degree buffer is handed back untouched off a last column block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (mIn t) fullShare ((dat V c).after 0 t) from by
    unfold Dat.leavesExact; rw [live_in t], after_in]
  rw [show (dat V c).leavesExact 2 t = owns (c : Thread nD τ) (mCopy t) fullShare ((dat V c).after 2 t) from by
    unfold Dat.leavesExact; rw [live_copy t], after_copy]
  have hN : t.val < 32 := lt_of_lt_of_eq t.isLt (show cfg0.N = 32 from N_0)
  by_cases h0 : t.val % 4 = 0
  · have hnl : ¬isLast (grid0.coords t) := fun h => by have := (isLast_iff t).mp h; omega
    rw [Dat.leavesExact_idle (dat V c) 1 t (idle_deg t hnl) (noFlush_deg t hnl)]
    rw [accAt_first V c t h0, show copyAt V c t = copyFirst V c t h0 from dif_pos h0]
    unfold accFirst copyFirst; (try dsimp only)
    by_cases hz : t.val = 0
    · rw [inv_castSucc V c t, inv_zero V c _ _ hz, restInv_eq']
      iintro ⟨⟨⟨HS, Hoth⟩, Hg⟩, Ho, ⟨%d0, H0⟩, ⟨%d1, H1⟩, ⟨%d2, H2⟩⟩
      iapply ((runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccFirst V c t h0)
          iexact Hoth
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopyFirst V c t h0)
    · rw [inv_castSucc V c t, inv_pos V c _ _ hz]
      iintro ⟨⟨⟨HS, Hoth⟩, Hg⟩, Ho, ⟨%d0, H0⟩, ⟨%d1, H1⟩, ⟨%d2, H2⟩⟩
      iapply ((runFirst c (grid0.coords t) (mIn t) (hIn t) (mDeg t) (hDeg t) (mCopy t) (hCopy t) mAcc (Memref.isWhole_whole _) ((isFirst_iff t).mpr h0) (fun h => by have := (isLast_iff t).mp h; omega) (iblk V c 0 t)).2.2 _ Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccFirst V c t h0)
          iexact Hoth
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopyFirst V c t h0)
  · have hz : t.val ≠ 0 := fun hz => h0 (by rw [hz])
    by_cases h1 : t.val % 4 = 3
    · rw [show (dat V c).leavesExact 1 t = owns (c : Thread nD τ) (mDeg t) fullShare ((dat V c).after 1 t) from by
        unfold Dat.leavesExact; rw [live_deg t ((isLast_iff t).mpr h1)], after_deg]
      rw [accAt_last V c t h1, show copyAt V c t = copyLast V c t h1 (accBefore V c t) from (dif_neg h0).trans (dif_pos h1),
        show degAt V c t = degLast V c t h1 (accBefore V c t) from dif_pos h1]
      unfold accLast copyLast degLast accBefore; (try dsimp only)
      rw [inv_castSucc V c t, inv_pos V c _ _ hz]
      iintro ⟨⟨⟨HS, Hoth⟩, Hg⟩, Ho, ⟨%d0, H0⟩, ⟨%d1, H1⟩, ⟨%d2, H2⟩⟩
      iapply ((runLast c (grid0.coords t) (mIn t) (hIn t) (mDeg t) (hDeg t) (mCopy t) (hCopy t) mAcc (Memref.isWhole_whole _) (fun h => by have := (isFirst_iff t).mp h; omega) ((isLast_iff t).mpr h1) (iblk V c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccLast V c t h1 _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverDegLast V c t h1 _)
      unfold owns; iexists _; isplitr
      swap; · iexact H2
      ipureintro; exact View.read_writes_of_cover _ _ _ _ _ (coverCopyLast V c t h1 _)
    · have hnl : ¬isLast (grid0.coords t) := fun h => h1 ((isLast_iff t).mp h)
      rw [Dat.leavesExact_idle (dat V c) 1 t (idle_deg t hnl) (noFlush_deg t hnl)]
      rw [accAt_middle V c t h0 h1, show copyAt V c t = copyMiddle V c t h0 h1 (accBefore V c t) from (dif_neg h0).trans (dif_neg h1)]
      unfold accMiddle copyMiddle accBefore; (try dsimp only)
      rw [inv_castSucc V c t, inv_pos V c _ _ hz]
      iintro ⟨⟨⟨HS, Hoth⟩, Hg⟩, Ho, ⟨%d0, H0⟩, ⟨%d1, H1⟩, ⟨%d2, H2⟩⟩
      iapply ((runMiddle c (grid0.coords t) (mIn t) (hIn t) (mDeg t) (hDeg t) (mCopy t) (hCopy t) mAcc (Memref.isWhole_whole _) (fun h => h0 ((isFirst_iff t).mp h)) (fun h => h1 ((isLast_iff t).mp h)) (iblk V c 0 t) _).2.2 _ Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccMiddle V c t h0 h1 _)
          iexact Hoth
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (coverCopyMiddle V c t h0 h1 _)

/-- The pipeline's body obligation, at every point. -/
theorem body_obligation (c : Dev nD) : BodyObligation (dat (F := F) V c) (defs₀ (F := F)) Variants.none () Set.univ := fun t => by
  rw [bigSep_W0, bigSep_W0]
  exact sound_body V c t

/-- What the region is handed is the invariant before the first point. -/
theorem hin (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After any point the invariant gives the resting invariant back (the scratch column's contents forgotten). -/
theorem inv_out (c : Dev nD) (t : Fin (cfg0.N + 1)) (ht : t.val ≠ 0) : (dat V c).Φ t ⊢ Pipeline.ΦA spec0 c := by
  rw [show (dat V c).Φ t = inv V c t.val (Nat.le_of_lt_succ t.isLt) from rfl, inv_pos V c _ _ ht, restInv_eq']
  iintro ⟨⟨HS, Hoth⟩, Hg⟩
  isplitl [HS Hoth]
  · isplitl [HS]
    · iexists _; iexact HS
    iexact Hoth
  iexact Hg

theorem hout (c : Dev nD) : (dat V c).Φ (Fin.last cfg0.N) ⊢ Pipeline.ΦA spec0 c :=
  inv_out V c _ (by rw [Fin.val_last]; have : cfg0.N = 32 := N_0; omega)

end Cert.KernelIdeal.Reg0

end
-- ==== Proof.KI.Reg1Runs.lean ====
/- The layer kernel's pipeline number 1, the part its two cases share: each window's block read off the contents
   the region is entered with, the two branch conditions in closed form over the grid, where the output window
   is idle, and the scratch accumulator as a memref and as a view, split out of the region's invariant. -/
import proofs.«136441_j876173328454_2_alg».proof.Proof.Gen.KernelIdeal.Launch
import proofs.«136441_j876173328454_2_alg».proof.Proof.Gen.KernelIdeal.Skeleton
import proofs.«136441_j876173328454_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

/-! ## The body's branch conditions -/

/-- The first conditional's test, from the grid coordinates: the inner coordinate is 0. -/
abbrev cond_0 (i : grid1.Coords) : Prop := (Scalar.cmpi .ne (Scalar.extui (Scalar.cmpi .eq (BitVec.ofNat 32 (i 1).val) 0#32)) 0#32) = 1#1
/-- It holds at the even points. -/
theorem hcond_0 : ∀ t : Fin cfg1.N, cond_0 (grid1.coords t) ↔ t.val % 2 = 0 :=
  (by decide +kernel : ∀ t : Fin grid1.N, cond_0 (grid1.coords t) ↔ t.val % 2 = 0)

/-- The second conditional's test: the inner coordinate is the last. -/
abbrev cond_1 (i : grid1.Coords) : Prop := k1_cond2 i = 1#1
/-- It holds at the odd points. -/
theorem hcond_1 : ∀ t : Fin cfg1.N, cond_1 (grid1.coords t) ↔ t.val % 2 = 1 :=
  (by decide +kernel : ∀ t : Fin grid1.N, cond_1 (grid1.coords t) ↔ t.val % 2 = 1)

/-! ## Where the windows are idle -/

/-- The inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At the even points the output window is idle: the body stores nothing into it, -/
theorem idleAt_4_A : ∀ t : Fin cfg1.N, cond_0 (grid1.coords t) → ¬cond_1 (grid1.coords t) → cfg1.idle 4 (grid1.coords t) = true := by decide +kernel
/-- and the pipeline does not write its block back there. -/
theorem noFlush_4_A : ∀ t : Fin cfg1.N, cond_0 (grid1.coords t) → ¬cond_1 (grid1.coords t) → (cfg1.win 4).flush t = false := by decide +kernel
/-- At the odd points the output window is live. -/
theorem liveAt_4_B : ∀ t : Fin cfg1.N, ¬cond_0 (grid1.coords t) → cond_1 (grid1.coords t) → cfg1.idle 4 (grid1.coords t) = false := by decide +kernel

/-! ## The staging memrefs and the scratch -/

/-- One staging buffer of the output window, through which its contents are stated. -/
abbrev VO_4 : View sig .tc .vmem S1024x32 .f32 := (Memref.whole cc1_stg4_0 : Memref sig .tc .vmem S1024x32 .f32).view
/-- Each window's current staging memref at point `t`, as the pipeline passes it, and its wholeness. -/
abbrev ms_0 (t : Fin cfg1.N) : Memref sig .tc .vmem S1024x4096 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4096x32 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x32 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x1 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x32 .f32 := win1_4.stage (cfg1.slots t 4)
abbrev hs_4 (t : Fin cfg1.N) : (ms_4 t).IsWhole := hstage1_4 ((cfg1.slots t 4).cast nbuf1_4)
/-- The scratch accumulator: a whole scoped buffer of the kernel's own, passed beside the windows, -/
abbrev scM : Memref sig .tc .vmem S1024x32 .f32 := Memref.whole cc1_scratch0
/-- and as a view: what it holds between points is stated through it. -/
abbrev VS : View sig .tc .vmem S1024x32 .f32 := scM.view

/-- The core's scoped buffers that are neither a staging buffer of this pipeline nor its scratch accumulator, each
    whole at some contents: the body never touches them. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f))

/-- The region's invariant hands out the scratch accumulator as a memref owned at some contents, beside the other
    scoped buffers and the generator register, -/
theorem PhiA_split (c : Dev nD) :
    (Pipeline.ΦA spec1 c : sProp 𝕄)
      ⊢ iprop((∃ d, owns (c : Thread nD τ) scM fullShare d) ∗ restS (F := F) c ∗ (∃ r, prngReg c r)) := by
  unfold Pipeline.ΦA restS; rw [scopedRest1_eq]; simp only [scM, owns_whole]
  iintro ⟨⟨H0, H1, H2, H3, H4, H5, H6, HS, H8, H9, H10, H11, H12, H13, H14, H15, H16, H17, H18⟩, Hg⟩
  isplitl [HS]; · iexact HS
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- and takes it back at any contents. -/
theorem PhiA_join (c : Dev nD) :
    iprop((∃ d, owns (c : Thread nD τ) scM fullShare d) ∗ restS (F := F) c ∗ (∃ r, prngReg c r))
      ⊢ (Pipeline.ΦA spec1 c : sProp 𝕄) := by
  unfold Pipeline.ΦA restS; rw [scopedRest1_eq]; simp only [scM, owns_whole]
  iintro ⟨HS, ⟨H0, H1, H2, H3, H4, H5, H6, H8, H9, H10, H11, H12, H13, H14, H15, H16, H17, H18⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.KernelIdeal.Reg1

end
-- ==== Proof.KI.Reg1RunA.lean ====
/- The layer kernel's pipeline number 1, the body's run at an even point (the first conditional taken, the second not):
   the accumulator is zeroed and the product of the two blocks added into it; the output window is left as found. -/
import proofs.«136441_j876173328454_2_alg».proof.Proof.KI.Reg1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the scratch accumulator at an even point, as pieces (last first), with the proof
    that on whole staging memrefs — the inputs' at their contents, the output's at contents `xi4` handed back
    untouched, the accumulator at anything — the body runs to the continuation holding the inputs' and the output's
    as they were and the accumulator with its pieces written. The output's piece list is empty. -/
noncomputable def kernelRun_A (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) :
    Σ' (L4 : List (View.Piece (Elt F) S1024x32 .f32)), { LS : List (View.Piece (Elt F) S1024x32 .f32) //
      ∀ (xi4 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨[], ?_, fun xi4 E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Reg1

end
-- ==== Proof.KI.Reg1RunB.lean ====
/- The layer kernel's pipeline number 1, the body's run at an odd point (the first conditional not taken, the second
   taken): the product of the two blocks is added into the accumulator the point before left, and the output block
   is stored whole from the accumulator, the degree block and the pre-activation block. -/
import proofs.«136441_j876173328454_2_alg».proof.Proof.KI.Reg1RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator at an odd point, as
    pieces (last first), with the proof that on whole staging memrefs — the inputs' at their contents, the output's
    at anything, the accumulator at the contents `xs` the point before left — the body runs to the continuation
    holding the inputs' as they were and the output's and the accumulator each with its pieces written. -/
noncomputable def kernelRun_B (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    Σ' (L4 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__gcn_layer_kernel i arg2 harg2 arg3 harg3 arg4 harg4 arg5 harg5 arg6 harg6 arg7 harg7) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Reg1

end
-- ==== Proof.KI.Reg1.lean ====
/- The layer kernel's pipeline number 1: what the output's staging buffer and the scratch accumulator hold after
   each grid point, the pipeline's proof data over them at the contents the region is entered with, and the body
   obligation — the body's two runs applied at the even and at the odd points. -/
import proofs.«136441_j876173328454_2_alg».proof.Proof.KI.Reg1RunB

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At an even point the body stores nothing into the output: no pieces — a placeholder that nothing consults,
    the window being neither written back there nor read at the next point. -/
def out_A_4 (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VO_4.read (Elt F) (VO_4.writes (Elt F) VO_4.junk (kernelRun_A c i arg2 harg2 arg3 harg3 arg4 harg4 arg5 harg5 arg6 harg6 arg7 harg7 hc0 hc1 x0 x1 x2 x3).1)

/-- At an even point the accumulator's pieces (the zeros, then the sum) tile it, so they cover it. -/
theorem scover_A (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) (y : S1024x32.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S1024x32.size (by sl_kernel_rfl) y

/-- What an even point leaves in the accumulator: its pieces read back. -/
def sout_A (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VS.read (Elt F) (VS.writes (Elt F) VS.junk (kernelRun_A c i arg2 harg2 arg3 harg3 arg4 harg4 arg5 harg5 arg6 harg6 arg7 harg7 hc0 hc1 x0 x1 x2 x3).2.1)

/-- At an odd point the output's one store tiles its block, so it covers it. -/
theorem cover_B_4 (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).1, y ∈ pc.1.set :=
  View.cover_of_tiledL (kernelRun_B c i arg2 harg2 arg3 harg3 arg4 harg4 arg5 harg5 arg6 harg6 arg7 harg7 hc0 hc1 x0 x1 x2 x3 xs).1 S1024x32.size (by sl_kernel_rfl) y

/-- What an odd point leaves in the output's staging buffer: its pieces read back. -/
def out_B_4 (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VO_4.read (Elt F) (VO_4.writes (Elt F) VO_4.junk (kernelRun_B c i arg2 harg2 arg3 harg3 arg4 harg4 arg5 harg5 arg6 harg6 arg7 harg7 hc0 hc1 x0 x1 x2 x3 xs).1)

/-- At an odd point the accumulator's piece (the sum) tiles it, so it covers it. -/
theorem scover_B (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).2.1, y ∈ pc.1.set :=
  View.cover_of_tiledL (kernelRun_B c i arg2 harg2 arg3 harg3 arg4 harg4 arg5 harg5 arg6 harg6 arg7 harg7 hc0 hc1 x0 x1 x2 x3 xs).2.1 S1024x32.size (by sl_kernel_rfl) y

/-- What an odd point leaves in the accumulator: its pieces read back. -/
def sout_B (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VS.read (Elt F) (VS.writes (Elt F) VS.junk (kernelRun_B c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## What the output and the accumulator hold after each point -/

/-- What the output's staging buffer and the scratch accumulator hold after the body at position `n`: the even
    case at the point's memrefs and input blocks; the odd case over what the accumulator held after `n - 1`. -/
def outsAt (c : Dev nD) : (n : ℕ) → n < cfg1.N → Vec F S1024x32 .f32 × Vec F S1024x32 .f32
  | 0, hn => (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 2 = 0 then
      (out_A_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩))
    else
      (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at an even point: that case's contents. -/
theorem outsAt_A (c : Dev nD) (t : Fin cfg1.N) (h0 : t.val % 2 = 0) :
    outsAt V c t.val t.isLt = (out_A_4 c (grid1.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t), sout_A c (grid1.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t)) := by
  obtain ⟨n, hn⟩ := t
  cases n with
  | zero => exact rfl
  | succ n => exact (dif_pos h0).trans rfl

/-- `outsAt` at an odd point: that case's contents, over what the point before left in the accumulator. -/
theorem outsAt_B (c : Dev nD) (t : Fin cfg1.N) (h0 : ¬t.val % 2 = 0) :
    outsAt V c t.val t.isLt = (out_B_4 c (grid1.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2, sout_B c (grid1.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point what the launch hands the region; afterwards
    the accumulator at what the point before left in it, beside the other scoped buffers and the generator register. -/
def PhiS (c : Dev nD) : (n : ℕ) → n ≤ cfg1.N → sProp 𝕄
  | 0, _ => Pipeline.ΦA spec1 c
  | n + 1, hn => iprop(owns (c : Thread nD τ) scM fullShare ((outsAt V c n hn).2) ∗ restS (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare ((outsAt V c n hn).2) ∗ restS (F := F) c ∗ (∃ r, prngReg c r)) := rfl

theorem PhiS_pos (c : Dev nD) (n : ℕ) (h : n ≤ cfg1.N) (hz : n ≠ 0) :
    PhiS V c n h = iprop(owns (c : Thread nD τ) scM fullShare ((outsAt V c (n - 1) (by omega)).2) ∗ restS (F := F) c ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; the parity of the point says which case it is in;
    the invariant hands the body the accumulator at what the point before left (at anything at the first point) and
    takes it back at this point's contents; the other scoped buffers, the generator register and the core's debts
    pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  by_cases h0 : t.val % 2 = 0
  · have h1 : ¬t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := PhiA_split (F := F) c $$ HΦ
      icases HΦ' with ⟨HS, Hrest, Hg⟩
      iapply ((kernelRun_A c (grid1.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, Hrest, Hg⟩, Ho, ⟨%d0, H0⟩, ⟨%d1, H1⟩, ⟨%d2, H2⟩, ⟨%d3, H3⟩, ⟨%d4, H4⟩⟩
      iapply ((kernelRun_A c (grid1.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [show (dat V c).leavesExact 4 t = owns (c : Thread nD τ) (ms_4 t) fullShare ((dat V c).after 4 t) from by
        unfold Dat.leavesExact; rw [liveAt_4_B t (fun h => h0 ((hcond_0 t).mp h)) ((hcond_1 t).mpr h1)], after_4]
    rw [outsAt_B V c t h0]
    unfold out_B_4 sout_B; (try dsimp only)
    have hz : t.val ≠ 0 := by omega
    rw [PhiS_castSucc V c t, PhiS_pos V c _ _ hz]
    iintro ⟨⟨HS, Hrest, Hg⟩, Ho, ⟨%d0, H0⟩, ⟨%d1, H1⟩, ⟨%d2, H2⟩, ⟨%d3, H3⟩, ⟨%d4, H4⟩⟩
    iapply ((kernelRun_B c (grid1.coords t) _ _ _ _ _ _ _ _ _ _ _ _ (fun h => h0 ((hcond_0 t).mp h)) ((hcond_1 t).mpr h1) (iblk V c 0 t) (iblk V c 1 t) (iblk V c 2 t) (iblk V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS]
      · unfold owns; iexists _; isplitr
        swap; · iexact HS
        ipureintro; exact View.read_writes_of_cover _ _ _ _ _ (scover_B c _ _ _ _ _ _ _ _ _ _ _ _ _ _ _ _ _ _ _ _)
      isplitl [Hrest]; · iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B_4 c _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HS, Hrest, Hg⟩
  iapply (PhiA_join (F := F) c)
  isplitl [HS]
  · iexists _; iexact HS
  isplitl [Hrest]; · iexact Hrest
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end

end Cert.KernelIdeal.Reg1

end
-- ==== Proof.KI.Reg2Runs.lean ====
/- The layer kernel's pipeline number 2, the part its two cases share: each window's block read off the contents
   the region is entered with, the two branch conditions in closed form over the grid, where the output window
   is idle, and the scratch accumulator as a memref and as a view, split out of the region's invariant. -/
import proofs.«136441_j876173328454_2_alg».proof.Proof.Gen.KernelIdeal.Launch
import proofs.«136441_j876173328454_2_alg».proof.Proof.Gen.KernelIdeal.Skeleton
import proofs.«136441_j876173328454_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the
    block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end

/-! ## The body's branch conditions -/

/-- The first conditional's test, from the grid coordinates: the inner coordinate is 0. -/
abbrev cond_0 (i : grid2.Coords) : Prop := (Scalar.cmpi .ne (Scalar.extui (Scalar.cmpi .eq (BitVec.ofNat 32 (i 1).val) 0#32)) 0#32) = 1#1
/-- It holds at the even points. -/
theorem hcond_0 : ∀ t : Fin cfg2.N, cond_0 (grid2.coords t) ↔ t.val % 2 = 0 :=
  (by decide +kernel : ∀ t : Fin grid2.N, cond_0 (grid2.coords t) ↔ t.val % 2 = 0)

/-- The second conditional's test: the inner coordinate is the last. -/
abbrev cond_1 (i : grid2.Coords) : Prop := k2_cond2 i = 1#1
/-- It holds at the odd points. -/
theorem hcond_1 : ∀ t : Fin cfg2.N, cond_1 (grid2.coords t) ↔ t.val % 2 = 1 :=
  (by decide +kernel : ∀ t : Fin grid2.N, cond_1 (grid2.coords t) ↔ t.val % 2 = 1)

/-! ## Where the windows are idle -/

/-- The inputs are never idle. -/
theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
theorem liveAt_3 : ∀ t : Fin cfg2.N, cfg2.idle 3 (grid2.coords t) = false := by decide +kernel
/-- At the even points the output window is idle: the body stores nothing into it, -/
theorem idleAt_4_A : ∀ t : Fin cfg2.N, cond_0 (grid2.coords t) → ¬cond_1 (grid2.coords t) → cfg2.idle 4 (grid2.coords t) = true := by decide +kernel
/-- and the pipeline does not write its block back there. -/
theorem noFlush_4_A : ∀ t : Fin cfg2.N, cond_0 (grid2.coords t) → ¬cond_1 (grid2.coords t) → (cfg2.win 4).flush t = false := by decide +kernel
/-- At the odd points the output window is live. -/
theorem liveAt_4_B : ∀ t : Fin cfg2.N, ¬cond_0 (grid2.coords t) → cond_1 (grid2.coords t) → cfg2.idle 4 (grid2.coords t) = false := by decide +kernel

/-! ## The staging memrefs and the scratch -/

/-- One staging buffer of the output window, through which its contents are stated. -/
abbrev VO_4 : View sig .tc .vmem S1024x32 .f32 := (Memref.whole cc2_stg4_0 : Memref sig .tc .vmem S1024x32 .f32).view
/-- Each window's current staging memref at point `t`, as the pipeline passes it, and its wholeness. -/
abbrev ms_0 (t : Fin cfg2.N) : Memref sig .tc .vmem S1024x4096 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S4096x32 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x32 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1024x1 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S1024x32 .f32 := win2_4.stage (cfg2.slots t 4)
abbrev hs_4 (t : Fin cfg2.N) : (ms_4 t).IsWhole := hstage2_4 ((cfg2.slots t 4).cast nbuf2_4)
/-- The scratch accumulator: a whole scoped buffer of the kernel's own, passed beside the windows, -/
abbrev scM : Memref sig .tc .vmem S1024x32 .f32 := Memref.whole cc2_scratch0
/-- and as a view: what it holds between points is stated through it. -/
abbrev VS : View sig .tc .vmem S1024x32 .f32 := scM.view

/-- The core's scoped buffers that are neither a staging buffer of this pipeline nor its scratch accumulator, each
    whole at some contents: the body never touches them. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The region's invariant hands out the scratch accumulator as a memref owned at some contents, beside the other
    scoped buffers and the generator register, -/
theorem PhiA_split (c : Dev nD) :
    (Pipeline.ΦA spec2 c : sProp 𝕄)
      ⊢ iprop((∃ d, owns (c : Thread nD τ) scM fullShare d) ∗ restS (F := F) c ∗ (∃ r, prngReg c r)) := by
  unfold Pipeline.ΦA restS; rw [scopedRest2_eq]; simp only [scM, owns_whole]
  iintro ⟨⟨H0, H1, H2, H3, H4, H5, H6, H7, H8, H9, H10, H11, H12, H13, H14, H15, H16, H17, HS⟩, Hg⟩
  isplitl [HS]; · iexact HS
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- and takes it back at any contents. -/
theorem PhiA_join (c : Dev nD) :
    iprop((∃ d, owns (c : Thread nD τ) scM fullShare d) ∗ restS (F := F) c ∗ (∃ r, prngReg c r))
      ⊢ (Pipeline.ΦA spec2 c : sProp 𝕄) := by
  unfold Pipeline.ΦA restS; rw [scopedRest2_eq]; simp only [scM, owns_whole]
  iintro ⟨HS, ⟨H0, H1, H2, H3, H4, H5, H6, H7, H8, H9, H10, H11, H12, H13, H14, H15, H16, H17⟩, Hg⟩
  isplitr [Hg]; swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HS

end Cert.KernelIdeal.Reg2

end
-- ==== Proof.KI.Reg2RunA.lean ====
/- The layer kernel's pipeline number 2, the body's run at an even point (the first conditional taken, the second not):
   the accumulator is zeroed and the product of the two blocks added into it; the output window is left as found. -/
import proofs.«136441_j876173328454_2_alg».proof.Proof.KI.Reg2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the scratch accumulator at an even point, as pieces (last first), with the proof
    that on whole staging memrefs — the inputs' at their contents, the output's at contents `xi4` handed back
    untouched, the accumulator at anything — the body runs to the continuation holding the inputs' and the output's
    as they were and the accumulator with its pieces written. The output's piece list is empty. -/
noncomputable def kernelRun_A (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) :
    Σ' (L4 : List (View.Piece (Elt F) S1024x32 .f32)), { LS : List (View.Piece (Elt F) S1024x32 .f32) //
      ∀ (xi4 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨[], ?_, fun xi4 E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Reg2

end
-- ==== Proof.KI.Reg2RunB.lean ====
/- The layer kernel's pipeline number 2, the body's run at an odd point (the first conditional not taken, the second
   taken): the product of the two blocks is added into the accumulator the point before left, and the output block
   is stored whole from the accumulator, the degree block and the pre-activation block. -/
import proofs.«136441_j876173328454_2_alg».proof.Proof.KI.Reg2RunA

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator at an odd point, as
    pieces (last first), with the proof that on whole staging memrefs — the inputs' at their contents, the output's
    at anything, the accumulator at the contents `xs` the point before left — the body runs to the continuation
    holding the inputs' as they were and the output's and the accumulator each with its pieces written. -/
noncomputable def kernelRun_B (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    Σ' (L4 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2__gcn_layer_kernel i arg2 harg2 arg3 harg3 arg4 harg4 arg5 harg5 arg6 harg6 arg7 harg7) K } := by
  refine ⟨?_, ?_, fun E K => ?run⟩
  case run =>
    simp only [cc2__gcn_layer_kernel_eq_skeleton]; unfold cc2__gcn_layer_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Reg2

end
-- ==== Proof.KI.Reg2.lean ====
/- The layer kernel's pipeline number 2: what the output's staging buffer and the scratch accumulator hold after
   each grid point, the pipeline's proof data over them at the contents the region is entered with, and the body
   obligation — the body's two runs applied at the even and at the odd points. -/
import proofs.«136441_j876173328454_2_alg».proof.Proof.KI.Reg2RunB

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At an even point the body stores nothing into the output: no pieces — a placeholder that nothing consults,
    the window being neither written back there nor read at the next point. -/
def out_A_4 (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VO_4.read (Elt F) (VO_4.writes (Elt F) VO_4.junk (kernelRun_A c i arg2 harg2 arg3 harg3 arg4 harg4 arg5 harg5 arg6 harg6 arg7 harg7 hc0 hc1 x0 x1 x2 x3).1)

/-- At an even point the accumulator's pieces (the zeros, then the sum) tile it, so they cover it. -/
theorem scover_A (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) (y : S1024x32.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S1024x32.size (by sl_kernel_rfl) y

/-- What an even point leaves in the accumulator: its pieces read back. -/
def sout_A (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) : Vec F S1024x32 .f32 :=
  VS.read (Elt F) (VS.writes (Elt F) VS.junk (kernelRun_A c i arg2 harg2 arg3 harg3 arg4 harg4 arg5 harg5 arg6 harg6 arg7 harg7 hc0 hc1 x0 x1 x2 x3).2.1)

/-- At an odd point the output's one store tiles its block, so it covers it. -/
theorem cover_B_4 (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).1, y ∈ pc.1.set :=
  View.cover_of_tiledL (kernelRun_B c i arg2 harg2 arg3 harg3 arg4 harg4 arg5 harg5 arg6 harg6 arg7 harg7 hc0 hc1 x0 x1 x2 x3 xs).1 S1024x32.size (by sl_kernel_rfl) y

/-- What an odd point leaves in the output's staging buffer: its pieces read back. -/
def out_B_4 (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VO_4.read (Elt F) (VO_4.writes (Elt F) VO_4.junk (kernelRun_B c i arg2 harg2 arg3 harg3 arg4 harg4 arg5 harg5 arg6 harg6 arg7 harg7 hc0 hc1 x0 x1 x2 x3 xs).1)

/-- At an odd point the accumulator's piece (the sum) tiles it, so it covers it. -/
theorem scover_B (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) (y : S1024x32.Idx) :
    ∃ pc ∈ (kernelRun_B c i arg2 harg2 arg3 harg3 arg4 harg4 arg5 harg5 arg6 harg6 arg7 harg7 hc0 hc1 x0 x1 x2 x3 xs).2.1, y ∈ pc.1.set :=
  View.cover_of_tiledL (kernelRun_B c i arg2 harg2 arg3 harg3 arg4 harg4 arg5 harg5 arg6 harg6 arg7 harg7 hc0 hc1 x0 x1 x2 x3 xs).2.1 S1024x32.size (by sl_kernel_rfl) y

/-- What an odd point leaves in the accumulator: its pieces read back. -/
def sout_B (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) : Vec F S1024x32 .f32 :=
  VS.read (Elt F) (VS.writes (Elt F) VS.junk (kernelRun_B c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## What the output and the accumulator hold after each point -/

/-- What the output's staging buffer and the scratch accumulator hold after the body at position `n`: the even
    case at the point's memrefs and input blocks; the odd case over what the accumulator held after `n - 1`. -/
def outsAt (c : Dev nD) : (n : ℕ) → n < cfg2.N → Vec F S1024x32 .f32 × Vec F S1024x32 .f32
  | 0, hn => (out_A_4 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩), sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 2 = 0 then
      (out_A_4 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩), sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond_0 ⟨n + 1, hn⟩).mpr h0) (fun h => (fun h => by (try dsimp only at h); omega) ((hcond_1 ⟨n + 1, hn⟩).mp h)) (iblk V c 0 ⟨n + 1, hn⟩) (iblk V c 1 ⟨n + 1, hn⟩) (iblk V c 2 ⟨n + 1, hn⟩) (iblk V c 3 ⟨n + 1, hn⟩))
    else
      (out_B_4 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond_0 ⟨n + 1, hn⟩).mp h)) ((hcond_1 ⟨n + 1, hn⟩).mpr (by (try dsimp only); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at an even point: that case's contents. -/
theorem outsAt_A (c : Dev nD) (t : Fin cfg2.N) (h0 : t.val % 2 = 0) :
    outsAt V c t.val t.isLt = (out_A_4 c (grid2.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t), sout_A c (grid2.coords t) (ms_0 t) (hs_0 t) (ms_1 t) (hs_1 t) (ms_2 t) (hs_2 t) (ms_3 t) (hs_3 t) (ms_4 t) (hs_4 t) scM (Memref.isWhole_whole _) ((hcond_0 t).mpr h0) (fun h => (fun h => by omega) ((hcond_1 t).mp h)) (iblk V c 0 t) (iblk V c 1 t) (iblk V c 2 t) (iblk V c 3 t)) := by
  obtain ⟨n, hn⟩ := t
  cases n with
  | zero => exact rfl
  | succ n => exact (dif_pos h0).trans rfl

/-- `outsAt` at an odd point: that case's contents, over what the point before left in the accumulator. -/
theorem outsAt_B (c : Dev nD) (t : Fin cfg2.N) (h0 : ¬t.val % 2 = 0) :
    outsAt V c t.val t.isLt = (out_B_4 c (grid2.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2, sout_B c (grid2.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point what the launch hands the region; afterwards
    the accumulator at what the point before left in it, beside the other scoped buffers and the generator register. -/
def PhiS (c : Dev nD) : (n : ℕ) → n ≤ cfg2.N → sProp 𝕄
  | 0, _ => Pipeline.ΦA spec2 c
  | n + 1, hn => iprop(owns (c : Thread nD τ) scM fullShare ((outsAt V c n hn).2) ∗ restS (F := F) c ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare ((outsAt V c n hn).2) ∗ restS (F := F) c ∗ (∃ r, prngReg c r)) := rfl

theorem PhiS_pos (c : Dev nD) (n : ℕ) (h : n ≤ cfg2.N) (hz : n ≠ 0) :
    PhiS V c n h = iprop(owns (c : Thread nD τ) scM fullShare ((outsAt V c (n - 1) (by omega)).2) ∗ restS (F := F) c ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`'s first component; the invariant `PhiS`; nothing
    owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by
  dsimp only [dat]

/-- The invariant at a point's start, restated at the point's position. -/
theorem PhiS_castSucc (c : Dev nD) (t : Fin cfg2.N) :
    (dat V c).Φ t.castSucc = PhiS V c t.val (Nat.le_of_lt t.isLt) := by
  dsimp only [dat]; simp only [Fin.coe_castSucc]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; the parity of the point says which case it is in;
    the invariant hands the body the accumulator at what the point before left (at anything at the first point) and
    takes it back at this point's contents; the other scoped buffers, the generator register and the core's debts
    pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg2.N = 16 from N_2)
  by_cases h0 : t.val % 2 = 0
  · have h1 : ¬t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [Dat.leavesExact_idle (dat V c) 4 t (idleAt_4_A t ((hcond_0 t).mpr h0) (fun h => h1 ((hcond_1 t).mp h))) (noFlush_4_A t ((hcond_0 t).mpr h0) (fun h => h1 ((hcond_1 t).mp h)))]
    rw [outsAt_A V c t h0]
    unfold sout_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := PhiA_split (F := F) c $$ HΦ
      icases HΦ' with ⟨HS, Hrest, Hg⟩
      iapply ((kernelRun_A c (grid2.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, Hrest, Hg⟩, Ho, ⟨%d0, H0⟩, ⟨%d1, H1⟩, ⟨%d2, H2⟩, ⟨%d3, H3⟩, ⟨%d4, H4⟩⟩
      iapply ((kernelRun_A c (grid2.coords t) _ _ _ _ _ _ _ _ _ _ _ _ ((hcond_0 t).mpr h0) (fun h => h1 ((hcond_1 t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hrest Hg]
      · isplitl [HS]
        · unfold owns; iexists _; isplitr
          swap; · iexact HS
          ipureintro; exact View.read_writes_of_cover _ _ _ _ _ (scover_A c _ _ _ _ _ _ _ _ _ _ _ _ _ _ _ _ _ _ _)
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    rw [show (dat V c).leavesExact 0 t = owns (c : Thread nD τ) (ms_0 t) fullShare ((dat V c).after 0 t) from by
        unfold Dat.leavesExact; rw [liveAt_0 t], after_0]
    rw [show (dat V c).leavesExact 1 t = owns (c : Thread nD τ) (ms_1 t) fullShare ((dat V c).after 1 t) from by
        unfold Dat.leavesExact; rw [liveAt_1 t], after_1]
    rw [show (dat V c).leavesExact 2 t = owns (c : Thread nD τ) (ms_2 t) fullShare ((dat V c).after 2 t) from by
        unfold Dat.leavesExact; rw [liveAt_2 t], after_2]
    rw [show (dat V c).leavesExact 3 t = owns (c : Thread nD τ) (ms_3 t) fullShare ((dat V c).after 3 t) from by
        unfold Dat.leavesExact; rw [liveAt_3 t], after_3]
    rw [show (dat V c).leavesExact 4 t = owns (c : Thread nD τ) (ms_4 t) fullShare ((dat V c).after 4 t) from by
        unfold Dat.leavesExact; rw [liveAt_4_B t (fun h => h0 ((hcond_0 t).mp h)) ((hcond_1 t).mpr h1)], after_4]
    rw [outsAt_B V c t h0]
    unfold out_B_4 sout_B; (try dsimp only)
    have hz : t.val ≠ 0 := by omega
    rw [PhiS_castSucc V c t, PhiS_pos V c _ _ hz]
    iintro ⟨⟨HS, Hrest, Hg⟩, Ho, ⟨%d0, H0⟩, ⟨%d1, H1⟩, ⟨%d2, H2⟩, ⟨%d3, H3⟩, ⟨%d4, H4⟩⟩
    iapply ((kernelRun_B c (grid2.coords t) _ _ _ _ _ _ _ _ _ _ _ _ (fun h => h0 ((hcond_0 t).mp h)) ((hcond_1 t).mpr h1) (iblk V c 0 t) (iblk V c 1 t) (iblk V c 2 t) (iblk V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS]
      · unfold owns; iexists _; isplitr
        swap; · iexact HS
        ipureintro; exact View.read_writes_of_cover _ _ _ _ _ (scover_B c _ _ _ _ _ _ _ _ _ _ _ _ _ _ _ _ _ _ _ _)
      isplitl [Hrest]; · iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B_4 c _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht]
  iintro ⟨HS, Hrest, Hg⟩
  iapply (PhiA_join (F := F) c)
  isplitl [HS]
  · iexists _; iexact HS
  isplitl [Hrest]; · iexact Hrest
  iexact Hg

/-- The same after the last point. -/
theorem hout (c : Dev nD) : (dat V c).Φ (Fin.last cfg2.N) ⊢ Pipeline.ΦA spec2 c :=
  Phi_out V c _ (by rw [Fin.val_last]; have : cfg2.N = 16 := N_2; omega)

end

end Cert.KernelIdeal.Reg2

end
-- ==== Proof.KI.Whole.lean ====
/-
  The whole program's run: the contents of the processor's buffers at every boundary between @main's six items (three
  pipelined regions, each followed by a stretch of host operations), as a fold from the launch memory; each region as
  a segment between two such boundaries; and the launch: every fair execution terminates with every unscoped buffer
  at the last boundary's contents.
-/
import proofs.«136441_j876173328454_2_alg».proof.Proof.KI.Reg0
import proofs.«136441_j876173328454_2_alg».proof.Proof.KI.Reg1
import proofs.«136441_j876173328454_2_alg».proof.Proof.KI.Reg2
import proofs.«136441_j876173328454_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0 is @main's first item). -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- After region 0: its arrays at what the write-backs leave, every other buffer as entered. -/
def W1 (c : Dev nD) : Valuation τ sig (Elt F) :=
  Pipeline.withArrays spec0 c (W0 m ρ c) fun w => (Reg0.dat (E0 m ρ) c).arrAt w cfg0.N
theorem W1_arr (c : Dev nD) (w : Fin cfg0.W) :
    W1 m ρ c (Proc.devRef .tc (Pipeline.arrRef spec0 w)) = (Reg0.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (Reg0.dat (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)
/-- After the host stretch that follows. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- After region 1: its arrays at what the write-backs leave, every other buffer as entered. -/
def W3 (c : Dev nD) : Valuation τ sig (Elt F) :=
  Pipeline.withArrays spec1 c (W2 m ρ c) fun w => (Reg1.dat (E2 m ρ) c).arrAt w cfg1.N
theorem W3_arr (c : Dev nD) (w : Fin cfg1.W) :
    W3 m ρ c (Proc.devRef .tc (Pipeline.arrRef spec1 w)) = (Reg1.dat (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (Reg1.dat (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)
/-- After the host stretch that follows. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b

/-- After region 2: its arrays at what the write-backs leave, every other buffer as entered. -/
def W5 (c : Dev nD) : Valuation τ sig (Elt F) :=
  Pipeline.withArrays spec2 c (W4 m ρ c) fun w => (Reg2.dat (E4 m ρ) c).arrAt w cfg2.N
theorem W5_arr (c : Dev nD) (w : Fin cfg2.W) :
    W5 m ρ c (Proc.devRef .tc (Pipeline.arrRef spec2 w)) = (Reg2.dat (E4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev E5 : (c : Dev nD) → (b : Ref sig .tc) → Buf (Elt F) ((c : Thread nD τ).loc b) := fun c b => W5 m ρ c b
theorem hF2 (c : Dev nD) (w : Fin cfg2.W) : (Reg2.dat (E4 m ρ) c).arrAt w cfg2.N = E5 m ρ c (Pipeline.arrRef spec2 w) :=
  (W5_arr m ρ c w).symm
theorem hrest2 (c : Dev nD) : ∀ b, b ∉ Finset.univ.image (Pipeline.arrRef spec2) → E5 m ρ c b = E4 m ρ c b :=
  fun b hb => W5_of_ne m ρ c b fun w e => hb (Finset.mem_image.mpr ⟨w, Finset.mem_univ _, e⟩)
/-- After the last host stretch: the end. -/
abbrev W6 : Dev nD → Valuation τ sig (Elt F) := fun c => StableHlo.after hostOps3 (W5 m ρ c)

/-! ## The arguments end as launched -/

/-- A buffer no host stretch writes and no later region stages reaches the end as region 0 left it. -/
theorem W6_of (c : Dev nD) (b : Ref sig .tc) (h3 : b ∉ hostOps3_W) (h2 : b ∉ hostOps2_W) (h1 : b ∉ hostOps1_W)
    (a2 : ∀ w, Pipeline.arrRef spec2 w ≠ b) (a1 : ∀ w, Pipeline.arrRef spec1 w ≠ b) :
    W6 m ρ c (Proc.devRef .tc b) = W1 m ρ c (Proc.devRef .tc b) :=
  (StableHlo.after_of_writes_sub hostOps3 _ hostOps3_writes h3).trans <|
    (W5_of_ne m ρ c b a2).trans <| (StableHlo.after_of_writes_sub hostOps2 _ hostOps2_writes h2).trans <|
    (W3_of_ne m ρ c b a1).trans <| (StableHlo.after_of_writes_sub hostOps1 _ hostOps1_writes h1)

theorem W6_main_arg0 (c : Dev nD) : W6 m ρ c (Proc.devRef .tc main_arg0) = m ((c : Thread nD τ).loc main_arg0) :=
  (W6_of m ρ c main_arg0 (by decide) (by decide) (by decide) (by decide) (by decide)).trans ((W1_of_ne m ρ c main_arg0 (by decide)).trans rfl)
theorem W6_main_arg2 (c : Dev nD) : W6 m ρ c (Proc.devRef .tc main_arg2) = m ((c : Thread nD τ).loc main_arg2) :=
  (W6_of m ρ c main_arg2 (by decide) (by decide) (by decide) (by decide) (by decide)).trans ((W1_of_ne m ρ c main_arg2 (by decide)).trans rfl)
theorem W6_main_arg3 (c : Dev nD) : W6 m ρ c (Proc.devRef .tc main_arg3) = m ((c : Thread nD τ).loc main_arg3) :=
  (W6_of m ρ c main_arg3 (by decide) (by decide) (by decide) (by decide) (by decide)).trans ((W1_of_ne m ρ c main_arg3 (by decide)).trans rfl)
theorem W6_main_arg4 (c : Dev nD) : W6 m ρ c (Proc.devRef .tc main_arg4) = m ((c : Thread nD τ).loc main_arg4) :=
  (W6_of m ρ c main_arg4 (by decide) (by decide) (by decide) (by decide) (by decide)).trans ((W1_of_ne m ρ c main_arg4 (by decide)).trans rfl)
theorem W6_main_arg5 (c : Dev nD) : W6 m ρ c (Proc.devRef .tc main_arg5) = m ((c : Thread nD τ).loc main_arg5) :=
  (W6_of m ρ c main_arg5 (by decide) (by decide) (by decide) (by decide) (by decide)).trans ((W1_of_ne m ρ c main_arg5 (by decide)).trans rfl)
theorem W6_main_arg6 (c : Dev nD) : W6 m ρ c (Proc.devRef .tc main_arg6) = m ((c : Thread nD τ).loc main_arg6) :=
  (W6_of m ρ c main_arg6 (by decide) (by decide) (by decide) (by decide) (by decide)).trans ((W1_of_ne m ρ c main_arg6 (by decide)).trans rfl)
theorem W6_main_arg7 (c : Dev nD) : W6 m ρ c (Proc.devRef .tc main_arg7) = m ((c : Thread nD τ).loc main_arg7) :=
  (W6_of m ρ c main_arg7 (by decide) (by decide) (by decide) (by decide) (by decide)).trans ((W1_of_ne m ρ c main_arg7 (by decide)).trans rfl)
/-- The adjacency matrix is region 0's input window's array: an input array is never written. -/
theorem W6_main_arg1 (c : Dev nD) : W6 m ρ c (Proc.devRef .tc main_arg1) = m ((c : Thread nD τ).loc main_arg1) :=
  (W6_of m ρ c main_arg1 (by decide) (by decide) (by decide) (by decide) (by decide)).trans
    ((W1_arr m ρ c 0).trans (((Reg0.dat (E0 m ρ) c).arrAt_in 0 rfl _).trans ((Reg0.A_eq (E0 m ρ) c 0).trans rfl)))

/-! ## The proof data family and what rides beside the buffers -/

abbrev admK : (p : Fin 3) → (pcfgs (F := F) p).Adm := fun p => (cfgs p).toPCfg_adm
/-- Every region's proof data at its entry contents: a literal match on the region's number. -/
def pdats : (p : Fin 3) → (c : Dev nD) → Dat τ (Elt F) Unit ℕ (UR sig nD τ) ℕ (Pipeline.pin (pcfgs (F := F)) admK p) c
  | ⟨0, _⟩ => fun c => Reg0.dat (E0 m ρ) c
  | ⟨1, _⟩ => fun c => Reg1.dat (E2 m ρ) c
  | ⟨2, _⟩ => fun c => Reg2.dat (E4 m ρ) c
abbrev 𝒱₀ : Variants := Variants.none
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered with every unscoped buffer at `W0`, left with them at `W1`; its arrays split
    out of the unscoped buffers and put back at their final contents; the generator register into the region's
    invariant and out; nothing owed; no semaphore of the kernel's own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from Reg0.hout (E0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`; its arrays split
    out of the unscoped buffers and put back at their final contents; the generator register into the region's
    invariant and out; nothing owed; no semaphore of the kernel's own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from Reg1.hout (E2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W4`, left with them at `W5`; its arrays split
    out of the unscoped buffers and put back at their final contents; the generator register into the region's
    invariant and out; nothing owed; no semaphore of the kernel's own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from Reg2.hout (E4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev items : List (Pipeline.Seg (pcfgs (F := F)) admK (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (items m ρ) := (main_chain c).trans (by chain_rfl)

set_option backward.isDefEq.respectTransparency.types false in
/-- From any memory with zero counters every fair execution of @main terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admK (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Whole

end
-- ==== Proof.Spec.lean ====
/-
  The two arrangements of one graph-convolution network over the extended reals, as whole-array functions of the
  argument arrays (curried over literal index types, so that no program's shape names occur).

  Both compute, for a weighted graph `adj` on 8192 nodes with self loops added, the symmetric normalisation
  `d r · (adj r k + [r = k]) · d k` with `d r = (max 1 (1 + Σ_k adj r k))^(-1/2)`, two layers
  `h ↦ relu (Ahat · (h · W + b))` and a final linear read-out.

  * the blocked arrangement (`logitsK`) never forms the normalised matrix: it scales the columns of `h · W + b` by `d`,
    multiplies by the raw `adj`, scales the rows by `d`, and adds the self-loop term `d r · d r · (h · W + b) r` apart;
    its `d` is the reciprocal square root of `max 1 (rowSum + 1)`;
  * the plain arrangement (`logitsR`) forms `Ahat` entry by entry and multiplies; its `d` is the power `-1/2` of
    `max 1 (Σ_k (adj r k + [r = k]))`.

  They agree when every entry of every argument is a real number (distributivity and the splitting of the sum need it).
-/
import Idealize.ShloMosaic.PureOps.Ideal

noncomputable section

namespace Cert.Spec

open Idealize.ShloMosaic

/-- The sum of row `r`. -/
def rowSum (adj : Fin 8192 → Fin 8192 → EReal) (r : Fin 8192) : EReal := ∑ k : Fin 8192, adj r k

/-- `h · W + b`, entry `(r, c)`. -/
def lin {n a b : ℕ} (h : Fin n → Fin a → EReal) (W : Fin a → Fin b → EReal) (bias : Fin b → EReal)
    (r : Fin n) (c : Fin b) : EReal := (∑ k : Fin a, h r k * W k c) + bias c

/-! ## The blocked arrangement -/

/-- The degree scaling as the reciprocal square root of the clipped degree, the self loop counted as `+ 1`. -/
def dK (adj : Fin 8192 → Fin 8192 → EReal) (r : Fin 8192) : EReal :=
  Ideal.rsqrt (max 1 (rowSum adj r + 1))

/-- One layer: rows scaled after the product with the raw matrix, the self-loop term added apart. -/
def layerK (adj : Fin 8192 → Fin 8192 → EReal) (d : Fin 8192 → EReal) (hpre : Fin 8192 → Fin 32 → EReal)
    (r : Fin 8192) (c : Fin 32) : EReal :=
  max (d r * (∑ k : Fin 8192, adj r k * (d k * hpre k c)) + (d r * d r) * hpre r c) 0

def logitsK (x : Fin 8192 → Fin 128 → EReal) (adj : Fin 8192 → Fin 8192 → EReal)
    (W1 : Fin 128 → Fin 32 → EReal) (b1 : Fin 32 → EReal) (W2 : Fin 32 → Fin 32 → EReal) (b2 : Fin 32 → EReal)
    (W3 : Fin 32 → Fin 1 → EReal) (b3 : Fin 1 → EReal) (r : Fin 8192) : EReal :=
  lin (layerK adj (dK adj) (lin (layerK adj (dK adj) (lin x W1 b1)) W2 b2)) W3 b3 r 0

/-! ## The plain arrangement -/

/-- The identity matrix's entry. -/
def eye (r k : Fin 8192) : EReal := if r = k then 1 else 0

/-- The matrix with self loops. -/
def ahat (adj : Fin 8192 → Fin 8192 → EReal) (r k : Fin 8192) : EReal := adj r k + eye r k

/-- The degree scaling as the power `-1/2` of the clipped degree of the matrix with self loops. -/
def dR (adj : Fin 8192 → Fin 8192 → EReal) (r : Fin 8192) : EReal :=
  Ideal.pow (max 1 (∑ k : Fin 8192, ahat adj r k)) ((-(1 / 2) : ℝ) : EReal)

/-- The normalised matrix, rows scaled first. -/
def anorm (adj : Fin 8192 → Fin 8192 → EReal) (r k : Fin 8192) : EReal := (dR adj r * ahat adj r k) * dR adj k

def layerR (adj : Fin 8192 → Fin 8192 → EReal) (hpre : Fin 8192 → Fin 32 → EReal) (r : Fin 8192) (c : Fin 32) : EReal :=
  max (∑ k : Fin 8192, anorm adj r k * hpre k c) 0

def logitsR (x : Fin 8192 → Fin 128 → EReal) (adj : Fin 8192 → Fin 8192 → EReal)
    (W1 : Fin 128 → Fin 32 → EReal) (b1 : Fin 32 → EReal) (W2 : Fin 32 → Fin 32 → EReal) (b2 : Fin 32 → EReal)
    (W3 : Fin 32 → Fin 1 → EReal) (b3 : Fin 1 → EReal) (r : Fin 8192) : EReal :=
  lin (layerR adj (lin (layerR adj (lin x W1 b1)) W2 b2)) W3 b3 r 0

end Cert.Spec

end
-- ==== Proof.KI.HostGlue.lean ====
/-
  The kernel program's three stretches of host operations, each as a function of the contents it starts from, read at
  an index on the extended reals.

  The first two stretches form a layer's linear map `h · W + b` (a matrix product, then the bias repeated along the
  rows) and its copy scaled row by row with the degree scaling (the `8192 × 1` column repeated along the features);
  the last forms the read-out `h · W₃ + b₃` and drops the unit axis of the resulting `8192 × 1` array.
-/
import proofs.«136441_j876173328454_2_alg».proof.Proof.Gen.KernelIdeal.Launch
import proofs.«136441_j876173328454_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Glue

open Cert.KernelIdeal Cert.KernelIdeal.Gen Idealize.ShloMosaic Idealize.ShloMosaic.ValueIdx Idealize.ShloMosaic.StableHlo

/-! ## The matrix products at an index -/

theorem dot1_lhs_0 (i : S8192x32.Idx) (q : dot_S8192x128_S128x32_S8192x32_1_0_0_1_n_n.contr.Idx) : (dot_S8192x128_S128x32_S8192x32_1_0_0_1_n_n.lhsIdx i q 0).val = (i 0).val := by
  unfold DotDims.lhsIdx
  rw [dif_neg (show ¬(0 : Fin S8192x128.rank) ∈ dot_S8192x128_S128x32_S8192x32_1_0_0_1_n_n.lhsBatch by decide),
    dif_pos (show (0 : Fin S8192x128.rank) ∈ dot_S8192x128_S128x32_S8192x32_1_0_0_1_n_n.lhsNonContracting by decide)]
  rfl
theorem dot1_lhs_1 (i : S8192x32.Idx) (q : dot_S8192x128_S128x32_S8192x32_1_0_0_1_n_n.contr.Idx) : (dot_S8192x128_S128x32_S8192x32_1_0_0_1_n_n.lhsIdx i q 1).val = (q ⟨0, by decide⟩).val :=
  dot_S8192x128_S128x32_S8192x32_1_0_0_1_n_n.lhsIdx_val_of_single rfl i q
theorem dot1_rhs_0 (i : S8192x32.Idx) (q : dot_S8192x128_S128x32_S8192x32_1_0_0_1_n_n.contr.Idx) : (dot_S8192x128_S128x32_S8192x32_1_0_0_1_n_n.rhsIdx i q 0).val = (q ⟨0, by decide⟩).val :=
  dot_S8192x128_S128x32_S8192x32_1_0_0_1_n_n.rhsIdx_val_of_single rfl i q
theorem dot1_rhs_1 (i : S8192x32.Idx) (q : dot_S8192x128_S128x32_S8192x32_1_0_0_1_n_n.contr.Idx) : (dot_S8192x128_S128x32_S8192x32_1_0_0_1_n_n.rhsIdx i q 1).val = (i 1).val := by
  unfold DotDims.rhsIdx
  rw [dif_neg (show ¬(1 : Fin S128x32.rank) ∈ dot_S8192x128_S128x32_S8192x32_1_0_0_1_n_n.rhsBatch by decide),
    dif_pos (show (1 : Fin S128x32.rank) ∈ dot_S8192x128_S128x32_S8192x32_1_0_0_1_n_n.rhsNonContracting by decide)]
  rfl

/-- The host's product of a `8192 × 128` by a `128 × 32` array at `(r, c)`: the sum over the contracted coordinate. -/
theorem dot1_apply (l : FVec Ideal S8192x128 .f32) (w : FVec Ideal S128x32 .f32) (r : Fin 8192) (c : Fin 32) :
    Host.dotGeneral (F := Ideal) dot_S8192x128_S128x32_S8192x32_1_0_0_1_n_n none l w (ix2 r c) = ∑ k : Fin 128, l (ix2 r k) * w (ix2 k c) := by
  simp only [Host.dotGeneral]
  rw [Ideal.dotGeneral_apply, ← Equiv.sum_comp (contrEquiv1 dot_S8192x128_S128x32_S8192x32_1_0_0_1_n_n 128 rfl rfl).symm]
  refine Finset.sum_congr rfl fun k _ => ?_
  have hk := contrEquiv1_symm_val dot_S8192x128_S128x32_S8192x32_1_0_0_1_n_n 128 rfl rfl k
  have el : dot_S8192x128_S128x32_S8192x32_1_0_0_1_n_n.lhsIdx (ix2 r c) ((contrEquiv1 dot_S8192x128_S128x32_S8192x32_1_0_0_1_n_n 128 rfl rfl).symm k) = ix2 r k :=
    funext fun a => Fin.ext (by
      match a with
      | ⟨0, _⟩ => exact dot1_lhs_0 _ _
      | ⟨1, _⟩ => exact (dot1_lhs_1 _ _).trans hk)
  have er : dot_S8192x128_S128x32_S8192x32_1_0_0_1_n_n.rhsIdx (ix2 r c) ((contrEquiv1 dot_S8192x128_S128x32_S8192x32_1_0_0_1_n_n 128 rfl rfl).symm k) = ix2 k c :=
    funext fun a => Fin.ext (by
      match a with
      | ⟨0, _⟩ => exact (dot1_rhs_0 _ _).trans hk
      | ⟨1, _⟩ => exact dot1_rhs_1 _ _)
  rw [el, er]

theorem dot2_lhs_0 (i : S8192x32.Idx) (q : dot_S8192x32_S32x32_S8192x32_1_0_0_1_n_n.contr.Idx) : (dot_S8192x32_S32x32_S8192x32_1_0_0_1_n_n.lhsIdx i q 0).val = (i 0).val := by
  unfold DotDims.lhsIdx
  rw [dif_neg (show ¬(0 : Fin S8192x32.rank) ∈ dot_S8192x32_S32x32_S8192x32_1_0_0_1_n_n.lhsBatch by decide),
    dif_pos (show (0 : Fin S8192x32.rank) ∈ dot_S8192x32_S32x32_S8192x32_1_0_0_1_n_n.lhsNonContracting by decide)]
  rfl
theorem dot2_lhs_1 (i : S8192x32.Idx) (q : dot_S8192x32_S32x32_S8192x32_1_0_0_1_n_n.contr.Idx) : (dot_S8192x32_S32x32_S8192x32_1_0_0_1_n_n.lhsIdx i q 1).val = (q ⟨0, by decide⟩).val :=
  dot_S8192x32_S32x32_S8192x32_1_0_0_1_n_n.lhsIdx_val_of_single rfl i q
theorem dot2_rhs_0 (i : S8192x32.Idx) (q : dot_S8192x32_S32x32_S8192x32_1_0_0_1_n_n.contr.Idx) : (dot_S8192x32_S32x32_S8192x32_1_0_0_1_n_n.rhsIdx i q 0).val = (q ⟨0, by decide⟩).val :=
  dot_S8192x32_S32x32_S8192x32_1_0_0_1_n_n.rhsIdx_val_of_single rfl i q
theorem dot2_rhs_1 (i : S8192x32.Idx) (q : dot_S8192x32_S32x32_S8192x32_1_0_0_1_n_n.contr.Idx) : (dot_S8192x32_S32x32_S8192x32_1_0_0_1_n_n.rhsIdx i q 1).val = (i 1).val := by
  unfold DotDims.rhsIdx
  rw [dif_neg (show ¬(1 : Fin S32x32.rank) ∈ dot_S8192x32_S32x32_S8192x32_1_0_0_1_n_n.rhsBatch by decide),
    dif_pos (show (1 : Fin S32x32.rank) ∈ dot_S8192x32_S32x32_S8192x32_1_0_0_1_n_n.rhsNonContracting by decide)]
  rfl

/-- The host's product of a `8192 × 32` by a `32 × 32` array at `(r, c)`: the sum over the contracted coordinate. -/
theorem dot2_apply (l : FVec Ideal S8192x32 .f32) (w : FVec Ideal S32x32 .f32) (r : Fin 8192) (c : Fin 32) :
    Host.dotGeneral (F := Ideal) dot_S8192x32_S32x32_S8192x32_1_0_0_1_n_n none l w (ix2 r c) = ∑ k : Fin 32, l (ix2 r k) * w (ix2 k c) := by
  simp only [Host.dotGeneral]
  rw [Ideal.dotGeneral_apply, ← Equiv.sum_comp (contrEquiv1 dot_S8192x32_S32x32_S8192x32_1_0_0_1_n_n 32 rfl rfl).symm]
  refine Finset.sum_congr rfl fun k _ => ?_
  have hk := contrEquiv1_symm_val dot_S8192x32_S32x32_S8192x32_1_0_0_1_n_n 32 rfl rfl k
  have el : dot_S8192x32_S32x32_S8192x32_1_0_0_1_n_n.lhsIdx (ix2 r c) ((contrEquiv1 dot_S8192x32_S32x32_S8192x32_1_0_0_1_n_n 32 rfl rfl).symm k) = ix2 r k :=
    funext fun a => Fin.ext (by
      match a with
      | ⟨0, _⟩ => exact dot2_lhs_0 _ _
      | ⟨1, _⟩ => exact (dot2_lhs_1 _ _).trans hk)
  have er : dot_S8192x32_S32x32_S8192x32_1_0_0_1_n_n.rhsIdx (ix2 r c) ((contrEquiv1 dot_S8192x32_S32x32_S8192x32_1_0_0_1_n_n 32 rfl rfl).symm k) = ix2 k c :=
    funext fun a => Fin.ext (by
      match a with
      | ⟨0, _⟩ => exact (dot2_rhs_0 _ _).trans hk
      | ⟨1, _⟩ => exact dot2_rhs_1 _ _)
  rw [el, er]

theorem dot3_lhs_0 (i : S8192x1.Idx) (q : dot_S8192x32_S32x1_S8192x1_1_0_0_1_n_n.contr.Idx) : (dot_S8192x32_S32x1_S8192x1_1_0_0_1_n_n.lhsIdx i q 0).val = (i 0).val := by
  unfold DotDims.lhsIdx
  rw [dif_neg (show ¬(0 : Fin S8192x32.rank) ∈ dot_S8192x32_S32x1_S8192x1_1_0_0_1_n_n.lhsBatch by decide),
    dif_pos (show (0 : Fin S8192x32.rank) ∈ dot_S8192x32_S32x1_S8192x1_1_0_0_1_n_n.lhsNonContracting by decide)]
  rfl
theorem dot3_lhs_1 (i : S8192x1.Idx) (q : dot_S8192x32_S32x1_S8192x1_1_0_0_1_n_n.contr.Idx) : (dot_S8192x32_S32x1_S8192x1_1_0_0_1_n_n.lhsIdx i q 1).val = (q ⟨0, by decide⟩).val :=
  dot_S8192x32_S32x1_S8192x1_1_0_0_1_n_n.lhsIdx_val_of_single rfl i q
theorem dot3_rhs_0 (i : S8192x1.Idx) (q : dot_S8192x32_S32x1_S8192x1_1_0_0_1_n_n.contr.Idx) : (dot_S8192x32_S32x1_S8192x1_1_0_0_1_n_n.rhsIdx i q 0).val = (q ⟨0, by decide⟩).val :=
  dot_S8192x32_S32x1_S8192x1_1_0_0_1_n_n.rhsIdx_val_of_single rfl i q
theorem dot3_rhs_1 (i : S8192x1.Idx) (q : dot_S8192x32_S32x1_S8192x1_1_0_0_1_n_n.contr.Idx) : (dot_S8192x32_S32x1_S8192x1_1_0_0_1_n_n.rhsIdx i q 1).val = (i 1).val := by
  unfold DotDims.rhsIdx
  rw [dif_neg (show ¬(1 : Fin S32x1.rank) ∈ dot_S8192x32_S32x1_S8192x1_1_0_0_1_n_n.rhsBatch by decide),
    dif_pos (show (1 : Fin S32x1.rank) ∈ dot_S8192x32_S32x1_S8192x1_1_0_0_1_n_n.rhsNonContracting by decide)]
  rfl

/-- The host's product of a `8192 × 32` by a `32 × 1` array at `(r, c)`: the sum over the contracted coordinate. -/
theorem dot3_apply (l : FVec Ideal S8192x32 .f32) (w : FVec Ideal S32x1 .f32) (r : Fin 8192) (c : Fin 1) :
    Host.dotGeneral (F := Ideal) dot_S8192x32_S32x1_S8192x1_1_0_0_1_n_n none l w (ix2 r c) = ∑ k : Fin 32, l (ix2 r k) * w (ix2 k c) := by
  simp only [Host.dotGeneral]
  rw [Ideal.dotGeneral_apply, ← Equiv.sum_comp (contrEquiv1 dot_S8192x32_S32x1_S8192x1_1_0_0_1_n_n 32 rfl rfl).symm]
  refine Finset.sum_congr rfl fun k _ => ?_
  have hk := contrEquiv1_symm_val dot_S8192x32_S32x1_S8192x1_1_0_0_1_n_n 32 rfl rfl k
  have el : dot_S8192x32_S32x1_S8192x1_1_0_0_1_n_n.lhsIdx (ix2 r c) ((contrEquiv1 dot_S8192x32_S32x1_S8192x1_1_0_0_1_n_n 32 rfl rfl).symm k) = ix2 r k :=
    funext fun a => Fin.ext (by
      match a with
      | ⟨0, _⟩ => exact dot3_lhs_0 _ _
      | ⟨1, _⟩ => exact (dot3_lhs_1 _ _).trans hk)
  have er : dot_S8192x32_S32x1_S8192x1_1_0_0_1_n_n.rhsIdx (ix2 r c) ((contrEquiv1 dot_S8192x32_S32x1_S8192x1_1_0_0_1_n_n 32 rfl rfl).symm k) = ix2 k c :=
    funext fun a => Fin.ext (by
      match a with
      | ⟨0, _⟩ => exact (dot3_rhs_0 _ _).trans hk
      | ⟨1, _⟩ => exact dot3_rhs_1 _ _)
  rw [el, er]

/-! ## The layout operations at an index -/

/-- A length-`32` bias, made a row and repeated along the `8192` rows, reads its entry of the column. -/
theorem bias32_apply (x : FVec Ideal S32 .f32) (h1 : S32.BroadcastsInDim S1x32 (![1] : Fin 1 → Fin S1x32.rank))
    (h2 : S1x32.BroadcastsInDim S8192x32 (![0, 1] : Fin 2 → Fin S8192x32.rank)) (r : Fin 8192) (c : Fin 32) :
    broadcastInDim S8192x32 ![0, 1] h2 (broadcastInDim S1x32 ![1] h1 x) (ix2 r c) = x (ix1 c) := by
  rw [broadcastInDim_apply _ h2 _ (ix2 r c) (ix2 (0 : Fin 1) c) (fun a => match a with
    | ⟨0, _⟩ => by show 0 = if (1 : Nat) = 1 then 0 else r.val; rw [if_pos rfl]
    | ⟨1, _⟩ => by show c.val = if (32 : Nat) = 1 then 0 else c.val; rw [if_neg (by decide)])]
  exact broadcastInDim_apply _ h1 x (ix2 (0 : Fin 1) c) (ix1 c) (fun a => match a with
    | ⟨0, _⟩ => by show c.val = if (32 : Nat) = 1 then 0 else c.val; rw [if_neg (by decide)])

/-- A length-`1` bias, made a `1 × 1` array and repeated along the `8192` rows, reads its one entry. -/
theorem bias1_apply (x : FVec Ideal S1 .f32) (h1 : S1.BroadcastsInDim S1x1 (![1] : Fin 1 → Fin S1x1.rank))
    (h2 : S1x1.BroadcastsInDim S8192x1 (![0, 1] : Fin 2 → Fin S8192x1.rank)) (r : Fin 8192) (q : Fin 1) :
    broadcastInDim S8192x1 ![0, 1] h2 (broadcastInDim S1x1 ![1] h1 x) (ix2 r q) = x (ix1 (0 : Fin 1)) := by
  rw [broadcastInDim_apply _ h2 _ (ix2 r q) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else q.val; rw [if_pos rfl])]
  exact broadcastInDim_apply _ h1 x (ix2 (0 : Fin 1) (0 : Fin 1)) (ix1 (0 : Fin 1)) (fun a => match a with
    | ⟨0, _⟩ => by show 0 = if (1 : Nat) = 1 then 0 else (0 : Fin 1).val; rw [if_pos rfl])

/-- An `8192 × 1` column repeated along the `32` features reads the row's entry. -/
theorem col_apply (d : FVec Ideal S8192x1 .f32)
    (h : S8192x1.BroadcastsInDim S8192x32 (![0, 1] : Fin 2 → Fin S8192x32.rank)) (r : Fin 8192) (c : Fin 32) :
    broadcastInDim S8192x32 ![0, 1] h d (ix2 r c) = d (ix2 r (0 : Fin 1)) :=
  broadcastInDim_apply _ h d (ix2 r c) (ix2 r (0 : Fin 1)) (fun a => match a with
    | ⟨0, _⟩ => by show r.val = if (8192 : Nat) = 1 then 0 else r.val; rw [if_neg (by decide)]
    | ⟨1, _⟩ => by show 0 = if (1 : Nat) = 1 then 0 else c.val; rw [if_pos rfl])

/-- An `8192 × 1` array recast to length `8192` reads the row's one entry. -/
theorem squeeze_apply (y : FVec Ideal S8192x1 .f32) (h : S8192x1.ShapeCasts S8192) (r : Fin 8192) :
    shapeCast S8192 y h (ix1 r) = y (ix2 r (0 : Fin 1)) :=
  shapeCast_apply y h (ix1 r) (ix2 r (0 : Fin 1))
    (by rw [Shape.rowMajor_val_two, Shape.rowMajor_val_one]; show r.val * 1 + 0 = r.val; omega)

/-! ## The first host stretch: the linear map and its row-scaled copy -/

/-- After the stretch the array of the linear map holds `h · W + b`. -/
theorem hostOps1_lin (W : Valuation τ sig (Elt Ideal)) (r : Fin 8192) (c : Fin 32) :
    (StableHlo.after (hostOps1 (F := Ideal)) W (Proc.devRef .tc main_v4) : S8192x32.Idx → EReal) (ix2 r c)
      = Cert.Spec.lin (fun r k => (W (Proc.devRef .tc main_arg0) : S8192x128.Idx → EReal) (ix2 r k)) (fun k c => (W (Proc.devRef .tc main_arg2) : S128x32.Idx → EReal) (ix2 k c)) (fun c => (W (Proc.devRef .tc main_arg3) : S32.Idx → EReal) (ix1 c)) r c := by
  have e : (StableHlo.after (hostOps1 (F := Ideal)) W (Proc.devRef .tc main_v4) : S8192x32.Idx → EReal)
      = addf (F := Ideal) (φ := .f32) (Host.dotGeneral (F := Ideal) (φ₁ := .f32) (φ₂ := .f32) dot_S8192x128_S128x32_S8192x32_1_0_0_1_n_n none (W (Proc.devRef .tc main_arg0)) (W (Proc.devRef .tc main_arg2)))
        (broadcastInDim S8192x32 ![0, 1] bcast_S1x32_S8192x32_0_1 (broadcastInDim S1x32 ![1] bcast_S32_S1x32_1 (W (Proc.devRef .tc main_arg3)))) := by
    after_results <;> rfl
  rw [e]
  exact congrArg₂ (· + ·) (dot1_apply _ _ r c) (bias32_apply _ _ _ r c)

/-- After the stretch the scaled array holds the row's scaling times `h · W + b`. -/
theorem hostOps1_scaled (W : Valuation τ sig (Elt Ideal)) (r : Fin 8192) (c : Fin 32) :
    (StableHlo.after (hostOps1 (F := Ideal)) W (Proc.devRef .tc main_v6) : S8192x32.Idx → EReal) (ix2 r c)
      = @HMul.hMul EReal EReal EReal instHMul ((W (Proc.devRef .tc main_v0_0) : S8192x1.Idx → EReal) (ix2 r (0 : Fin 1)))
          (Cert.Spec.lin (fun r k => (W (Proc.devRef .tc main_arg0) : S8192x128.Idx → EReal) (ix2 r k)) (fun k c => (W (Proc.devRef .tc main_arg2) : S128x32.Idx → EReal) (ix2 k c)) (fun c => (W (Proc.devRef .tc main_arg3) : S32.Idx → EReal) (ix1 c)) r c) := by
  have e : (StableHlo.after (hostOps1 (F := Ideal)) W (Proc.devRef .tc main_v6) : S8192x32.Idx → EReal)
      = mulf (F := Ideal) (φ := .f32) (broadcastInDim S8192x32 ![0, 1] bcast_S8192x1_S8192x32_0_1 (W (Proc.devRef .tc main_v0_0)))
        (addf (F := Ideal) (φ := .f32) (Host.dotGeneral (F := Ideal) (φ₁ := .f32) (φ₂ := .f32) dot_S8192x128_S128x32_S8192x32_1_0_0_1_n_n none (W (Proc.devRef .tc main_arg0)) (W (Proc.devRef .tc main_arg2)))
        (broadcastInDim S8192x32 ![0, 1] bcast_S1x32_S8192x32_0_1 (broadcastInDim S1x32 ![1] bcast_S32_S1x32_1 (W (Proc.devRef .tc main_arg3))))) := by
    after_results <;> rfl
  rw [e]
  exact congrArg₂ (· * ·) (col_apply _ _ r c)
    (congrArg₂ (· + ·) (dot1_apply _ _ r c) (bias32_apply _ _ _ r c))

/-! ## The second host stretch: the linear map and its row-scaled copy -/

/-- After the stretch the array of the linear map holds `h · W + b`. -/
theorem hostOps2_lin (W : Valuation τ sig (Elt Ideal)) (r : Fin 8192) (c : Fin 32) :
    (StableHlo.after (hostOps2 (F := Ideal)) W (Proc.devRef .tc main_v11) : S8192x32.Idx → EReal) (ix2 r c)
      = Cert.Spec.lin (fun r k => (W (Proc.devRef .tc main_v7) : S8192x32.Idx → EReal) (ix2 r k)) (fun k c => (W (Proc.devRef .tc main_arg4) : S32x32.Idx → EReal) (ix2 k c)) (fun c => (W (Proc.devRef .tc main_arg5) : S32.Idx → EReal) (ix1 c)) r c := by
  have e : (StableHlo.after (hostOps2 (F := Ideal)) W (Proc.devRef .tc main_v11) : S8192x32.Idx → EReal)
      = addf (F := Ideal) (φ := .f32) (Host.dotGeneral (F := Ideal) (φ₁ := .f32) (φ₂ := .f32) dot_S8192x32_S32x32_S8192x32_1_0_0_1_n_n none (W (Proc.devRef .tc main_v7)) (W (Proc.devRef .tc main_arg4)))
        (broadcastInDim S8192x32 ![0, 1] bcast_S1x32_S8192x32_0_1 (broadcastInDim S1x32 ![1] bcast_S32_S1x32_1 (W (Proc.devRef .tc main_arg5)))) := by
    after_results <;> rfl
  rw [e]
  exact congrArg₂ (· + ·) (dot2_apply _ _ r c) (bias32_apply _ _ _ r c)

/-- After the stretch the scaled array holds the row's scaling times `h · W + b`. -/
theorem hostOps2_scaled (W : Valuation τ sig (Elt Ideal)) (r : Fin 8192) (c : Fin 32) :
    (StableHlo.after (hostOps2 (F := Ideal)) W (Proc.devRef .tc main_v13) : S8192x32.Idx → EReal) (ix2 r c)
      = @HMul.hMul EReal EReal EReal instHMul ((W (Proc.devRef .tc main_v0_0) : S8192x1.Idx → EReal) (ix2 r (0 : Fin 1)))
          (Cert.Spec.lin (fun r k => (W (Proc.devRef .tc main_v7) : S8192x32.Idx → EReal) (ix2 r k)) (fun k c => (W (Proc.devRef .tc main_arg4) : S32x32.Idx → EReal) (ix2 k c)) (fun c => (W (Proc.devRef .tc main_arg5) : S32.Idx → EReal) (ix1 c)) r c) := by
  have e : (StableHlo.after (hostOps2 (F := Ideal)) W (Proc.devRef .tc main_v13) : S8192x32.Idx → EReal)
      = mulf (F := Ideal) (φ := .f32) (broadcastInDim S8192x32 ![0, 1] bcast_S8192x1_S8192x32_0_1 (W (Proc.devRef .tc main_v0_0)))
        (addf (F := Ideal) (φ := .f32) (Host.dotGeneral (F := Ideal) (φ₁ := .f32) (φ₂ := .f32) dot_S8192x32_S32x32_S8192x32_1_0_0_1_n_n none (W (Proc.devRef .tc main_v7)) (W (Proc.devRef .tc main_arg4)))
        (broadcastInDim S8192x32 ![0, 1] bcast_S1x32_S8192x32_0_1 (broadcastInDim S1x32 ![1] bcast_S32_S1x32_1 (W (Proc.devRef .tc main_arg5))))) := by
    after_results <;> rfl
  rw [e]
  exact congrArg₂ (· * ·) (col_apply _ _ r c)
    (congrArg₂ (· + ·) (dot2_apply _ _ r c) (bias32_apply _ _ _ r c))

/-! ## The last host stretch: the read-out -/

/-- After the stretch the result holds `h · W₃ + b₃`, its unit axis dropped. -/
theorem hostOps3_logits (W : Valuation τ sig (Elt Ideal)) (r : Fin 8192) :
    (StableHlo.after (hostOps3 (F := Ideal)) W (Proc.devRef .tc main_v19) : S8192.Idx → EReal) (ix1 r)
      = Cert.Spec.lin (fun r k => (W (Proc.devRef .tc main_v14) : S8192x32.Idx → EReal) (ix2 r k)) (fun k c => (W (Proc.devRef .tc main_arg6) : S32x1.Idx → EReal) (ix2 k c)) (fun c => (W (Proc.devRef .tc main_arg7) : S1.Idx → EReal) (ix1 c)) r (0 : Fin 1) := by
  have e : (StableHlo.after (hostOps3 (F := Ideal)) W (Proc.devRef .tc main_v19) : S8192.Idx → EReal)
      = shapeCast S8192 (addf (F := Ideal) (φ := .f32) (Host.dotGeneral (F := Ideal) (φ₁ := .f32) (φ₂ := .f32) dot_S8192x32_S32x1_S8192x1_1_0_0_1_n_n none (W (Proc.devRef .tc main_v14)) (W (Proc.devRef .tc main_arg6)))
        (broadcastInDim S8192x1 ![0, 1] bcast_S1x1_S8192x1_0_1 (broadcastInDim S1x1 ![1] bcast_S1_S1x1_1 (W (Proc.devRef .tc main_arg7)))))
        shapeCasts_S8192x1_S8192 := by
    after_results <;> rfl
  rw [e, squeeze_apply]
  exact congrArg₂ (· + ·) (dot3_apply _ _ r (0 : Fin 1)) (bias1_apply _ _ _ r (0 : Fin 1))

end Cert.KernelIdeal.Glue

end
-- ==== Proof.KI.Val0Pieces.lean ====
/-
  The degree pass, part 6: each case's buffers, read back, are the body's arithmetic of the point's input block and the
  scratch column it found — the row sums added to the column (over a cleared column at a first block), the block in
  the narrower format, and at a last block the reciprocal square root of the clipped total.
-/
import proofs.«136441_j876173328454_2_alg».proof.Proof.KI.Reg0
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero_off : (![0, 0] : Fin 2 → ℕ) = fun _ => 0 := by funext a; fin_cases a <;> rfl

theorem accFirst_eq (c : Dev nD) (t : Fin cfg0.N) (h0 : t.val % 4 = 0) :
    accFirst V c t h0 = k0_pay2 (iblk V c 0 t) (k0_pay1 (F := F)) := by
  unfold accFirst
  rw [View.read_writes_eq_canon _ _ _ (coverAccFirst V c t h0)]
  unfold runFirst
  dsimp only
  sl_unfold_words
  rw [View.canon_cons_unit_zero zero_off]
  simp only [View.readAt_eq_ld, Memref.IsWhole.read_unread, View.ld_unit_zero (S := S1024x2048) zero_off, View.readCov_unit_zero (S := S1024x1) _ zero_off]

theorem copyFirst_eq (c : Dev nD) (t : Fin cfg0.N) (h0 : t.val % 4 = 0) :
    copyFirst V c t h0 = k0_pay3 (iblk V c 0 t) := by
  unfold copyFirst
  rw [View.read_writes_eq_canon _ _ _ (coverCopyFirst V c t h0)]
  unfold runFirst
  dsimp only
  sl_unfold_words
  rw [View.canon_unit_zero zero_off]
  simp only [View.readAt_eq_ld, Memref.IsWhole.read_unread, View.ld_unit_zero (S := S1024x2048) zero_off]

theorem accMiddle_eq (c : Dev nD) (t : Fin cfg0.N) (h0 : ¬t.val % 4 = 0) (h1 : ¬t.val % 4 = 3) (xa : Vec F S1024x1 .f32) :
    accMiddle V c t h0 h1 xa = k0_pay2 (iblk V c 0 t) xa := by
  unfold accMiddle
  rw [View.read_writes_eq_canon _ _ _ (coverAccMiddle V c t h0 h1 xa)]
  unfold runMiddle
  dsimp only
  sl_unfold_words
  rw [View.canon_unit_zero zero_off]
  simp only [View.readAt_eq_ld, Memref.IsWhole.read_unread, View.ld_unit_zero (S := S1024x2048) zero_off, View.ld_unit_zero (S := S1024x1) zero_off]
  exact congrArg (k0_pay2 (iblk V c 0 t)) ((Memref.isWhole_whole (sig := sig) (κ := .tc) cc0_scratch0).read_unread xa)

theorem copyMiddle_eq (c : Dev nD) (t : Fin cfg0.N) (h0 : ¬t.val % 4 = 0) (h1 : ¬t.val % 4 = 3) (xa : Vec F S1024x1 .f32) :
    copyMiddle V c t h0 h1 xa = k0_pay3 (iblk V c 0 t) := by
  unfold copyMiddle
  rw [View.read_writes_eq_canon _ _ _ (coverCopyMiddle V c t h0 h1 xa)]
  unfold runMiddle
  dsimp only
  sl_unfold_words
  rw [View.canon_unit_zero zero_off]
  simp only [View.readAt_eq_ld, Memref.IsWhole.read_unread, View.ld_unit_zero (S := S1024x2048) zero_off]

theorem accLast_eq (c : Dev nD) (t : Fin cfg0.N) (h1 : t.val % 4 = 3) (xa : Vec F S1024x1 .f32) :
    accLast V c t h1 xa = k0_pay2 (iblk V c 0 t) xa := by
  unfold accLast
  rw [View.read_writes_eq_canon _ _ _ (coverAccLast V c t h1 xa)]
  unfold runLast
  dsimp only
  sl_unfold_words
  rw [View.canon_unit_zero zero_off]
  simp only [View.readAt_eq_ld, Memref.IsWhole.read_unread, View.ld_unit_zero (S := S1024x2048) zero_off, View.ld_unit_zero (S := S1024x1) zero_off]
  exact congrArg (k0_pay2 (iblk V c 0 t)) ((Memref.isWhole_whole (sig := sig) (κ := .tc) cc0_scratch0).read_unread xa)

theorem copyLast_eq (c : Dev nD) (t : Fin cfg0.N) (h1 : t.val % 4 = 3) (xa : Vec F S1024x1 .f32) :
    copyLast V c t h1 xa = k0_pay3 (iblk V c 0 t) := by
  unfold copyLast
  rw [View.read_writes_eq_canon _ _ _ (coverCopyLast V c t h1 xa)]
  unfold runLast
  dsimp only
  sl_unfold_words
  rw [View.canon_unit_zero zero_off]
  simp only [View.readAt_eq_ld, Memref.IsWhole.read_unread, View.ld_unit_zero (S := S1024x2048) zero_off]

theorem degLast_eq (c : Dev nD) (t : Fin cfg0.N) (h1 : t.val % 4 = 3) (xa : Vec F S1024x1 .f32) :
    degLast V c t h1 xa = k0_pay4 (k0_pay2 (iblk V c 0 t) xa) := by
  unfold degLast
  rw [View.read_writes_eq_canon _ _ _ (coverDegLast V c t h1 xa)]
  unfold runLast
  dsimp only
  sl_unfold_words
  rw [View.canon_unit_zero zero_off]
  simp only [View.readAt_eq_ld, Memref.IsWhole.read_unread, View.ld_unit_zero (S := S1024x2048) zero_off, View.ld_unit_zero (S := S1024x1) zero_off, View.readCov_unit_zero (S := S1024x1) _ zero_off]
  exact congrArg (fun z => k0_pay4 (k0_pay2 (iblk V c 0 t) z)) ((Memref.isWhole_whole (sig := sig) (κ := .tc) cc0_scratch0).read_unread xa)

end Cert.KernelIdeal.Reg0

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KI.Payloads.lean ====
/-
  The three kernels' bodies, read at an index on the extended reals.

  Each body's result is a pure function of the blocks it loads. Read at the entry `(r, q)` of its block:

    * the degree kernel starts the row sums at zero, adds to the running row sum the sum over the `2048` lanes of the
      current block of the matrix, passes the block on unchanged (the narrower format is the same extended real),
      and at the end turns the row sum `s` into the scaling `rsqrt (max 1 (s + 1))`;
    * a layer kernel starts its accumulator at zero, adds to it the product of the current `1024 × 4096` block of the
      matrix with the current `4096 × 32` block of the scaled features (a sum over the contracted coordinate), and at
      the end forms `max (d · acc + (d · d) · h) 0`, where `d` is the row's scaling, read from a one-column block
      repeated along the `32` features.

  Shape casts between equal shapes move nothing; the cast of a length-`1024` vector to a `1024 × 1` column and the
  repetition of a column along the rows' second axis read the entry of the same row.
-/
import proofs.«136441_j876173328454_2_alg».proof.Proof.Gen.KernelIdeal.Skeleton
import proofs.«136441_j876173328454_2_alg».proof.Proof.LibColumn
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Lib.Column

/-- The word `0x3F800000` reads as one. -/
theorem word_one : Ideal.ofBits .f32 0x3F800000#32 = 1 := by
  simp [Ideal.ofBits, Ideal.ieee, -EReal.coe_mul]; norm_num

/-! ## The degree kernel -/

/-- The row sums start at zero. -/
theorem k0_pay1_at (r : Fin 1024) (q : Fin 1) : k0_pay1 (F := Ideal) (ix2 r q) = 0 := by
  unfold k0_pay1
  rw [shapeCast_self]
  exact Ideal.ofBits_zero_f32

/-- Putting back the lane coordinate `k` over the row `r` gives the entry `(r, k)`. -/
theorem lift_row (h : S1024x2048.Reduces [1] S1024) (r : Fin 1024) (k : Fin (S1024x2048.size 1)) :
    h.lift (ix1 r) k = ix2 r (⟨k.val, k.isLt⟩ : Fin 2048) := by
  funext c; apply Fin.ext
  fin_cases c <;> rfl

/-- The running row sum plus the sum over the lanes of the current block. -/
theorem k0_pay2_at (v3 : Vec Ideal S1024x2048 .f32) (v4 : Vec Ideal S1024x1 .f32) (r : Fin 1024) (q : Fin 1) :
    k0_pay2 (F := Ideal) v3 v4 (ix2 r q) = v4 (ix2 r q) + ∑ k : Fin 2048, v3 (ix2 r k) := by
  unfold k0_pay2
  dsimp only
  rw [shapeCast_self]
  show v4 (ix2 r q) + shapeCast S1024x1 (multiReduction (F := Ideal) .add [1] S1024 v3 0x00000000#32
    reduces_S1024x2048_S1024 (.inl rfl) rfl) shapeCasts_S1024_S1024x1 (ix2 r q) = _
  rw [shapeCast_a_a1_apply]
  refine congrArg (v4 (ix2 r q) + ·) ?_
  refine (Ideal.multiReduction_add_single v3 0x00000000#32 reduces_S1024x2048_S1024 (.inl rfl) rfl (ix1 r)).trans ?_
  exact Finset.sum_congr rfl fun k _ => congrArg v3 (lift_row _ r k)

/-- The block of the matrix is passed on unchanged. -/
theorem k0_pay3_eq (v3 : Vec Ideal S1024x2048 .f32) : k0_pay3 (F := Ideal) v3 = v3 := rfl

/-- The scaling from the finished row sum. -/
theorem k0_pay4_at (v16 : Vec Ideal S1024x1 .f32) (r : Fin 1024) (q : Fin 1) :
    k0_pay4 (F := Ideal) v16 (ix2 r q) = Ideal.rsqrt (max 1 (v16 (ix2 r q) + 1)) := by
  unfold k0_pay4
  show Ideal.rsqrt (max (Ideal.ofBits .f32 0x3F800000#32) (v16 (ix2 r q) + Ideal.ofBits .f32 0x3F800000#32)) = _
  rw [word_one]

/-! ## The blocks' product at an index -/

theorem lhs_0 (i : S1024x32.Idx) (q : dot_S1024x4096_S4096x32_S1024x32_1_0_0_1_n_n.contr.Idx) :
    (dot_S1024x4096_S4096x32_S1024x32_1_0_0_1_n_n.lhsIdx i q 0).val = (i 0).val := by
  unfold DotDims.lhsIdx
  rw [dif_neg (show ¬(0 : Fin S1024x4096.rank) ∈ dot_S1024x4096_S4096x32_S1024x32_1_0_0_1_n_n.lhsBatch by decide),
    dif_pos (show (0 : Fin S1024x4096.rank) ∈ dot_S1024x4096_S4096x32_S1024x32_1_0_0_1_n_n.lhsNonContracting by decide)]
  rfl
theorem lhs_1 (i : S1024x32.Idx) (q : dot_S1024x4096_S4096x32_S1024x32_1_0_0_1_n_n.contr.Idx) :
    (dot_S1024x4096_S4096x32_S1024x32_1_0_0_1_n_n.lhsIdx i q 1).val = (q ⟨0, by decide⟩).val :=
  dot_S1024x4096_S4096x32_S1024x32_1_0_0_1_n_n.lhsIdx_val_of_single rfl i q
theorem rhs_0 (i : S1024x32.Idx) (q : dot_S1024x4096_S4096x32_S1024x32_1_0_0_1_n_n.contr.Idx) :
    (dot_S1024x4096_S4096x32_S1024x32_1_0_0_1_n_n.rhsIdx i q 0).val = (q ⟨0, by decide⟩).val :=
  dot_S1024x4096_S4096x32_S1024x32_1_0_0_1_n_n.rhsIdx_val_of_single rfl i q
theorem rhs_1 (i : S1024x32.Idx) (q : dot_S1024x4096_S4096x32_S1024x32_1_0_0_1_n_n.contr.Idx) :
    (dot_S1024x4096_S4096x32_S1024x32_1_0_0_1_n_n.rhsIdx i q 1).val = (i 1).val := by
  unfold DotDims.rhsIdx
  rw [dif_neg (show ¬(1 : Fin S4096x32.rank) ∈ dot_S1024x4096_S4096x32_S1024x32_1_0_0_1_n_n.rhsBatch by decide),
    dif_pos (show (1 : Fin S4096x32.rank) ∈ dot_S1024x4096_S4096x32_S1024x32_1_0_0_1_n_n.rhsNonContracting by decide)]
  rfl

/-- The contraction over its one axis is the sum over `k : Fin 4096` of row entry times column entry (the narrowing of
    the right operand's format is the identity on the extended reals). -/
theorem matmul_sum (v7 : Vec Ideal S1024x4096 .bf16) (v3 : Vec Ideal S4096x32 .f32) (r : Fin 1024) (c : Fin 32) :
    ∑ q : dot_S1024x4096_S4096x32_S1024x32_1_0_0_1_n_n.contr.Idx,
        v7 (dot_S1024x4096_S4096x32_S1024x32_1_0_0_1_n_n.lhsIdx (ix2 r c) q)
          * truncf (F := Ideal) .bf16 v3 bitsLt_bf16_f32 (dot_S1024x4096_S4096x32_S1024x32_1_0_0_1_n_n.rhsIdx (ix2 r c) q)
      = ∑ k : Fin 4096, v7 (ix2 r k) * v3 (ix2 k c) := by
  rw [← Equiv.sum_comp (contrEquiv1 dot_S1024x4096_S4096x32_S1024x32_1_0_0_1_n_n 4096 rfl rfl).symm]
  refine Finset.sum_congr rfl fun k _ => ?_
  have hk := contrEquiv1_symm_val dot_S1024x4096_S4096x32_S1024x32_1_0_0_1_n_n 4096 rfl rfl k
  have el : dot_S1024x4096_S4096x32_S1024x32_1_0_0_1_n_n.lhsIdx (ix2 r c)
      ((contrEquiv1 dot_S1024x4096_S4096x32_S1024x32_1_0_0_1_n_n 4096 rfl rfl).symm k) = ix2 r k :=
    funext fun a => Fin.ext (by
      match a with
      | ⟨0, _⟩ => exact lhs_0 _ _
      | ⟨1, _⟩ => exact (lhs_1 _ _).trans hk)
  have er : dot_S1024x4096_S4096x32_S1024x32_1_0_0_1_n_n.rhsIdx (ix2 r c)
      ((contrEquiv1 dot_S1024x4096_S4096x32_S1024x32_1_0_0_1_n_n 4096 rfl rfl).symm k) = ix2 k c :=
    funext fun a => Fin.ext (by
      match a with
      | ⟨0, _⟩ => exact (rhs_0 _ _).trans hk
      | ⟨1, _⟩ => exact rhs_1 _ _)
  rw [el, er]
  rfl

/-! ## The first layer kernel -/

/-- The accumulator starts at zero. -/
theorem k1_pay1_at (r : Fin 1024) (c : Fin 32) : k1_pay1 (F := Ideal) (ix2 r c) = 0 := by
  unfold k1_pay1
  rw [shapeCast_self]
  exact Ideal.ofBits_zero_f32

/-- The accumulator plus the product of the current blocks: a sum over the contracted coordinate. -/
theorem k1_pay2_at (v3 : Vec Ideal S4096x32 .f32) (v6 : Vec Ideal S1024x32 .f32) (v7 : Vec Ideal S1024x4096 .bf16)
    (r : Fin 1024) (c : Fin 32) :
    k1_pay2 (F := Ideal) v3 v6 v7 (ix2 r c) = v6 (ix2 r c) + ∑ k : Fin 4096, v7 (ix2 r k) * v3 (ix2 k c) := by
  unfold k1_pay2
  simp only [shapeCast_self]
  show v6 (ix2 r c) + FloatOps.matmul dot_S1024x4096_S4096x32_S1024x32_1_0_0_1_n_n none v7
    (truncf (F := Ideal) .bf16 v3 bitsLt_bf16_f32) (constant (F := Ideal) S1024x32 .f32 0x00000000#32) (ix2 r c) = _
  rw [Ideal.matmul_constant_zero_apply]
  exact congrArg (v6 (ix2 r c) + ·) (matmul_sum v7 v3 r c)

/-- The layer's result: the scaled product plus the self-loop term, clipped below at zero. -/
theorem k1_pay3_at (v17 : Vec Ideal S1024x1 .f32) (v19 : Vec Ideal S1024x32 .f32) (v23 : Vec Ideal S1024x32 .f32)
    (r : Fin 1024) (c : Fin 32) :
    k1_pay3 (F := Ideal) v17 v19 v23 (ix2 r c)
      = max (v17 (ix2 r (0 : Fin 1)) * v19 (ix2 r c)
          + (v17 (ix2 r (0 : Fin 1)) * v17 (ix2 r (0 : Fin 1))) * v23 (ix2 r c)) 0 := by
  unfold k1_pay3
  simp only [shapeCast_self]
  show max (broadcastTo S1024x32 v17 broadcasts_S1024x1_S1024x32 (ix2 r c) * v19 (ix2 r c)
      + broadcastTo S1024x32 (mulf (F := Ideal) v17 v17) broadcasts_S1024x1_S1024x32 (ix2 r c) * v23 (ix2 r c))
      (Ideal.ofBits .f32 0x00000000#32) = _
  rw [broadcastTo_a1_ab_apply, broadcastTo_a1_ab_apply, Ideal.ofBits_zero_f32]
  rfl

/-! ## The second layer kernel -/

/-- The accumulator starts at zero. -/
theorem k2_pay1_at (r : Fin 1024) (c : Fin 32) : k2_pay1 (F := Ideal) (ix2 r c) = 0 := by
  unfold k2_pay1
  rw [shapeCast_self]
  exact Ideal.ofBits_zero_f32

/-- The accumulator plus the product of the current blocks: a sum over the contracted coordinate. -/
theorem k2_pay2_at (v3 : Vec Ideal S4096x32 .f32) (v6 : Vec Ideal S1024x32 .f32) (v7 : Vec Ideal S1024x4096 .bf16)
    (r : Fin 1024) (c : Fin 32) :
    k2_pay2 (F := Ideal) v3 v6 v7 (ix2 r c) = v6 (ix2 r c) + ∑ k : Fin 4096, v7 (ix2 r k) * v3 (ix2 k c) := by
  unfold k2_pay2
  simp only [shapeCast_self]
  show v6 (ix2 r c) + FloatOps.matmul dot_S1024x4096_S4096x32_S1024x32_1_0_0_1_n_n none v7
    (truncf (F := Ideal) .bf16 v3 bitsLt_bf16_f32) (constant (F := Ideal) S1024x32 .f32 0x00000000#32) (ix2 r c) = _
  rw [Ideal.matmul_constant_zero_apply]
  exact congrArg (v6 (ix2 r c) + ·) (matmul_sum v7 v3 r c)

/-- The layer's result: the scaled product plus the self-loop term, clipped below at zero. -/
theorem k2_pay3_at (v17 : Vec Ideal S1024x1 .f32) (v19 : Vec Ideal S1024x32 .f32) (v23 : Vec Ideal S1024x32 .f32)
    (r : Fin 1024) (c : Fin 32) :
    k2_pay3 (F := Ideal) v17 v19 v23 (ix2 r c)
      = max (v17 (ix2 r (0 : Fin 1)) * v19 (ix2 r c)
          + (v17 (ix2 r (0 : Fin 1)) * v17 (ix2 r (0 : Fin 1))) * v23 (ix2 r c)) 0 := by
  unfold k2_pay3
  simp only [shapeCast_self]
  show max (broadcastTo S1024x32 v17 broadcasts_S1024x1_S1024x32 (ix2 r c) * v19 (ix2 r c)
      + broadcastTo S1024x32 (mulf (F := Ideal) v17 v17) broadcasts_S1024x1_S1024x32 (ix2 r c) * v23 (ix2 r c))
      (Ideal.ofBits .f32 0x00000000#32) = _
  rw [broadcastTo_a1_ab_apply, broadcastTo_a1_ab_apply, Ideal.ofBits_zero_f32]
  rfl

end Cert.KernelIdeal.Pay

end
-- ==== Proof.SpecCore.lean ====
/-
  One graph-convolution layer as the blocked arrangement computes it from four arrays: the raw matrix `a`, the
  column-scaled features `hs`, the unscaled features `hpre` and the degree scaling `d` —
  `relu (d r · Σ_k a r k · hs k c + d r · d r · hpre r c)`. The layer of `Spec.lean` is this at `hs k c = d k · hpre k c`.
-/
import proofs.«136441_j876173328454_2_alg».proof.Proof.Spec

noncomputable section

namespace Cert.Spec

def layerCore (a : Fin 8192 → Fin 8192 → EReal) (hs hpre : Fin 8192 → Fin 32 → EReal) (d : Fin 8192 → EReal)
    (r : Fin 8192) (c : Fin 32) : EReal :=
  max (d r * (∑ k : Fin 8192, a r k * hs k c) + (d r * d r) * hpre r c) 0

theorem layerK_eq_core (adj : Fin 8192 → Fin 8192 → EReal) (d : Fin 8192 → EReal) (hpre : Fin 8192 → Fin 32 → EReal) :
    layerK adj d hpre = layerCore adj (fun k c => d k * hpre k c) hpre d := rfl

end Cert.Spec

end
-- ==== Proof.LibSumBlocks.lean ====
/-
  A sum over an index range of length A * B, regrouped into A consecutive blocks of length B.
  Only commutativity and associativity of addition are used, so the law holds in any additive
  commutative monoid, the extended reals included: no finiteness is needed.
-/
import Mathlib.Algebra.BigOperators.Fin
import Mathlib.Algebra.BigOperators.Group.Finset.Basic

namespace BlockSum

open Finset

/-- The sum over `Fin (A * B)` is the sum over the `A` blocks of the sums inside each block:
    the entry `(a, b)` of the block decomposition is the index `a * B + b`. -/
theorem sum_blocks {M : Type*} [AddCommMonoid M] (A B : Nat) (f : Nat → M) :
    (∑ i : Fin (A * B), f i.val) = ∑ a : Fin A, ∑ b : Fin B, f (a.val * B + b.val) := by
  rw [← Finset.sum_product', ← finProdFinEquiv.sum_comp]
  refine Finset.sum_congr rfl fun p _ => ?_
  simp [finProdFinEquiv, Nat.add_comm, Nat.mul_comm]

end BlockSum
-- ==== Proof.KI.Val0.lean ====
/-
  The degree pass, part 7 (over the extended reals): what its two output arrays end holding.

  The scratch column after point t holds, for row p of the row block t / 4, the sum of that row's entries over the
  column blocks 0 … t % 4: by induction on the point, a first block starting from the cleared column. At a last block
  that is the whole row sum (the four block sums regrouped into one sum, which needs only that addition is
  commutative and associative), so the degree array ends holding `(max 1 (rowSum + 1))^(-1/2)` row by row; the copy
  array ends holding the matrix itself, the narrower format being the identity here.
-/
import proofs.«136441_j876173328454_2_alg».proof.Proof.KI.Val0Pieces
import proofs.«136441_j876173328454_2_alg».proof.Proof.KI.Payloads
import proofs.«136441_j876173328454_2_alg».proof.Proof.SpecCore
import proofs.«136441_j876173328454_2_alg».proof.Proof.LibSumBlocks
import Idealize.ShloMosaic.Lib.ValueIdx
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- The matrix as the region finds it, by natural-number coordinates (zero outside the array: never read). -/
def A (c : Dev nD) (r k : ℕ) : EReal :=
  if h : r < 8192 ∧ k < 8192 then V c main_arg1 (ix2 ⟨r, h.1⟩ ⟨k, h.2⟩) else 0

theorem A_of_lt (c : Dev nD) (r k : Fin 8192) : A V c r.val k.val = V c main_arg1 (ix2 r k) := by
  unfold A; rw [dif_pos ⟨r.isLt, k.isLt⟩]

theorem lt32 (t : Fin cfg0.N) : t.val < 32 := lt_of_lt_of_eq t.isLt (show cfg0.N = 32 from N_0)

/-- The printed index maps over the grid: the input and the copy move with (row block, column block), the degree
    output with the row block. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = t.val / 4 ∧ win0_2.index t (1 : Fin 2) = t.val % 4 :=
  (by decide +kernel : ∀ t : Fin grid0.N, _)

/-- The input block at a point, entry by entry. -/
theorem iblk_at (c : Dev nD) (t : Fin cfg0.N) (p : Fin 1024) (q : Fin 2048) :
    iblk V c 0 t (ix2 p q) = A V c (1024 * (t.val / 4) + p.val) (2048 * (t.val % 4) + q.val) := by
  have hN := lt32 t
  obtain ⟨e0, e1, -⟩ := idx_facts t
  unfold A; rw [dif_pos ⟨by omega, by omega⟩]
  show V c main_arg1 (((cfg0.win 0).blk t).view.emb (ix2 p q)) = V c main_arg1 _
  refine congrArg _ ?_
  funext a; apply Fin.ext
  match a with
  | ⟨0, _⟩ => show win0_0.index t (0 : Fin 2) * 1024 + 1 * p.val = 1024 * (t.val / 4) + p.val; omega
  | ⟨1, _⟩ => show win0_0.index t (1 : Fin 2) * 2048 + 1 * q.val = 2048 * (t.val % 4) + q.val; omega

/-- THE SCRATCH COLUMN in closed form: after point `n`, row `p` holds the row's sum over the column blocks so far. -/
theorem accAt_at (c : Dev nD) : ∀ (n : ℕ) (hn : n < cfg0.N) (p : Fin 1024) (q : Fin 1),
    accAt V c n hn (ix2 p q) = ∑ j ∈ Finset.range (n % 4 + 1), ∑ k : Fin 2048, A V c (1024 * (n / 4) + p.val) (2048 * j + k.val) := by
  intro n
  induction n with
  | zero =>
    intro hn p q
    rw [show accAt V c 0 hn = accAt V c (⟨0, hn⟩ : Fin cfg0.N).val (⟨0, hn⟩ : Fin cfg0.N).isLt from rfl,
      accAt_first V c ⟨0, hn⟩ (Nat.zero_mod 4), accFirst_eq, k0_pay2_at, k0_pay1_at, zero_add]
    simp only [Nat.zero_mod, zero_add, Finset.sum_range_one, Nat.zero_div, Nat.mul_zero]
    exact Finset.sum_congr rfl fun k _ => by rw [iblk_at]; simp
  | succ n ih =>
    intro hn p q
    have hN : n + 1 < 32 := lt_of_lt_of_eq hn (show cfg0.N = 32 from N_0)
    have e : accAt V c (n + 1) hn = accAt V c (⟨n + 1, hn⟩ : Fin cfg0.N).val (⟨n + 1, hn⟩ : Fin cfg0.N).isLt := rfl
    by_cases h0 : (n + 1) % 4 = 0
    · rw [e, accAt_first V c ⟨n + 1, hn⟩ h0, accFirst_eq, k0_pay2_at, k0_pay1_at, zero_add, h0]
      simp only [zero_add, Finset.sum_range_one, Nat.mul_zero]
      exact Finset.sum_congr rfl fun k _ => by rw [iblk_at]; simp only [h0, Nat.mul_zero, zero_add]
    · have hprev : accAt V c (n + 1 - 1) (Nat.lt_of_le_of_lt (Nat.sub_le _ _) hn) (ix2 p q)
          = ∑ j ∈ Finset.range ((n + 1) % 4), ∑ k : Fin 2048, A V c (1024 * ((n + 1) / 4) + p.val) (2048 * j + k.val) := by
        refine (ih (Nat.lt_of_succ_lt hn) p q).trans ?_
        rw [show n % 4 + 1 = (n + 1) % 4 from by omega, show n / 4 = (n + 1) / 4 from by omega]
      have hstep : ∀ xa : Vec Ideal S1024x1 .f32, k0_pay2 (F := Ideal) (iblk V c 0 ⟨n + 1, hn⟩) xa (ix2 p q)
          = xa (ix2 p q) + ∑ k : Fin 2048, A V c (1024 * ((n + 1) / 4) + p.val) (2048 * ((n + 1) % 4) + k.val) := fun xa => by
        rw [k0_pay2_at]; exact congrArg _ (Finset.sum_congr rfl fun k _ => by rw [iblk_at])
      rw [Finset.sum_range_succ, ← hprev]
      by_cases h1 : (n + 1) % 4 = 3
      · rw [e, accAt_last V c ⟨n + 1, hn⟩ h1, accLast_eq, hstep]
      · rw [e, accAt_middle V c ⟨n + 1, hn⟩ h0 h1, accMiddle_eq, hstep]

/-- At a last column block the scratch column holds the whole row sums. -/
theorem accAt_last_at (c : Dev nD) (t : Fin cfg0.N) (h1 : t.val % 4 = 3) (p : Fin 1024) (q : Fin 1) :
    accAt V c t.val t.isLt (ix2 p q)
      = Cert.Spec.rowSum (fun r k => V c main_arg1 (ix2 r k)) ⟨1024 * (t.val / 4) + p.val, by have := lt32 t; omega⟩ := by
  have hN := lt32 t
  rw [accAt_at, h1, Finset.sum_range]
  unfold Cert.Spec.rowSum
  have hb := BlockSum.sum_blocks 4 2048 (A V c (1024 * (t.val / 4) + p.val))
  rw [show (∑ a : Fin 4, ∑ b : Fin 2048, A V c (1024 * (t.val / 4) + p.val) (a.val * 2048 + b.val))
      = ∑ j : Fin (3 + 1), ∑ k : Fin 2048, A V c (1024 * (t.val / 4) + p.val) (2048 * j.val + k.val) from
    Finset.sum_congr rfl fun a _ => Finset.sum_congr rfl fun b _ => by rw [Nat.mul_comm a.val 2048]] at hb
  rw [← hb]
  show (∑ i : Fin 8192, A V c (1024 * (t.val / 4) + p.val) i.val) = _
  exact Finset.sum_congr rfl fun k _ => A_of_lt V c ⟨1024 * (t.val / 4) + p.val, by omega⟩ k

end Cert.KernelIdeal.Reg0

end
-- ==== Proof.KI.Val0Final.lean ====
/-
  The degree pass, part 8 (over the extended reals): the two output arrays after the region, whole.
-/
import proofs.«136441_j876173328454_2_alg».proof.Proof.KI.Val0

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-! ## The copy -/

/-- At every point the copy buffer is the input block (the narrower format is the identity on the extended reals). -/
theorem copyAt_eq (c : Dev nD) (t : Fin cfg0.N) : copyAt V c t = k0_pay3 (F := Ideal) (iblk V c 0 t) := by
  unfold copyAt
  split
  · exact copyFirst_eq V c t _
  · split
    · exact copyLast_eq V c t _ _
    · exact copyMiddle_eq V c t _ _ _

/-- The copy array's target: the matrix itself. -/
def GCopy (c : Dev nD) : S8192x8192.Idx → Elt Ideal .bf16 := fun i => V c main_arg1 i

theorem flushed_copy (c : Dev nD) (t : Fin cfg0.N) :
    (dat V c).flushed 2 t = ((cfg0.win 2).blk t).view.read (Elt Ideal) (GCopy V c) := by
  show (cfg0.win 2).cut (grid0.coords t) ((dat V c).after 2 t) = _
  rw [after_copy, copyAt_eq, k0_pay3_eq]
  obtain ⟨e0, e1, -, -, e4, e5⟩ := idx_facts t
  funext j
  show V c main_arg1 (((cfg0.win 0).blk t).view.emb j) = V c main_arg1 (((cfg0.win 2).blk t).view.emb j)
  refine congrArg _ ?_
  funext a; apply Fin.ext
  match a with
  | ⟨0, _⟩ => show win0_0.index t (0 : Fin 2) * 1024 + 1 * (j 0).val = win0_2.index t (0 : Fin 2) * 1024 + 1 * (j 0).val; omega
  | ⟨1, _⟩ => show win0_0.index t (1 : Fin 2) * 2048 + 1 * (j 1).val = win0_2.index t (1 : Fin 2) * 2048 + 1 * (j 1).val; omega

theorem mem_blk_copy (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0_1).slice (win0_2.rect t)).set ↔ _
  rw [View.set_slice_whole, Rect.mem_set_unit]
  exact Iff.rfl

theorem cover_copy (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  let t : Fin cfg0.N := ⟨4 * ((i 0).val / 1024) + (i 1).val / 2048, lt_of_lt_of_eq (by omega) (show 32 = cfg0.N from N_0.symm)⟩
  obtain ⟨-, -, -, -, e4, e5⟩ := idx_facts t
  have tv : t.val = 4 * ((i 0).val / 1024) + (i 1).val / 2048 := rfl
  refine ⟨t, flush0_2 t, ?_⟩
  rw [mem_blk_copy]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- THE COPY ARRAY after the region is the matrix. -/
theorem final_copy (c : Dev nD) : (dat V c).arrAt 2 cfg0.N = GCopy V c :=
  (dat V c).arrAt_eq_of_cover 2 (GCopy V c) (fun t _ => flushed_copy V c t) cover_copy

/-! ## The degree scaling -/

/-- The degree array's target: row by row the reciprocal square root of the clipped degree. -/
def GDeg (c : Dev nD) : S8192x1.Idx → Elt Ideal .f32 :=
  fun i => Cert.Spec.dK (fun r k => V c main_arg1 (ix2 r k)) (i 0)

theorem degAt_eq (c : Dev nD) (t : Fin cfg0.N) (h1 : t.val % 4 = 3) :
    degAt V c t = k0_pay4 (F := Ideal) (accAt V c t.val t.isLt) := by
  rw [show degAt V c t = degLast V c t h1 (accBefore V c t) from dif_pos h1, degLast_eq,
    accAt_last V c t h1, accLast_eq]

theorem flushed_deg (c : Dev nD) (t : Fin cfg0.N) (hf : (cfg0.win 1).flush t = true) :
    (dat V c).flushed 1 t = ((cfg0.win 1).blk t).view.read (Elt Ideal) (GDeg V c) := by
  have h1 : t.val % 4 = 3 := (flush0_1 t).mp hf
  have hN := lt32 t
  show (cfg0.win 1).cut (grid0.coords t) ((dat V c).after 1 t) = _
  rw [after_deg, degAt_eq V c t h1]
  obtain ⟨-, -, e2, e3, -⟩ := idx_facts t
  funext j
  obtain ⟨p, q, rfl⟩ : ∃ (p : Fin 1024) (q : Fin 1), j = ix2 p q := ⟨j 0, j 1, eq_ix2 j⟩
  show k0_pay4 (F := Ideal) (accAt V c t.val t.isLt) (ix2 p q) = GDeg V c (((cfg0.win 1).blk t).view.emb (ix2 p q))
  rw [k0_pay4_at, accAt_last_at V c t h1]
  unfold GDeg Cert.Spec.dK
  refine congrArg (fun r => Ideal.rsqrt (max 1 (Cert.Spec.rowSum (fun r k => V c main_arg1 (ix2 r k)) r + 1))) ?_
  apply Fin.ext
  show 1024 * (t.val / 4) + p.val = win0_1.index t (0 : Fin 2) * 1024 + 1 * p.val
  omega

theorem mem_blk_deg (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0_0).slice (win0_1.rect t)).set ↔ _
  rw [View.set_slice_whole, Rect.mem_set_unit]
  exact Iff.rfl

theorem cover_deg (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  let t : Fin cfg0.N := ⟨4 * ((i 0).val / 1024) + 3, lt_of_lt_of_eq (by omega) (show 32 = cfg0.N from N_0.symm)⟩
  obtain ⟨-, -, e2, e3, -⟩ := idx_facts t
  have tv : t.val = 4 * ((i 0).val / 1024) + 3 := rfl
  refine ⟨t, (flush0_1 t).mpr (by omega), ?_⟩
  rw [mem_blk_deg]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1 ≤ (i 1).val ∧ (i 1).val < win0_1.index t (1 : Fin 2) * 1 + 1; omega

/-- THE DEGREE ARRAY after the region. -/
theorem final_deg (c : Dev nD) : (dat V c).arrAt 1 cfg0.N = GDeg V c :=
  (dat V c).arrAt_eq_of_cover 1 (GDeg V c) (flushed_deg V c) cover_deg

end Cert.KernelIdeal.Reg0

end
-- ==== Proof.KI.Val1Pieces.lean ====
/- The layer kernel's pipeline number 1: what each case's stores leave, read back, is the body's arithmetic on the
   point's blocks — the accumulator after an even point is the product of the adjacency block and the rounded
   feature block added to zero; after an odd point it is that product added to what the accumulator held; and the
   output block stored at an odd point is the scaled, shifted and clamped combination of the accumulator with the
   degree block and the pre-activation block. Every load and store is of a whole buffer at offset zero. -/
import proofs.«136441_j876173328454_2_alg».proof.Proof.KI.Reg1
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access: both coordinates zero. -/
theorem zero_off : (![0, 0] : Fin 2 → ℕ) = fun _ => 0 := funext fun a => by fin_cases a <;> rfl

/-- After an even point the accumulator holds the block product added to the zero block. -/
theorem sout_A_eq (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) :
    sout_A c i arg2 harg2 arg3 harg3 arg4 harg4 arg5 harg5 arg6 harg6 arg7 harg7 hc0 hc1 x0 x1 x2 x3 = k1_pay2 x1 (k1_pay1 (F := F)) x0 := by
  unfold sout_A
  rw [View.read_writes_eq_canon _ _ _ (scover_A c i arg2 harg2 arg3 harg3 arg4 harg4 arg5 harg5 arg6 harg6 arg7 harg7 hc0 hc1 x0 x1 x2 x3)]
  unfold kernelRun_A
  dsimp only
  sl_unfold_words
  rw [View.canon_cons_unit_zero zero_off]
  simp only [View.readAt_eq_ld, Memref.IsWhole.read_unread, View.ld_unit_zero (S := S4096x32) zero_off, View.ld_unit_zero (S := S1024x32) zero_off, View.ld_unit_zero (S := S1024x4096) zero_off, View.ld_unit_zero (S := S1024x1) zero_off, View.readCov_unit_zero (S := S1024x32) _ zero_off]

/-- After an odd point the accumulator holds the block product added to what it held. -/
theorem sout_B_eq (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    sout_B c i arg2 harg2 arg3 harg3 arg4 harg4 arg5 harg5 arg6 harg6 arg7 harg7 hc0 hc1 x0 x1 x2 x3 xs = k1_pay2 x1 xs x0 := by
  unfold sout_B
  rw [View.read_writes_eq_canon _ _ _ (scover_B c i arg2 harg2 arg3 harg3 arg4 harg4 arg5 harg5 arg6 harg6 arg7 harg7 hc0 hc1 x0 x1 x2 x3 xs)]
  unfold kernelRun_B
  dsimp only
  sl_unfold_words
  rw [View.canon_unit_zero zero_off]
  simp only [View.readAt_eq_ld, Memref.IsWhole.read_unread, View.ld_unit_zero (S := S4096x32) zero_off, View.ld_unit_zero (S := S1024x32) zero_off, View.ld_unit_zero (S := S1024x4096) zero_off, View.ld_unit_zero (S := S1024x1) zero_off, View.readCov_unit_zero (S := S1024x32) _ zero_off]

/-- At an odd point the output block is the body's last payload of the degree block, the accumulator just updated,
    and the pre-activation block. -/
theorem out_B_4_eq (c : Dev nD) (i : grid1.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    out_B_4 c i arg2 harg2 arg3 harg3 arg4 harg4 arg5 harg5 arg6 harg6 arg7 harg7 hc0 hc1 x0 x1 x2 x3 xs = k1_pay3 x3 (k1_pay2 x1 xs x0) x2 := by
  unfold out_B_4
  rw [View.read_writes_eq_canon _ _ _ (cover_B_4 c i arg2 harg2 arg3 harg3 arg4 harg4 arg5 harg5 arg6 harg6 arg7 harg7 hc0 hc1 x0 x1 x2 x3 xs)]
  unfold kernelRun_B
  dsimp only
  sl_unfold_words
  rw [View.canon_unit_zero zero_off]
  simp only [View.readAt_eq_ld, Memref.IsWhole.read_unread, View.ld_unit_zero (S := S4096x32) zero_off, View.ld_unit_zero (S := S1024x32) zero_off, View.ld_unit_zero (S := S1024x4096) zero_off, View.ld_unit_zero (S := S1024x1) zero_off, View.readCov_unit_zero (S := S1024x32) _ zero_off]

end Cert.KernelIdeal.Reg1

end
-- ==== Proof.KI.Val1.lean ====
/- The layer kernel's pipeline number 1 on the extended reals: the array its output window ends holding is one
   function of the four arrays its input windows read. Row block I of the output is written back once, after the
   second of the two points that visit it; the accumulator was zeroed at the first of them, so what is stored is
   the sum of the two half products — the left and right halves of the contracted coordinate — scaled by the
   row's degree factor, plus the squared factor times the pre-activation entry, clipped below at zero. The two
   half sums join into the sum over the whole contracted range by splitting the range at its middle; only
   commutativity and associativity of addition are used. -/
import proofs.«136441_j876173328454_2_alg».proof.Proof.KI.Val1Pieces
import proofs.«136441_j876173328454_2_alg».proof.Proof.KI.Payloads
import proofs.«136441_j876173328454_2_alg».proof.Proof.SpecCore
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What an odd point stores, over the blocks of the two points of its row block (any float instance) -/

section
variable (V : (c : Dev nD) → (b : Ref sig .tc) → Buf (Elt F) ((c : Thread nD τ).loc b))

/-- The point before an odd point. -/
abbrev prev (t : Fin cfg1.N) : Fin cfg1.N := ⟨t.val - 1, Nat.lt_of_le_of_lt (Nat.sub_le _ _) t.isLt⟩

/-- At an odd point the output block is the last payload of the point's degree and pre-activation blocks and of
    the accumulator: the product of the point's blocks added to the product of the previous point's blocks added
    to zero. -/
theorem after_4_odd (c : Dev nD) (t : Fin cfg1.N) (h1 : t.val % 2 = 1) :
    (dat V c).after 4 t
      = k1_pay3 (iblk V c 3 t) (k1_pay2 (iblk V c 1 t) (k1_pay2 (iblk V c 1 (prev t)) (k1_pay1 (F := F)) (iblk V c 0 (prev t))) (iblk V c 0 t)) (iblk V c 2 t) := by
  have h0 : ¬t.val % 2 = 0 := by omega
  have hp : (prev t).val % 2 = 0 := by show (t.val - 1) % 2 = 0; omega
  rw [after_4, outsAt_B V c t h0]
  dsimp only
  rw [out_B_4_eq c (grid1.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t)
    (outsAt V c (t.val - 1) (Nat.lt_of_le_of_lt (Nat.sub_le _ _) t.isLt)).2]
  have e := outsAt_A V c (prev t) hp
  rw [show outsAt V c (t.val - 1) (Nat.lt_of_le_of_lt (Nat.sub_le _ _) t.isLt) = outsAt V c (prev t).val (prev t).isLt from rfl, e]
  dsimp only
  rw [sout_A_eq c (grid1.coords (prev t)) (ms_0 (prev t)) (hs_0 (prev t)) (ms_1 (prev t)) (hs_1 (prev t)) (ms_2 (prev t)) (hs_2 (prev t)) (ms_3 (prev t)) (hs_3 (prev t)) (ms_4 (prev t)) (hs_4 (prev t)) scM (Memref.isWhole_whole _) ((hcond_0 (prev t)).mpr hp) (fun h => (fun h => by omega) ((hcond_1 (prev t)).mp h)) (iblk V c 0 (prev t)) (iblk V c 1 (prev t)) (iblk V c 2 (prev t)) (iblk V c 3 (prev t))]

end

/-! ## On the extended reals -/

section
variable (V : (c : Dev nD) → (b : Ref sig .tc) → Buf (Elt Ideal) ((c : Thread nD τ).loc b))

/-- The stored entry over the six blocks, as sums over the contracted coordinate. -/
theorem point_value (x0e x0o : Vec Ideal S1024x4096 .bf16) (x1e x1o : Vec Ideal S4096x32 .f32)
    (x2 : Vec Ideal S1024x32 .f32) (x3 : Vec Ideal S1024x1 .f32) (r : Fin 1024) (q : Fin 32) :
    k1_pay3 (F := Ideal) x3 (k1_pay2 x1o (k1_pay2 x1e (k1_pay1 (F := Ideal)) x0e) x0o) x2 (ix2 r q)
      = max (x3 (ix2 r (0 : Fin 1)) * ((∑ k : Fin 4096, x0e (ix2 r k) * x1e (ix2 k q)) + ∑ k : Fin 4096, x0o (ix2 r k) * x1o (ix2 k q))
          + (x3 (ix2 r (0 : Fin 1)) * x3 (ix2 r (0 : Fin 1))) * x2 (ix2 r q)) 0 := by
  rw [Pay.k1_pay3_at, Pay.k1_pay2_at, Pay.k1_pay2_at, Pay.k1_pay1_at, zero_add]

/-- A sum over the contracted range is the sum over its left half plus the sum over its right half. -/
theorem sum_halves (f : Fin 8192 → EReal) :
    (∑ K : Fin 8192, f K) = (∑ k : Fin 4096, f ⟨k.val, by omega⟩) + ∑ k : Fin 4096, f ⟨4096 + k.val, by omega⟩ :=
  Fin.sum_univ_add (a := 4096) (b := 4096) f

/-- The printed index maps, decided over the grid: the row block is the outer coordinate, the half of the contracted
    range the inner one. -/
theorem idx_facts : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 2) = t.val / 2 ∧ win1_3.index t (1 : Fin 2) = 0
    ∧ win1_4.index t (0 : Fin 2) = t.val / 2 ∧ win1_4.index t (1 : Fin 2) = 0 :=
  (by decide +kernel : ∀ t : Fin grid1.N, _)

end

/-! ## The four input arrays as the region finds them -/

section
variable (V : (c : Dev nD) → (b : Ref sig .tc) → Buf (Elt Ideal) ((c : Thread nD τ).loc b))

/-- The matrix, -/
abbrev arrA (c : Dev nD) : Fin 8192 → Fin 8192 → EReal := fun r k => V c (Pipeline.arrRef spec1 0) (ix2 r k)
/-- the scaled features, -/
abbrev arrHS (c : Dev nD) : Fin 8192 → Fin 32 → EReal := fun k q => V c (Pipeline.arrRef spec1 1) (ix2 k q)
/-- the pre-activation, -/
abbrev arrHpre (c : Dev nD) : Fin 8192 → Fin 32 → EReal := fun r q => V c (Pipeline.arrRef spec1 2) (ix2 r q)
/-- and the degree factor, a column. -/
abbrev arrD (c : Dev nD) : Fin 8192 → EReal := fun r => V c (Pipeline.arrRef spec1 3) (ix2 r (0 : Fin 1))

/-! ## The blocks read where the arrays hold them -/

/-- The matrix block at point `t`: rows from `(t / 2) · 1024`, columns from `(t % 2) · 4096`. -/
theorem iblk_0_at (c : Dev nD) (t : Fin cfg1.N) (r : Fin 1024) (k : Fin 4096) (R K : Fin 8192)
    (hR : R.val = t.val / 2 * 1024 + r.val) (hK : K.val = t.val % 2 * 4096 + k.val) :
    (iblk V c 0 t : Vec Ideal S1024x4096 .bf16) (ix2 r k) = arrA V c R K := by
  obtain ⟨e0, e1, -⟩ := idx_facts t
  unfold iblk
  show V c (Pipeline.arrRef spec1 0) (((cfg1.win 0).blk t).view.emb (ix2 r k)) = V c (Pipeline.arrRef spec1 0) (ix2 R K)
  refine congrArg (V c (Pipeline.arrRef spec1 0)) ?_
  funext a; apply Fin.ext
  match a with
  | ⟨0, _⟩ => show win1_0.index t (0 : Fin 2) * 1024 + 1 * r.val = R.val; rw [e0, hR]; omega
  | ⟨1, _⟩ => show win1_0.index t (1 : Fin 2) * 4096 + 1 * k.val = K.val; rw [e1, hK]; omega

/-- The scaled-feature block at point `t`: rows from `(t % 2) · 4096`. -/
theorem iblk_1_at (c : Dev nD) (t : Fin cfg1.N) (k : Fin 4096) (q : Fin 32) (K : Fin 8192)
    (hK : K.val = t.val % 2 * 4096 + k.val) :
    (iblk V c 1 t : Vec Ideal S4096x32 .f32) (ix2 k q) = arrHS V c K q := by
  obtain ⟨-, -, e0, e1, -⟩ := idx_facts t
  unfold iblk
  show V c (Pipeline.arrRef spec1 1) (((cfg1.win 1).blk t).view.emb (ix2 k q)) = V c (Pipeline.arrRef spec1 1) (ix2 K q)
  refine congrArg (V c (Pipeline.arrRef spec1 1)) ?_
  funext a; apply Fin.ext
  match a with
  | ⟨0, _⟩ => show win1_1.index t (0 : Fin 2) * 4096 + 1 * k.val = K.val; rw [e0, hK]; omega
  | ⟨1, _⟩ => show win1_1.index t (1 : Fin 2) * 32 + 1 * q.val = q.val; rw [e1]; omega

/-- The pre-activation block at point `t`: rows from `(t / 2) · 1024`. -/
theorem iblk_2_at (c : Dev nD) (t : Fin cfg1.N) (r : Fin 1024) (q : Fin 32) (R : Fin 8192)
    (hR : R.val = t.val / 2 * 1024 + r.val) :
    (iblk V c 2 t : Vec Ideal S1024x32 .f32) (ix2 r q) = arrHpre V c R q := by
  obtain ⟨-, -, -, -, e0, e1, -⟩ := idx_facts t
  unfold iblk
  show V c (Pipeline.arrRef spec1 2) (((cfg1.win 2).blk t).view.emb (ix2 r q)) = V c (Pipeline.arrRef spec1 2) (ix2 R q)
  refine congrArg (V c (Pipeline.arrRef spec1 2)) ?_
  funext a; apply Fin.ext
  match a with
  | ⟨0, _⟩ => show win1_2.index t (0 : Fin 2) * 1024 + 1 * r.val = R.val; rw [e0, hR]; omega
  | ⟨1, _⟩ => show win1_2.index t (1 : Fin 2) * 32 + 1 * q.val = q.val; rw [e1]; omega

/-- The degree-factor block at point `t`: rows from `(t / 2) · 1024`, its one column. -/
theorem iblk_3_at (c : Dev nD) (t : Fin cfg1.N) (r : Fin 1024) (R : Fin 8192)
    (hR : R.val = t.val / 2 * 1024 + r.val) :
    (iblk V c 3 t : Vec Ideal S1024x1 .f32) (ix2 r (0 : Fin 1)) = arrD V c R := by
  obtain ⟨-, -, -, -, -, -, e0, e1, -⟩ := idx_facts t
  unfold iblk
  show V c (Pipeline.arrRef spec1 3) (((cfg1.win 3).blk t).view.emb (ix2 r (0 : Fin 1))) = V c (Pipeline.arrRef spec1 3) (ix2 R (0 : Fin 1))
  refine congrArg (V c (Pipeline.arrRef spec1 3)) ?_
  funext a; apply Fin.ext
  match a with
  | ⟨0, _⟩ => show win1_3.index t (0 : Fin 2) * 1024 + 1 * r.val = R.val; rw [e0, hR]; omega
  | ⟨1, _⟩ => show win1_3.index t (1 : Fin 2) * 1 + 1 * (0 : Fin 1).val = (0 : Fin 1).val; rw [e1]; rfl

/-- The output block's entry `(r, q)` at point `t` is the array's entry `((t / 2) · 1024 + r, q)`. -/
theorem emb_4 (t : Fin cfg1.N) (r : Fin 1024) (q : Fin 32) (R : Fin 8192) (hR : R.val = t.val / 2 * 1024 + r.val) :
    ((cfg1.win 4).blk t).view.emb (ix2 r q) = ix2 R q := by
  obtain ⟨-, -, -, -, -, -, -, -, e0, e1⟩ := idx_facts t
  funext a; apply Fin.ext
  match a with
  | ⟨0, _⟩ => show win1_4.index t (0 : Fin 2) * 1024 + 1 * r.val = R.val; rw [e0, hR]; omega
  | ⟨1, _⟩ => show win1_4.index t (1 : Fin 2) * 32 + 1 * q.val = q.val; rw [e1]; omega

end

/-! ## The two half products join -/

/-- Over six blocks that read four arrays `a`, `hs`, `hpre`, `d` at row `R` — the even point's blocks the left half
    of the contracted range, the odd point's the right half —, the stored entry is the layer's entry `(R, q)`. -/
theorem joined (x0e x0o : Vec Ideal S1024x4096 .bf16) (x1e x1o : Vec Ideal S4096x32 .f32)
    (x2 : Vec Ideal S1024x32 .f32) (x3 : Vec Ideal S1024x1 .f32)
    (a : Fin 8192 → Fin 8192 → EReal) (hs hpre : Fin 8192 → Fin 32 → EReal) (d : Fin 8192 → EReal)
    (r : Fin 1024) (q : Fin 32) (R : Fin 8192)
    (h0e : ∀ k : Fin 4096, x0e (ix2 r k) = a R ⟨k.val, by omega⟩) (h1e : ∀ k : Fin 4096, x1e (ix2 k q) = hs ⟨k.val, by omega⟩ q)
    (h0o : ∀ k : Fin 4096, x0o (ix2 r k) = a R ⟨4096 + k.val, by omega⟩) (h1o : ∀ k : Fin 4096, x1o (ix2 k q) = hs ⟨4096 + k.val, by omega⟩ q)
    (h2 : x2 (ix2 r q) = hpre R q) (h3 : x3 (ix2 r (0 : Fin 1)) = d R) :
    max (x3 (ix2 r (0 : Fin 1)) * ((∑ k : Fin 4096, x0e (ix2 r k) * x1e (ix2 k q)) + ∑ k : Fin 4096, x0o (ix2 r k) * x1o (ix2 k q))
          + (x3 (ix2 r (0 : Fin 1)) * x3 (ix2 r (0 : Fin 1))) * x2 (ix2 r q)) 0
      = Cert.Spec.layerCore a hs hpre d R q := by
  unfold Cert.Spec.layerCore
  rw [h2, h3, sum_halves (fun K => a R K * hs K q)]
  simp only [h0e, h1e, h0o, h1o]

/-! ## The output array -/

section
variable (V : (c : Dev nD) → (b : Ref sig .tc) → Buf (Elt Ideal) ((c : Thread nD τ).loc b))

/-- What the output window's array ends holding: the layer of its four input arrays, entry by entry. -/
abbrev G (c : Dev nD) : S8192x32.Idx → EReal := fun i =>
  Cert.Spec.layerCore (arrA V c) (arrHS V c) (arrHpre V c) (arrD V c) (i 0) (i 1)

/-- What an odd point writes back is its block of `G`. -/
theorem flushed_eq (c : Dev nD) (t : Fin cfg1.N) (hf : (cfg1.win 4).flush t = true) :
    (dat V c).flushed 4 t = ((cfg1.win 4).blk t).view.read (Elt Ideal) (G V c) := by
  have h1 : t.val % 2 = 1 := (flush1_4 t).mp hf
  have hN : t.val < 16 := lt_of_lt_of_eq t.isLt (show cfg1.N = 16 from N_1)
  show (cfg1.win 4).cut (grid1.coords t) ((dat V c).after 4 t) = _
  rw [after_4_odd V c t h1]
  funext j
  obtain ⟨r, q, rfl⟩ : ∃ (r : Fin 1024) (q : Fin 32), j = ix2 r q := ⟨j 0, j 1, eq_ix2 j⟩
  have hr : r.val < 1024 := r.isLt
  obtain ⟨R, hR⟩ : ∃ R : Fin 8192, R.val = t.val / 2 * 1024 + r.val := ⟨⟨t.val / 2 * 1024 + r.val, by omega⟩, rfl⟩
  have hRp : R.val = (prev t).val / 2 * 1024 + r.val := by show R.val = (t.val - 1) / 2 * 1024 + r.val; omega
  show k1_pay3 (F := Ideal) (iblk V c 3 t) (k1_pay2 (iblk V c 1 t) (k1_pay2 (iblk V c 1 (prev t)) (k1_pay1 (F := Ideal)) (iblk V c 0 (prev t))) (iblk V c 0 t)) (iblk V c 2 t) (ix2 r q)
    = G V c (((cfg1.win 4).blk t).view.emb (ix2 r q))
  rw [emb_4 t r q R hR]
  refine (point_value (iblk V c 0 (prev t)) (iblk V c 0 t) (iblk V c 1 (prev t)) (iblk V c 1 t) (iblk V c 2 t) (iblk V c 3 t) r q).trans ?_
  exact joined (iblk V c 0 (prev t)) (iblk V c 0 t) (iblk V c 1 (prev t)) (iblk V c 1 t) (iblk V c 2 t) (iblk V c 3 t)
    (arrA V c) (arrHS V c) (arrHpre V c) (arrD V c) r q R
    (fun k => iblk_0_at V c (prev t) r k R ⟨k.val, by omega⟩ hRp (by show k.val = (t.val - 1) % 2 * 4096 + k.val; omega))
    (fun k => iblk_1_at V c (prev t) k q ⟨k.val, by omega⟩ (by show k.val = (t.val - 1) % 2 * 4096 + k.val; omega))
    (fun k => iblk_0_at V c t r k R ⟨4096 + k.val, by omega⟩ hR (by show 4096 + k.val = t.val % 2 * 4096 + k.val; omega))
    (fun k => iblk_1_at V c t k q ⟨4096 + k.val, by omega⟩ (by show 4096 + k.val = t.val % 2 * 4096 + k.val; omega))
    (iblk_2_at V c t r q R hR) (iblk_3_at V c t r R hR)

/-- An index of the output array is in point `t`'s block iff each coordinate is in the block's range on its axis. -/
theorem mem_blk (t : Fin cfg1.N) (i : S8192x32.Idx) :
    i ∈ ((cfg1.win 4).blk t).view.set ↔ ∀ a : Fin 2, win1_4.index t a * S1024x32.size a ≤ (i a).val ∧ (i a).val < win1_4.index t a * S1024x32.size a + S1024x32.size a := by
  show i ∈ ((View.whole main_v7).slice (win1_4.rect t)).set ↔ _
  rw [View.set_slice_whole, Rect.mem_set_unit]
  exact Iff.rfl

/-- Row `R` of the output is written back at the odd point `2 · (R / 1024) + 1`. -/
theorem cover (i : S8192x32.Idx) :
    ∃ t : Fin cfg1.N, (cfg1.win 4).flush t = true ∧ i ∈ ((cfg1.win 4).blk t).view.set := by
  have hi0 : (i 0).val < 8192 := (i 0).isLt
  have hi1 : (i 1).val < 32 := (i 1).isLt
  obtain ⟨t, ht⟩ : ∃ t : Fin cfg1.N, t.val = 2 * ((i 0).val / 1024) + 1 :=
    ⟨⟨2 * ((i 0).val / 1024) + 1, by rw [show cfg1.N = 16 from N_1]; omega⟩, rfl⟩
  obtain ⟨-, -, -, -, -, -, -, -, e0, e1⟩ := idx_facts t
  refine ⟨t, (flush1_4 t).mpr (by omega), ?_⟩
  rw [mem_blk]
  intro a
  match a with
  | ⟨0, _⟩ => show win1_4.index t (0 : Fin 2) * 1024 ≤ (i 0).val ∧ (i 0).val < win1_4.index t (0 : Fin 2) * 1024 + 1024; rw [e0]; omega
  | ⟨1, _⟩ => show win1_4.index t (1 : Fin 2) * 32 ≤ (i 1).val ∧ (i 1).val < win1_4.index t (1 : Fin 2) * 32 + 32; rw [e1]; omega

/-- THE OUTPUT ARRAY after the region: the layer of the four input arrays as the region finds them. -/
theorem final_out (c : Dev nD) :
    (dat V c).arrAt 4 cfg1.N = fun i => Cert.Spec.layerCore (fun r k => V c (Pipeline.arrRef spec1 0) (ix2 r k)) (fun k q => V c (Pipeline.arrRef spec1 1) (ix2 k q))
      (fun r q => V c (Pipeline.arrRef spec1 2) (ix2 r q)) (fun r => V c (Pipeline.arrRef spec1 3) (ix2 r (0 : Fin 1))) (i 0) (i 1) :=
  (dat V c).arrAt_eq_of_cover 4 (G V c) (fun t hf => flushed_eq V c t hf) cover

end

end Cert.KernelIdeal.Reg1

end
-- ==== Proof.KI.Val2Pieces.lean ====
/- The layer kernel's pipeline number 2: what each case's stores leave, read back, is the body's arithmetic on the
   point's blocks — the accumulator after an even point is the product of the adjacency block and the rounded
   feature block added to zero; after an odd point it is that product added to what the accumulator held; and the
   output block stored at an odd point is the scaled, shifted and clamped combination of the accumulator with the
   degree block and the pre-activation block. Every load and store is of a whole buffer at offset zero. -/
import proofs.«136441_j876173328454_2_alg».proof.Proof.KI.Reg2
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access: both coordinates zero. -/
theorem zero_off : (![0, 0] : Fin 2 → ℕ) = fun _ => 0 := funext fun a => by fin_cases a <;> rfl

/-- After an even point the accumulator holds the block product added to the zero block. -/
theorem sout_A_eq (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : cond_0 i) (hc1 : ¬cond_1 i)
    (x0 : Vec F S1024x4096 .bf16) (x1 : Vec F S4096x32 .f32) (x2 : Vec F S1024x32 .f32) (x3 : Vec F S1024x1 .f32) :
    sout_A c i arg2 harg2 arg3 harg3 arg4 harg4 arg5 harg5 arg6 harg6 arg7 harg7 hc0 hc1 x0 x1 x2 x3 = k2_pay2 x1 (k2_pay1 (F := F)) x0 := by
  unfold sout_A
  rw [View.read_writes_eq_canon _ _ _ (scover_A c i arg2 harg2 arg3 harg3 arg4 harg4 arg5 harg5 arg6 harg6 arg7 harg7 hc0 hc1 x0 x1 x2 x3)]
  unfold kernelRun_A
  dsimp only
  sl_unfold_words
  rw [View.canon_cons_unit_zero zero_off]
  simp only [View.readAt_eq_ld, Memref.IsWhole.read_unread, View.ld_unit_zero (S := S4096x32) zero_off, View.ld_unit_zero (S := S1024x32) zero_off, View.ld_unit_zero (S := S1024x4096) zero_off, View.ld_unit_zero (S := S1024x1) zero_off, View.readCov_unit_zero (S := S1024x32) _ zero_off]

/-- After an odd point the accumulator holds the block product added to what it held. -/
theorem sout_B_eq (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    sout_B c i arg2 harg2 arg3 harg3 arg4 harg4 arg5 harg5 arg6 harg6 arg7 harg7 hc0 hc1 x0 x1 x2 x3 xs = k2_pay2 x1 xs x0 := by
  unfold sout_B
  rw [View.read_writes_eq_canon _ _ _ (scover_B c i arg2 harg2 arg3 harg3 arg4 harg4 arg5 harg5 arg6 harg6 arg7 harg7 hc0 hc1 x0 x1 x2 x3 xs)]
  unfold kernelRun_B
  dsimp only
  sl_unfold_words
  rw [View.canon_unit_zero zero_off]
  simp only [View.readAt_eq_ld, Memref.IsWhole.read_unread, View.ld_unit_zero (S := S4096x32) zero_off, View.ld_unit_zero (S := S1024x32) zero_off, View.ld_unit_zero (S := S1024x4096) zero_off, View.ld_unit_zero (S := S1024x1) zero_off, View.readCov_unit_zero (S := S1024x32) _ zero_off]

/-- At an odd point the output block is the body's last payload of the degree block, the accumulator just updated,
    and the pre-activation block. -/
theorem out_B_4_eq (c : Dev nD) (i : grid2.Coords) (arg2 : Memref sig .tc .vmem S1024x4096 .bf16) (harg2 : arg2.IsWhole) (arg3 : Memref sig .tc .vmem S4096x32 .f32) (harg3 : arg3.IsWhole) (arg4 : Memref sig .tc .vmem S1024x32 .f32) (harg4 : arg4.IsWhole) (arg5 : Memref sig .tc .vmem S1024x1 .f32) (harg5 : arg5.IsWhole) (arg6 : Memref sig .tc .vmem S1024x32 .f32) (harg6 : arg6.IsWhole) (arg7 : Memref sig .tc .vmem S1024x32 .f32) (harg7 : arg7.IsWhole) (hc0 : ¬cond_0 i) (hc1 : cond_1 i)
    (x0 : Vec F S1024x4096 .bf16) (x1 : Vec F S4096x32 .f32) (x2 : Vec F S1024x32 .f32) (x3 : Vec F S1024x1 .f32) (xs : Vec F S1024x32 .f32) :
    out_B_4 c i arg2 harg2 arg3 harg3 arg4 harg4 arg5 harg5 arg6 harg6 arg7 harg7 hc0 hc1 x0 x1 x2 x3 xs = k2_pay3 x3 (k2_pay2 x1 xs x0) x2 := by
  unfold out_B_4
  rw [View.read_writes_eq_canon _ _ _ (cover_B_4 c i arg2 harg2 arg3 harg3 arg4 harg4 arg5 harg5 arg6 harg6 arg7 harg7 hc0 hc1 x0 x1 x2 x3 xs)]
  unfold kernelRun_B
  dsimp only
  sl_unfold_words
  rw [View.canon_unit_zero zero_off]
  simp only [View.readAt_eq_ld, Memref.IsWhole.read_unread, View.ld_unit_zero (S := S4096x32) zero_off, View.ld_unit_zero (S := S1024x32) zero_off, View.ld_unit_zero (S := S1024x4096) zero_off, View.ld_unit_zero (S := S1024x1) zero_off, View.readCov_unit_zero (S := S1024x32) _ zero_off]

end Cert.KernelIdeal.Reg2

end
-- ==== Proof.KI.Val2.lean ====
/- The layer kernel's pipeline number 2 on the extended reals: the array its output window ends holding is one
   function of the four arrays its input windows read. Row block I of the output is written back once, after the
   second of the two points that visit it; the accumulator was zeroed at the first of them, so what is stored is
   the sum of the two half products — the left and right halves of the contracted coordinate — scaled by the
   row's degree factor, plus the squared factor times the pre-activation entry, clipped below at zero. The two
   half sums join into the sum over the whole contracted range by splitting the range at its middle; only
   commutativity and associativity of addition are used. -/
import proofs.«136441_j876173328454_2_alg».proof.Proof.KI.Val2Pieces
import proofs.«136441_j876173328454_2_alg».proof.Proof.KI.Payloads
import proofs.«136441_j876173328454_2_alg».proof.Proof.SpecCore
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What an odd point stores, over the blocks of the two points of its row block (any float instance) -/

section
variable (V : (c : Dev nD) → (b : Ref sig .tc) → Buf (Elt F) ((c : Thread nD τ).loc b))

/-- The point before an odd point. -/
abbrev prev (t : Fin cfg2.N) : Fin cfg2.N := ⟨t.val - 1, Nat.lt_of_le_of_lt (Nat.sub_le _ _) t.isLt⟩

/-- At an odd point the output block is the last payload of the point's degree and pre-activation blocks and of
    the accumulator: the product of the point's blocks added to the product of the previous point's blocks added
    to zero. -/
theorem after_4_odd (c : Dev nD) (t : Fin cfg2.N) (h1 : t.val % 2 = 1) :
    (dat V c).after 4 t
      = k2_pay3 (iblk V c 3 t) (k2_pay2 (iblk V c 1 t) (k2_pay2 (iblk V c 1 (prev t)) (k2_pay1 (F := F)) (iblk V c 0 (prev t))) (iblk V c 0 t)) (iblk V c 2 t) := by
  have h0 : ¬t.val % 2 = 0 := by omega
  have hp : (prev t).val % 2 = 0 := by show (t.val - 1) % 2 = 0; omega
  rw [after_4, outsAt_B V c t h0]
  dsimp only
  rw [out_B_4_eq c (grid2.coords t) (ms_0 t) (hs_0 t) (ms_1 t) (hs_1 t) (ms_2 t) (hs_2 t) (ms_3 t) (hs_3 t) (ms_4 t) (hs_4 t) scM (Memref.isWhole_whole _) (fun h => h0 ((hcond_0 t).mp h)) ((hcond_1 t).mpr (by omega)) (iblk V c 0 t) (iblk V c 1 t) (iblk V c 2 t) (iblk V c 3 t)
    (outsAt V c (t.val - 1) (Nat.lt_of_le_of_lt (Nat.sub_le _ _) t.isLt)).2]
  have e := outsAt_A V c (prev t) hp
  rw [show outsAt V c (t.val - 1) (Nat.lt_of_le_of_lt (Nat.sub_le _ _) t.isLt) = outsAt V c (prev t).val (prev t).isLt from rfl, e]
  dsimp only
  rw [sout_A_eq c (grid2.coords (prev t)) (ms_0 (prev t)) (hs_0 (prev t)) (ms_1 (prev t)) (hs_1 (prev t)) (ms_2 (prev t)) (hs_2 (prev t)) (ms_3 (prev t)) (hs_3 (prev t)) (ms_4 (prev t)) (hs_4 (prev t)) scM (Memref.isWhole_whole _) ((hcond_0 (prev t)).mpr hp) (fun h => (fun h => by omega) ((hcond_1 (prev t)).mp h)) (iblk V c 0 (prev t)) (iblk V c 1 (prev t)) (iblk V c 2 (prev t)) (iblk V c 3 (prev t))]

end

/-! ## On the extended reals -/

section
variable (V : (c : Dev nD) → (b : Ref sig .tc) → Buf (Elt Ideal) ((c : Thread nD τ).loc b))

/-- The stored entry over the six blocks, as sums over the contracted coordinate. -/
theorem point_value (x0e x0o : Vec Ideal S1024x4096 .bf16) (x1e x1o : Vec Ideal S4096x32 .f32)
    (x2 : Vec Ideal S1024x32 .f32) (x3 : Vec Ideal S1024x1 .f32) (r : Fin 1024) (q : Fin 32) :
    k2_pay3 (F := Ideal) x3 (k2_pay2 x1o (k2_pay2 x1e (k2_pay1 (F := Ideal)) x0e) x0o) x2 (ix2 r q)
      = max (x3 (ix2 r (0 : Fin 1)) * ((∑ k : Fin 4096, x0e (ix2 r k) * x1e (ix2 k q)) + ∑ k : Fin 4096, x0o (ix2 r k) * x1o (ix2 k q))
          + (x3 (ix2 r (0 : Fin 1)) * x3 (ix2 r (0 : Fin 1))) * x2 (ix2 r q)) 0 := by
  rw [Pay.k2_pay3_at, Pay.k2_pay2_at, Pay.k2_pay2_at, Pay.k2_pay1_at, zero_add]

/-- A sum over the contracted range is the sum over its left half plus the sum over its right half. -/
theorem sum_halves (f : Fin 8192 → EReal) :
    (∑ K : Fin 8192, f K) = (∑ k : Fin 4096, f ⟨k.val, by omega⟩) + ∑ k : Fin 4096, f ⟨4096 + k.val, by omega⟩ :=
  Fin.sum_univ_add (a := 4096) (b := 4096) f

/-- The printed index maps, decided over the grid: the row block is the outer coordinate, the half of the contracted
    range the inner one. -/
theorem idx_facts : ∀ t : Fin cfg2.N,
    win2_0.index t (0 : Fin 2) = t.val / 2 ∧ win2_0.index t (1 : Fin 2) = t.val % 2
    ∧ win2_1.index t (0 : Fin 2) = t.val % 2 ∧ win2_1.index t (1 : Fin 2) = 0
    ∧ win2_2.index t (0 : Fin 2) = t.val / 2 ∧ win2_2.index t (1 : Fin 2) = 0
    ∧ win2_3.index t (0 : Fin 2) = t.val / 2 ∧ win2_3.index t (1 : Fin 2) = 0
    ∧ win2_4.index t (0 : Fin 2) = t.val / 2 ∧ win2_4.index t (1 : Fin 2) = 0 :=
  (by decide +kernel : ∀ t : Fin grid2.N, _)

end

/-! ## The four input arrays as the region finds them -/

section
variable (V : (c : Dev nD) → (b : Ref sig .tc) → Buf (Elt Ideal) ((c : Thread nD τ).loc b))

/-- The matrix, -/
abbrev arrA (c : Dev nD) : Fin 8192 → Fin 8192 → EReal := fun r k => V c (Pipeline.arrRef spec2 0) (ix2 r k)
/-- the scaled features, -/
abbrev arrHS (c : Dev nD) : Fin 8192 → Fin 32 → EReal := fun k q => V c (Pipeline.arrRef spec2 1) (ix2 k q)
/-- the pre-activation, -/
abbrev arrHpre (c : Dev nD) : Fin 8192 → Fin 32 → EReal := fun r q => V c (Pipeline.arrRef spec2 2) (ix2 r q)
/-- and the degree factor, a column. -/
abbrev arrD (c : Dev nD) : Fin 8192 → EReal := fun r => V c (Pipeline.arrRef spec2 3) (ix2 r (0 : Fin 1))

/-! ## The blocks read where the arrays hold them -/

/-- The matrix block at point `t`: rows from `(t / 2) · 1024`, columns from `(t % 2) · 4096`. -/
theorem iblk_0_at (c : Dev nD) (t : Fin cfg2.N) (r : Fin 1024) (k : Fin 4096) (R K : Fin 8192)
    (hR : R.val = t.val / 2 * 1024 + r.val) (hK : K.val = t.val % 2 * 4096 + k.val) :
    (iblk V c 0 t : Vec Ideal S1024x4096 .bf16) (ix2 r k) = arrA V c R K := by
  obtain ⟨e0, e1, -⟩ := idx_facts t
  unfold iblk
  show V c (Pipeline.arrRef spec2 0) (((cfg2.win 0).blk t).view.emb (ix2 r k)) = V c (Pipeline.arrRef spec2 0) (ix2 R K)
  refine congrArg (V c (Pipeline.arrRef spec2 0)) ?_
  funext a; apply Fin.ext
  match a with
  | ⟨0, _⟩ => show win2_0.index t (0 : Fin 2) * 1024 + 1 * r.val = R.val; rw [e0, hR]; omega
  | ⟨1, _⟩ => show win2_0.index t (1 : Fin 2) * 4096 + 1 * k.val = K.val; rw [e1, hK]; omega

/-- The scaled-feature block at point `t`: rows from `(t % 2) · 4096`. -/
theorem iblk_1_at (c : Dev nD) (t : Fin cfg2.N) (k : Fin 4096) (q : Fin 32) (K : Fin 8192)
    (hK : K.val = t.val % 2 * 4096 + k.val) :
    (iblk V c 1 t : Vec Ideal S4096x32 .f32) (ix2 k q) = arrHS V c K q := by
  obtain ⟨-, -, e0, e1, -⟩ := idx_facts t
  unfold iblk
  show V c (Pipeline.arrRef spec2 1) (((cfg2.win 1).blk t).view.emb (ix2 k q)) = V c (Pipeline.arrRef spec2 1) (ix2 K q)
  refine congrArg (V c (Pipeline.arrRef spec2 1)) ?_
  funext a; apply Fin.ext
  match a with
  | ⟨0, _⟩ => show win2_1.index t (0 : Fin 2) * 4096 + 1 * k.val = K.val; rw [e0, hK]; omega
  | ⟨1, _⟩ => show win2_1.index t (1 : Fin 2) * 32 + 1 * q.val = q.val; rw [e1]; omega

/-- The pre-activation block at point `t`: rows from `(t / 2) · 1024`. -/
theorem iblk_2_at (c : Dev nD) (t : Fin cfg2.N) (r : Fin 1024) (q : Fin 32) (R : Fin 8192)
    (hR : R.val = t.val / 2 * 1024 + r.val) :
    (iblk V c 2 t : Vec Ideal S1024x32 .f32) (ix2 r q) = arrHpre V c R q := by
  obtain ⟨-, -, -, -, e0, e1, -⟩ := idx_facts t
  unfold iblk
  show V c (Pipeline.arrRef spec2 2) (((cfg2.win 2).blk t).view.emb (ix2 r q)) = V c (Pipeline.arrRef spec2 2) (ix2 R q)
  refine congrArg (V c (Pipeline.arrRef spec2 2)) ?_
  funext a; apply Fin.ext
  match a with
  | ⟨0, _⟩ => show win2_2.index t (0 : Fin 2) * 1024 + 1 * r.val = R.val; rw [e0, hR]; omega
  | ⟨1, _⟩ => show win2_2.index t (1 : Fin 2) * 32 + 1 * q.val = q.val; rw [e1]; omega

/-- The degree-factor block at point `t`: rows from `(t / 2) · 1024`, its one column. -/
theorem iblk_3_at (c : Dev nD) (t : Fin cfg2.N) (r : Fin 1024) (R : Fin 8192)
    (hR : R.val = t.val / 2 * 1024 + r.val) :
    (iblk V c 3 t : Vec Ideal S1024x1 .f32) (ix2 r (0 : Fin 1)) = arrD V c R := by
  obtain ⟨-, -, -, -, -, -, e0, e1, -⟩ := idx_facts t
  unfold iblk
  show V c (Pipeline.arrRef spec2 3) (((cfg2.win 3).blk t).view.emb (ix2 r (0 : Fin 1))) = V c (Pipeline.arrRef spec2 3) (ix2 R (0 : Fin 1))
  refine congrArg (V c (Pipeline.arrRef spec2 3)) ?_
  funext a; apply Fin.ext
  match a with
  | ⟨0, _⟩ => show win2_3.index t (0 : Fin 2) * 1024 + 1 * r.val = R.val; rw [e0, hR]; omega
  | ⟨1, _⟩ => show win2_3.index t (1 : Fin 2) * 1 + 1 * (0 : Fin 1).val = (0 : Fin 1).val; rw [e1]; rfl

/-- The output block's entry `(r, q)` at point `t` is the array's entry `((t / 2) · 1024 + r, q)`. -/
theorem emb_4 (t : Fin cfg2.N) (r : Fin 1024) (q : Fin 32) (R : Fin 8192) (hR : R.val = t.val / 2 * 1024 + r.val) :
    ((cfg2.win 4).blk t).view.emb (ix2 r q) = ix2 R q := by
  obtain ⟨-, -, -, -, -, -, -, -, e0, e1⟩ := idx_facts t
  funext a; apply Fin.ext
  match a with
  | ⟨0, _⟩ => show win2_4.index t (0 : Fin 2) * 1024 + 1 * r.val = R.val; rw [e0, hR]; omega
  | ⟨1, _⟩ => show win2_4.index t (1 : Fin 2) * 32 + 1 * q.val = q.val; rw [e1]; omega

end

/-! ## The two half products join -/

/-- Over six blocks that read four arrays `a`, `hs`, `hpre`, `d` at row `R` — the even point's blocks the left half
    of the contracted range, the odd point's the right half —, the stored entry is the layer's entry `(R, q)`. -/
theorem joined (x0e x0o : Vec Ideal S1024x4096 .bf16) (x1e x1o : Vec Ideal S4096x32 .f32)
    (x2 : Vec Ideal S1024x32 .f32) (x3 : Vec Ideal S1024x1 .f32)
    (a : Fin 8192 → Fin 8192 → EReal) (hs hpre : Fin 8192 → Fin 32 → EReal) (d : Fin 8192 → EReal)
    (r : Fin 1024) (q : Fin 32) (R : Fin 8192)
    (h0e : ∀ k : Fin 4096, x0e (ix2 r k) = a R ⟨k.val, by omega⟩) (h1e : ∀ k : Fin 4096, x1e (ix2 k q) = hs ⟨k.val, by omega⟩ q)
    (h0o : ∀ k : Fin 4096, x0o (ix2 r k) = a R ⟨4096 + k.val, by omega⟩) (h1o : ∀ k : Fin 4096, x1o (ix2 k q) = hs ⟨4096 + k.val, by omega⟩ q)
    (h2 : x2 (ix2 r q) = hpre R q) (h3 : x3 (ix2 r (0 : Fin 1)) = d R) :
    max (x3 (ix2 r (0 : Fin 1)) * ((∑ k : Fin 4096, x0e (ix2 r k) * x1e (ix2 k q)) + ∑ k : Fin 4096, x0o (ix2 r k) * x1o (ix2 k q))
          + (x3 (ix2 r (0 : Fin 1)) * x3 (ix2 r (0 : Fin 1))) * x2 (ix2 r q)) 0
      = Cert.Spec.layerCore a hs hpre d R q := by
  unfold Cert.Spec.layerCore
  rw [h2, h3, sum_halves (fun K => a R K * hs K q)]
  simp only [h0e, h1e, h0o, h1o]

/-! ## The output array -/

section
variable (V : (c : Dev nD) → (b : Ref sig .tc) → Buf (Elt Ideal) ((c : Thread nD τ).loc b))

/-- What the output window's array ends holding: the layer of its four input arrays, entry by entry. -/
abbrev G (c : Dev nD) : S8192x32.Idx → EReal := fun i =>
  Cert.Spec.layerCore (arrA V c) (arrHS V c) (arrHpre V c) (arrD V c) (i 0) (i 1)

/-- What an odd point writes back is its block of `G`. -/
theorem flushed_eq (c : Dev nD) (t : Fin cfg2.N) (hf : (cfg2.win 4).flush t = true) :
    (dat V c).flushed 4 t = ((cfg2.win 4).blk t).view.read (Elt Ideal) (G V c) := by
  have h1 : t.val % 2 = 1 := (flush2_4 t).mp hf
  have hN : t.val < 16 := lt_of_lt_of_eq t.isLt (show cfg2.N = 16 from N_2)
  show (cfg2.win 4).cut (grid2.coords t) ((dat V c).after 4 t) = _
  rw [after_4_odd V c t h1]
  funext j
  obtain ⟨r, q, rfl⟩ : ∃ (r : Fin 1024) (q : Fin 32), j = ix2 r q := ⟨j 0, j 1, eq_ix2 j⟩
  have hr : r.val < 1024 := r.isLt
  obtain ⟨R, hR⟩ : ∃ R : Fin 8192, R.val = t.val / 2 * 1024 + r.val := ⟨⟨t.val / 2 * 1024 + r.val, by omega⟩, rfl⟩
  have hRp : R.val = (prev t).val / 2 * 1024 + r.val := by show R.val = (t.val - 1) / 2 * 1024 + r.val; omega
  show k2_pay3 (F := Ideal) (iblk V c 3 t) (k2_pay2 (iblk V c 1 t) (k2_pay2 (iblk V c 1 (prev t)) (k2_pay1 (F := Ideal)) (iblk V c 0 (prev t))) (iblk V c 0 t)) (iblk V c 2 t) (ix2 r q)
    = G V c (((cfg2.win 4).blk t).view.emb (ix2 r q))
  rw [emb_4 t r q R hR]
  refine (point_value (iblk V c 0 (prev t)) (iblk V c 0 t) (iblk V c 1 (prev t)) (iblk V c 1 t) (iblk V c 2 t) (iblk V c 3 t) r q).trans ?_
  exact joined (iblk V c 0 (prev t)) (iblk V c 0 t) (iblk V c 1 (prev t)) (iblk V c 1 t) (iblk V c 2 t) (iblk V c 3 t)
    (arrA V c) (arrHS V c) (arrHpre V c) (arrD V c) r q R
    (fun k => iblk_0_at V c (prev t) r k R ⟨k.val, by omega⟩ hRp (by show k.val = (t.val - 1) % 2 * 4096 + k.val; omega))
    (fun k => iblk_1_at V c (prev t) k q ⟨k.val, by omega⟩ (by show k.val = (t.val - 1) % 2 * 4096 + k.val; omega))
    (fun k => iblk_0_at V c t r k R ⟨4096 + k.val, by omega⟩ hR (by show 4096 + k.val = t.val % 2 * 4096 + k.val; omega))
    (fun k => iblk_1_at V c t k q ⟨4096 + k.val, by omega⟩ (by show 4096 + k.val = t.val % 2 * 4096 + k.val; omega))
    (iblk_2_at V c t r q R hR) (iblk_3_at V c t r R hR)

/-- An index of the output array is in point `t`'s block iff each coordinate is in the block's range on its axis. -/
theorem mem_blk (t : Fin cfg2.N) (i : S8192x32.Idx) :
    i ∈ ((cfg2.win 4).blk t).view.set ↔ ∀ a : Fin 2, win2_4.index t a * S1024x32.size a ≤ (i a).val ∧ (i a).val < win2_4.index t a * S1024x32.size a + S1024x32.size a := by
  show i ∈ ((View.whole main_v14).slice (win2_4.rect t)).set ↔ _
  rw [View.set_slice_whole, Rect.mem_set_unit]
  exact Iff.rfl

/-- Row `R` of the output is written back at the odd point `2 · (R / 1024) + 1`. -/
theorem cover (i : S8192x32.Idx) :
    ∃ t : Fin cfg2.N, (cfg2.win 4).flush t = true ∧ i ∈ ((cfg2.win 4).blk t).view.set := by
  have hi0 : (i 0).val < 8192 := (i 0).isLt
  have hi1 : (i 1).val < 32 := (i 1).isLt
  obtain ⟨t, ht⟩ : ∃ t : Fin cfg2.N, t.val = 2 * ((i 0).val / 1024) + 1 :=
    ⟨⟨2 * ((i 0).val / 1024) + 1, by rw [show cfg2.N = 16 from N_2]; omega⟩, rfl⟩
  obtain ⟨-, -, -, -, -, -, -, -, e0, e1⟩ := idx_facts t
  refine ⟨t, (flush2_4 t).mpr (by omega), ?_⟩
  rw [mem_blk]
  intro a
  match a with
  | ⟨0, _⟩ => show win2_4.index t (0 : Fin 2) * 1024 ≤ (i 0).val ∧ (i 0).val < win2_4.index t (0 : Fin 2) * 1024 + 1024; rw [e0]; omega
  | ⟨1, _⟩ => show win2_4.index t (1 : Fin 2) * 32 ≤ (i 1).val ∧ (i 1).val < win2_4.index t (1 : Fin 2) * 32 + 32; rw [e1]; omega

/-- THE OUTPUT ARRAY after the region: the layer of the four input arrays as the region finds them. -/
theorem final_out (c : Dev nD) :
    (dat V c).arrAt 4 cfg2.N = fun i => Cert.Spec.layerCore (fun r k => V c (Pipeline.arrRef spec2 0) (ix2 r k)) (fun k q => V c (Pipeline.arrRef spec2 1) (ix2 k q))
      (fun r q => V c (Pipeline.arrRef spec2 2) (ix2 r q)) (fun r => V c (Pipeline.arrRef spec2 3) (ix2 r (0 : Fin 1))) (i 0) (i 1) :=
  (dat V c).arrAt_eq_of_cover 4 (G V c) (fun t hf => flushed_eq V c t hf) cover

end

end Cert.KernelIdeal.Reg2

end
-- ==== Proof.KI.Value.lean ====
/-
  The kernel program's result is the blocked arrangement's logits.

  The program is three pipelined regions, each followed by a stretch of host operations. Following the buffers'
  contents from one boundary to the next: region 0 leaves the degree scaling and a copy of the matrix; the first
  stretch forms the first linear map and its row-scaled copy; region 1 turns the four arrays into the first layer;
  the second stretch and region 2 do the same for the second layer; the last stretch reads the logits out. A buffer
  a stage does not write keeps its contents, so the arguments, the degree scaling and the copy of the matrix reach
  every later stage as they were.
-/
import proofs.«136441_j876173328454_2_alg».proof.Proof.KI.Whole
import proofs.«136441_j876173328454_2_alg».proof.Proof.KI.HostGlue
import proofs.«136441_j876173328454_2_alg».proof.Proof.KI.Val0Final
import proofs.«136441_j876173328454_2_alg».proof.Proof.KI.Val1
import proofs.«136441_j876173328454_2_alg».proof.Proof.KI.Val2
import proofs.«136441_j876173328454_2_alg».proof.Proof.SpecCore

set_option maxRecDepth 16384

noncomputable section

namespace Cert.KernelIdeal.ValueChain

open Cert.KernelIdeal Cert.KernelIdeal.Gen Cert.KernelIdeal.Whole Cert.KernelIdeal.Glue
open Idealize.ShloMosaic Idealize.ShloMosaic.TcCoe Idealize.ShloMosaic.ValueIdx Idealize.SL.Sem

/-- The contents of every buffer of a core, as the regions' proof data take them. -/
abbrev Contents : Type := (c : Dev nD) → (b : Ref sig .tc) → Buf (Elt Ideal) ((c : Thread nD τ).loc b)

/-- Region 0 leaves the degree scaling in its second array. -/
abbrev DegFact : Prop := ∀ (V : Contents) (c : Dev nD),
  ((Reg0.dat V c).arrAt 1 cfg0.N : S8192x1.Idx → EReal)
    = fun i => Cert.Spec.dK (fun r k => (V c main_arg1 : S8192x8192.Idx → EReal) (ix2 r k)) (i 0)
/-- Region 0 leaves the matrix in its third array. -/
abbrev CopyFact : Prop := ∀ (V : Contents) (c : Dev nD),
  ((Reg0.dat V c).arrAt 2 cfg0.N : S8192x8192.Idx → EReal) = (V c main_arg1 : S8192x8192.Idx → EReal)
/-- Region 1 leaves one layer's result in its last array. -/
abbrev Layer1Fact : Prop := ∀ (V : Contents) (c : Dev nD),
  ((Reg1.dat V c).arrAt 4 cfg1.N : S8192x32.Idx → EReal)
    = fun i => Cert.Spec.layerCore (fun r k => (V c main_v0_1 : S8192x8192.Idx → EReal) (ix2 r k))
        (fun k q => (V c main_v6 : S8192x32.Idx → EReal) (ix2 k q)) (fun r q => (V c main_v4 : S8192x32.Idx → EReal) (ix2 r q))
        (fun r => (V c main_v0_0 : S8192x1.Idx → EReal) (ix2 r (0 : Fin 1))) (i 0) (i 1)
/-- Region 2 leaves one layer's result in its last array. -/
abbrev Layer2Fact : Prop := ∀ (V : Contents) (c : Dev nD),
  ((Reg2.dat V c).arrAt 4 cfg2.N : S8192x32.Idx → EReal)
    = fun i => Cert.Spec.layerCore (fun r k => (V c main_v0_1 : S8192x8192.Idx → EReal) (ix2 r k))
        (fun k q => (V c main_v13 : S8192x32.Idx → EReal) (ix2 k q)) (fun r q => (V c main_v11 : S8192x32.Idx → EReal) (ix2 r q))
        (fun r => (V c main_v0_0 : S8192x1.Idx → EReal) (ix2 r (0 : Fin 1))) (i 0) (i 1)

variable (m : (ℓ : Loc nD τ sig) → Buf (Elt Ideal) ℓ) (ρ : Dev nD → PrngReg) (c : Dev nD)

/-! ## The argument arrays, curried, and the network's intermediate arrays -/

abbrev X0 : Fin 8192 → Fin 128 → EReal := fun r k => (m ((c : Thread nD τ).loc main_arg0) : S8192x128.Idx → EReal) (ix2 r k)
abbrev A1 : Fin 8192 → Fin 8192 → EReal := fun r k => (m ((c : Thread nD τ).loc main_arg1) : S8192x8192.Idx → EReal) (ix2 r k)
abbrev Wt1 : Fin 128 → Fin 32 → EReal := fun r k => (m ((c : Thread nD τ).loc main_arg2) : S128x32.Idx → EReal) (ix2 r k)
abbrev Bs1 : Fin 32 → EReal := fun k => (m ((c : Thread nD τ).loc main_arg3) : S32.Idx → EReal) (ix1 k)
abbrev Wt2 : Fin 32 → Fin 32 → EReal := fun r k => (m ((c : Thread nD τ).loc main_arg4) : S32x32.Idx → EReal) (ix2 r k)
abbrev Bs2 : Fin 32 → EReal := fun k => (m ((c : Thread nD τ).loc main_arg5) : S32.Idx → EReal) (ix1 k)
abbrev Wt3 : Fin 32 → Fin 1 → EReal := fun r k => (m ((c : Thread nD τ).loc main_arg6) : S32x1.Idx → EReal) (ix2 r k)
abbrev Bs3 : Fin 1 → EReal := fun k => (m ((c : Thread nD τ).loc main_arg7) : S1.Idx → EReal) (ix1 k)
/-- The first linear map. -/
abbrev P1 : Fin 8192 → Fin 32 → EReal := Cert.Spec.lin (X0 m c) (Wt1 m c) (Bs1 m c)
/-- The first layer. -/
abbrev H1 : Fin 8192 → Fin 32 → EReal := Cert.Spec.layerK (A1 m c) (Cert.Spec.dK (A1 m c)) (P1 m c)
/-- The second linear map. -/
abbrev P2 : Fin 8192 → Fin 32 → EReal := Cert.Spec.lin (H1 m c) (Wt2 m c) (Bs2 m c)
/-- The second layer. -/
abbrev H2 : Fin 8192 → Fin 32 → EReal := Cert.Spec.layerK (A1 m c) (Cert.Spec.dK (A1 m c)) (P2 m c)

/-! ## After region 0 -/
theorem W1_main_arg0 : W1 m ρ c (Proc.devRef .tc main_arg0) = m ((c : Thread nD τ).loc main_arg0) :=
  (W1_of_ne m ρ c main_arg0 (by decide)).trans rfl
theorem W1_main_arg2 : W1 m ρ c (Proc.devRef .tc main_arg2) = m ((c : Thread nD τ).loc main_arg2) :=
  (W1_of_ne m ρ c main_arg2 (by decide)).trans rfl
theorem W1_main_arg3 : W1 m ρ c (Proc.devRef .tc main_arg3) = m ((c : Thread nD τ).loc main_arg3) :=
  (W1_of_ne m ρ c main_arg3 (by decide)).trans rfl
theorem W1_main_arg4 : W1 m ρ c (Proc.devRef .tc main_arg4) = m ((c : Thread nD τ).loc main_arg4) :=
  (W1_of_ne m ρ c main_arg4 (by decide)).trans rfl
theorem W1_main_arg5 : W1 m ρ c (Proc.devRef .tc main_arg5) = m ((c : Thread nD τ).loc main_arg5) :=
  (W1_of_ne m ρ c main_arg5 (by decide)).trans rfl
theorem W1_main_arg6 : W1 m ρ c (Proc.devRef .tc main_arg6) = m ((c : Thread nD τ).loc main_arg6) :=
  (W1_of_ne m ρ c main_arg6 (by decide)).trans rfl
theorem W1_main_arg7 : W1 m ρ c (Proc.devRef .tc main_arg7) = m ((c : Thread nD τ).loc main_arg7) :=
  (W1_of_ne m ρ c main_arg7 (by decide)).trans rfl
/-- The matrix is region 0's input array: never written. -/
theorem W1_main_arg1 : W1 m ρ c (Proc.devRef .tc main_arg1) = m ((c : Thread nD τ).loc main_arg1) :=
  (W1_arr m ρ c 0).trans (((Reg0.dat (E0 m ρ) c).arrAt_in 0 rfl _).trans ((Reg0.A_eq (E0 m ρ) c 0).trans rfl))
/-- The degree scaling. -/
theorem W1_deg (hdeg : DegFact) : (W1 m ρ c (Proc.devRef .tc main_v0_0) : S8192x1.Idx → EReal) = fun i => Cert.Spec.dK (A1 m c) (i 0) :=
  (W1_arr m ρ c 1).trans (hdeg (E0 m ρ) c)
/-- The copy of the matrix. -/
theorem W1_copy (hcopy : CopyFact) : (W1 m ρ c (Proc.devRef .tc main_v0_1) : S8192x8192.Idx → EReal) = (m ((c : Thread nD τ).loc main_arg1) : S8192x8192.Idx → EReal) :=
  (W1_arr m ρ c 2).trans (hcopy (E0 m ρ) c)

/-! ## After the first host stretch -/

/-- A buffer the stretch does not write. -/
theorem W2_keep (b : Ref sig .tc) (h : b ∉ hostOps1_W) : W2 m ρ c (Proc.devRef .tc b) = W1 m ρ c (Proc.devRef .tc b) :=
  StableHlo.after_of_writes_sub hostOps1 _ hostOps1_writes h
theorem W2_deg (hdeg : DegFact) : (W2 m ρ c (Proc.devRef .tc main_v0_0) : S8192x1.Idx → EReal) = fun i => Cert.Spec.dK (A1 m c) (i 0) :=
  (W2_keep m ρ c main_v0_0 (by decide)).trans (W1_deg m ρ c hdeg)
theorem W2_copy (hcopy : CopyFact) : (W2 m ρ c (Proc.devRef .tc main_v0_1) : S8192x8192.Idx → EReal) = (m ((c : Thread nD τ).loc main_arg1) : S8192x8192.Idx → EReal) :=
  (W2_keep m ρ c main_v0_1 (by decide)).trans (W1_copy m ρ c hcopy)
theorem W2_main_arg4 : W2 m ρ c (Proc.devRef .tc main_arg4) = m ((c : Thread nD τ).loc main_arg4) :=
  (W2_keep m ρ c main_arg4 (by decide)).trans (W1_main_arg4 m ρ c)
theorem W2_main_arg5 : W2 m ρ c (Proc.devRef .tc main_arg5) = m ((c : Thread nD τ).loc main_arg5) :=
  (W2_keep m ρ c main_arg5 (by decide)).trans (W1_main_arg5 m ρ c)
theorem W2_main_arg6 : W2 m ρ c (Proc.devRef .tc main_arg6) = m ((c : Thread nD τ).loc main_arg6) :=
  (W2_keep m ρ c main_arg6 (by decide)).trans (W1_main_arg6 m ρ c)
theorem W2_main_arg7 : W2 m ρ c (Proc.devRef .tc main_arg7) = m ((c : Thread nD τ).loc main_arg7) :=
  (W2_keep m ρ c main_arg7 (by decide)).trans (W1_main_arg7 m ρ c)
/-- The first linear map's array. -/
theorem W2_v4 : (W2 m ρ c (Proc.devRef .tc main_v4) : S8192x32.Idx → EReal) = fun i => P1 m c (i 0) (i 1) := by
  funext i
  obtain ⟨r, q, rfl⟩ : ∃ (r : Fin 8192) (q : Fin 32), i = ix2 r q := ⟨i 0, i 1, eq_ix2 i⟩
  refine (hostOps1_lin (W1 m ρ c) r q).trans ?_
  rw [W1_main_arg0, W1_main_arg2, W1_main_arg3]
  rfl
/-- Its copy scaled row by row. -/
theorem W2_v6 (hdeg : DegFact) :
    (W2 m ρ c (Proc.devRef .tc main_v6) : S8192x32.Idx → EReal) = fun i => Cert.Spec.dK (A1 m c) (i 0) * P1 m c (i 0) (i 1) := by
  funext i
  obtain ⟨r, q, rfl⟩ : ∃ (r : Fin 8192) (q : Fin 32), i = ix2 r q := ⟨i 0, i 1, eq_ix2 i⟩
  refine (hostOps1_scaled (W1 m ρ c) r q).trans ?_
  rw [W1_deg m ρ c hdeg, W1_main_arg0, W1_main_arg2, W1_main_arg3]
  rfl

/-! ## After region 1 -/

/-- A buffer that is none of the region's arrays. -/
theorem W3_keep (b : Ref sig .tc) (hb : ∀ w, Pipeline.arrRef spec1 w ≠ b) :
    W3 m ρ c (Proc.devRef .tc b) = W2 m ρ c (Proc.devRef .tc b) := W3_of_ne m ρ c b hb
/-- An input array of the region is never written. -/
theorem W3_deg (hdeg : DegFact) : (W3 m ρ c (Proc.devRef .tc main_v0_0) : S8192x1.Idx → EReal) = fun i => Cert.Spec.dK (A1 m c) (i 0) :=
  ((W3_arr m ρ c 3).trans (((Reg1.dat (E2 m ρ) c).arrAt_in 3 rfl _).trans ((Reg1.A_eq (E2 m ρ) c 3).trans rfl))).trans
    (W2_deg m ρ c hdeg)
theorem W3_copy (hcopy : CopyFact) : (W3 m ρ c (Proc.devRef .tc main_v0_1) : S8192x8192.Idx → EReal) = (m ((c : Thread nD τ).loc main_arg1) : S8192x8192.Idx → EReal) :=
  ((W3_arr m ρ c 0).trans (((Reg1.dat (E2 m ρ) c).arrAt_in 0 rfl _).trans ((Reg1.A_eq (E2 m ρ) c 0).trans rfl))).trans
    (W2_copy m ρ c hcopy)
theorem W3_main_arg4 : W3 m ρ c (Proc.devRef .tc main_arg4) = m ((c : Thread nD τ).loc main_arg4) :=
  (W3_keep m ρ c main_arg4 (by decide)).trans (W2_main_arg4 m ρ c)
theorem W3_main_arg5 : W3 m ρ c (Proc.devRef .tc main_arg5) = m ((c : Thread nD τ).loc main_arg5) :=
  (W3_keep m ρ c main_arg5 (by decide)).trans (W2_main_arg5 m ρ c)
theorem W3_main_arg6 : W3 m ρ c (Proc.devRef .tc main_arg6) = m ((c : Thread nD τ).loc main_arg6) :=
  (W3_keep m ρ c main_arg6 (by decide)).trans (W2_main_arg6 m ρ c)
theorem W3_main_arg7 : W3 m ρ c (Proc.devRef .tc main_arg7) = m ((c : Thread nD τ).loc main_arg7) :=
  (W3_keep m ρ c main_arg7 (by decide)).trans (W2_main_arg7 m ρ c)
/-- The first layer's array. -/
theorem W3_v7 (hdeg : DegFact) (hcopy : CopyFact) (h1 : Layer1Fact) :
    (W3 m ρ c (Proc.devRef .tc main_v7) : S8192x32.Idx → EReal) = fun i => H1 m c (i 0) (i 1) := by
  refine ((W3_arr m ρ c 4).trans (h1 (E2 m ρ) c)).trans ?_
  show (fun i : S8192x32.Idx => Cert.Spec.layerCore (fun r k => (W2 m ρ c (Proc.devRef .tc main_v0_1) : S8192x8192.Idx → EReal) (ix2 r k))
      (fun k q => (W2 m ρ c (Proc.devRef .tc main_v6) : S8192x32.Idx → EReal) (ix2 k q)) (fun r q => (W2 m ρ c (Proc.devRef .tc main_v4) : S8192x32.Idx → EReal) (ix2 r q))
      (fun r => (W2 m ρ c (Proc.devRef .tc main_v0_0) : S8192x1.Idx → EReal) (ix2 r (0 : Fin 1))) (i 0) (i 1)) = _
  rw [W2_copy m ρ c hcopy, W2_v6 m ρ c hdeg, W2_v4 m ρ c, W2_deg m ρ c hdeg]
  rfl

/-! ## After the second host stretch -/

theorem W4_keep (b : Ref sig .tc) (h : b ∉ hostOps2_W) : W4 m ρ c (Proc.devRef .tc b) = W3 m ρ c (Proc.devRef .tc b) :=
  StableHlo.after_of_writes_sub hostOps2 _ hostOps2_writes h
theorem W4_deg (hdeg : DegFact) : (W4 m ρ c (Proc.devRef .tc main_v0_0) : S8192x1.Idx → EReal) = fun i => Cert.Spec.dK (A1 m c) (i 0) :=
  (W4_keep m ρ c main_v0_0 (by decide)).trans (W3_deg m ρ c hdeg)
theorem W4_copy (hcopy : CopyFact) : (W4 m ρ c (Proc.devRef .tc main_v0_1) : S8192x8192.Idx → EReal) = (m ((c : Thread nD τ).loc main_arg1) : S8192x8192.Idx → EReal) :=
  (W4_keep m ρ c main_v0_1 (by decide)).trans (W3_copy m ρ c hcopy)
theorem W4_main_arg6 : W4 m ρ c (Proc.devRef .tc main_arg6) = m ((c : Thread nD τ).loc main_arg6) :=
  (W4_keep m ρ c main_arg6 (by decide)).trans (W3_main_arg6 m ρ c)
theorem W4_main_arg7 : W4 m ρ c (Proc.devRef .tc main_arg7) = m ((c : Thread nD τ).loc main_arg7) :=
  (W4_keep m ρ c main_arg7 (by decide)).trans (W3_main_arg7 m ρ c)
/-- The second linear map's array. -/
theorem W4_v11 (hdeg : DegFact) (hcopy : CopyFact) (h1 : Layer1Fact) :
    (W4 m ρ c (Proc.devRef .tc main_v11) : S8192x32.Idx → EReal) = fun i => P2 m c (i 0) (i 1) := by
  funext i
  obtain ⟨r, q, rfl⟩ : ∃ (r : Fin 8192) (q : Fin 32), i = ix2 r q := ⟨i 0, i 1, eq_ix2 i⟩
  refine (hostOps2_lin (W3 m ρ c) r q).trans ?_
  rw [W3_v7 m ρ c hdeg hcopy h1, W3_main_arg4, W3_main_arg5]
  rfl
/-- Its copy scaled row by row. -/
theorem W4_v13 (hdeg : DegFact) (hcopy : CopyFact) (h1 : Layer1Fact) :
    (W4 m ρ c (Proc.devRef .tc main_v13) : S8192x32.Idx → EReal) = fun i => Cert.Spec.dK (A1 m c) (i 0) * P2 m c (i 0) (i 1) := by
  funext i
  obtain ⟨r, q, rfl⟩ : ∃ (r : Fin 8192) (q : Fin 32), i = ix2 r q := ⟨i 0, i 1, eq_ix2 i⟩
  refine (hostOps2_scaled (W3 m ρ c) r q).trans ?_
  rw [W3_deg m ρ c hdeg, W3_v7 m ρ c hdeg hcopy h1, W3_main_arg4, W3_main_arg5]
  rfl

/-! ## After region 2 -/

theorem W5_keep (b : Ref sig .tc) (hb : ∀ w, Pipeline.arrRef spec2 w ≠ b) :
    W5 m ρ c (Proc.devRef .tc b) = W4 m ρ c (Proc.devRef .tc b) := W5_of_ne m ρ c b hb
theorem W5_main_arg6 : W5 m ρ c (Proc.devRef .tc main_arg6) = m ((c : Thread nD τ).loc main_arg6) :=
  (W5_keep m ρ c main_arg6 (by decide)).trans (W4_main_arg6 m ρ c)
theorem W5_main_arg7 : W5 m ρ c (Proc.devRef .tc main_arg7) = m ((c : Thread nD τ).loc main_arg7) :=
  (W5_keep m ρ c main_arg7 (by decide)).trans (W4_main_arg7 m ρ c)
/-- The second layer's array. -/
theorem W5_v14 (hdeg : DegFact) (hcopy : CopyFact) (h1 : Layer1Fact) (h2 : Layer2Fact) :
    (W5 m ρ c (Proc.devRef .tc main_v14) : S8192x32.Idx → EReal) = fun i => H2 m c (i 0) (i 1) := by
  refine ((W5_arr m ρ c 4).trans (h2 (E4 m ρ) c)).trans ?_
  show (fun i : S8192x32.Idx => Cert.Spec.layerCore (fun r k => (W4 m ρ c (Proc.devRef .tc main_v0_1) : S8192x8192.Idx → EReal) (ix2 r k))
      (fun k q => (W4 m ρ c (Proc.devRef .tc main_v13) : S8192x32.Idx → EReal) (ix2 k q)) (fun r q => (W4 m ρ c (Proc.devRef .tc main_v11) : S8192x32.Idx → EReal) (ix2 r q))
      (fun r => (W4 m ρ c (Proc.devRef .tc main_v0_0) : S8192x1.Idx → EReal) (ix2 r (0 : Fin 1))) (i 0) (i 1)) = _
  rw [W4_copy m ρ c hcopy, W4_v13 m ρ c hdeg hcopy h1, W4_v11 m ρ c hdeg hcopy h1, W4_deg m ρ c hdeg]
  rfl

/-! ## The end: the program's result is the blocked arrangement's logits -/

theorem kernel_value_of (hdeg : DegFact) (hcopy : CopyFact) (h1 : Layer1Fact) (h2 : Layer2Fact) :
    (W6 m ρ c (Proc.devRef .tc main_v19) : S8192.Idx → EReal)
      = fun i => Cert.Spec.logitsK (fun r k => (m ((c : Thread nD τ).loc main_arg0) : S8192x128.Idx → EReal) (ix2 r k))
          (fun r k => (m ((c : Thread nD τ).loc main_arg1) : S8192x8192.Idx → EReal) (ix2 r k)) (fun r k => (m ((c : Thread nD τ).loc main_arg2) : S128x32.Idx → EReal) (ix2 r k))
          (fun k => (m ((c : Thread nD τ).loc main_arg3) : S32.Idx → EReal) (ix1 k)) (fun r k => (m ((c : Thread nD τ).loc main_arg4) : S32x32.Idx → EReal) (ix2 r k))
          (fun k => (m ((c : Thread nD τ).loc main_arg5) : S32.Idx → EReal) (ix1 k)) (fun r k => (m ((c : Thread nD τ).loc main_arg6) : S32x1.Idx → EReal) (ix2 r k))
          (fun k => (m ((c : Thread nD τ).loc main_arg7) : S1.Idx → EReal) (ix1 k)) (i 0) := by
  funext i
  obtain ⟨r, rfl⟩ : ∃ r : Fin 8192, i = ix1 r := ⟨i 0, eq_ix1 i⟩
  refine (hostOps3_logits (W5 m ρ c) r).trans ?_
  rw [W5_v14 m ρ c hdeg hcopy h1 h2, W5_main_arg6, W5_main_arg7]
  rfl

end Cert.KernelIdeal.ValueChain

namespace Cert.KernelIdeal.Whole

open Cert.KernelIdeal Cert.KernelIdeal.Gen
open Idealize.ShloMosaic Idealize.ShloMosaic.TcCoe Idealize.ShloMosaic.ValueIdx Idealize.SL.Sem

/-- Every execution's result buffer, as a function of the launch memory: the blocked arrangement's logits of the eight
    argument arrays. -/
theorem kernel_value (m : (ℓ : Loc nD τ sig) → Buf (Elt Ideal) ℓ) (ρ : Dev nD → PrngReg) (c : Dev nD) :
    (W6 m ρ c (Proc.devRef .tc main_v19) : S8192.Idx → EReal)
      = fun i => Cert.Spec.logitsK (fun r k => (m ((c : Thread nD τ).loc main_arg0) : S8192x128.Idx → EReal) (ix2 r k))
          (fun r k => (m ((c : Thread nD τ).loc main_arg1) : S8192x8192.Idx → EReal) (ix2 r k)) (fun r k => (m ((c : Thread nD τ).loc main_arg2) : S128x32.Idx → EReal) (ix2 r k))
          (fun k => (m ((c : Thread nD τ).loc main_arg3) : S32.Idx → EReal) (ix1 k)) (fun r k => (m ((c : Thread nD τ).loc main_arg4) : S32x32.Idx → EReal) (ix2 r k))
          (fun k => (m ((c : Thread nD τ).loc main_arg5) : S32.Idx → EReal) (ix1 k)) (fun r k => (m ((c : Thread nD τ).loc main_arg6) : S32x1.Idx → EReal) (ix2 r k))
          (fun k => (m ((c : Thread nD τ).loc main_arg7) : S1.Idx → EReal) (ix1 k)) (i 0) :=
  ValueChain.kernel_value_of m ρ c (fun V c => Reg0.final_deg V c) (fun V c => Reg0.final_copy V c)
    (fun V c => Reg1.final_out V c) (fun V c => Reg2.final_out V c)

end Cert.KernelIdeal.Whole

end
-- ==== Proof.RefStage.lean ====
/-
  The reference program computes the plain arrangement of the graph-convolution network.

  Read one operation at a time, at an index built from its coordinates: the identity matrix is a comparison of the
  row number with the column number converted to a float; the matrix with self loops is the sum; its row sums,
  clipped below at one and raised to the power `-1/2`, are the degree scaling; the normalised matrix is the product
  row scaling · entry · column scaling; each layer is a matrix product (a sum over the contracted coordinate), a
  bias broadcast along the rows, and a maximum with zero; the last stage drops the unit axis of an `8192 × 1` array.
-/
import proofs.«136441_j876173328454_2_alg».proof.Proof.Gen.ReferenceIdeal.Read
import proofs.«136441_j876173328454_2_alg».proof.Proof.Spec
import Idealize.ShloMosaic.Lib.ValueIdx
import Idealize.ShloMosaic.Lib.Pipeline.Value
import Idealize.ShloMosaic.PureOps.Ideal.Laws

noncomputable section

namespace Cert.RefStage

open Cert.ReferenceIdeal Cert.ReferenceIdeal.Gen Cert.ReferenceIdeal.Read Idealize.ShloMosaic Idealize.ShloMosaic.ValueIdx

/-! ## The float words the reference spells -/

/-- The word `0x3F800000` reads as one. -/
theorem word_one : Ideal.ofBits .f32 0x3F800000#32 = 1 := by
  simp [Ideal.ofBits, Ideal.ieee, -EReal.coe_mul]; norm_num

/-- The word `0xBF000000` reads as minus one half. -/
theorem word_neg_half : Ideal.ofBits .f32 0xBF000000#32 = ((-(1 / 2) : ℝ) : EReal) := by
  simp [Ideal.ofBits, Ideal.ieee, -EReal.coe_mul]; norm_num

/-! ## The identity matrix: a comparison of the two coordinates, converted -/

/-- "Row number plus zero equals column number", as a one-bit word converted to a float, is the identity matrix's
    entry: both numbers are below `2 ^ 32`, so the 32-bit words are equal exactly when the coordinates are. -/
theorem eye_word (r k : Fin 8192) :
    FloatOps.uitofp (F := Ideal) .f32
      (IntOp.cmpi .eq (IntOp.addi (BitVec.ofNat 32 r.val) 0#32) (BitVec.ofNat 32 k.val)) = Spec.eye r k := by
  have h0 : IntOp.addi (BitVec.ofNat 32 r.val) 0#32 = BitVec.ofNat 32 r.val := BitVec.add_zero _
  rw [h0]
  unfold Spec.eye
  by_cases h : r = k
  · subst h
    rw [if_pos rfl, IntOp.cmpi_eq.2 rfl]
    show (((1#1 : BitVec 1).toNat : ℝ) : EReal) = 1
    simp
  · have hne : IntOp.cmpi .eq (BitVec.ofNat 32 r.val) (BitVec.ofNat 32 k.val) = 0#1 := by
      refine eq_zero_of_ne_one fun e => h (Fin.ext ?_)
      have e' := congrArg BitVec.toNat (IntOp.cmpi_eq.1 e)
      simp only [BitVec.toNat_ofNat] at e'
      have hr := r.isLt
      have hk := k.isLt
      omega
    rw [if_neg h, hne]
    show (((0#1 : BitVec 1).toNat : ℝ) : EReal) = 0
    simp

/-! ## The stages, read at an index built from coordinates -/

/-- The matrix with self loops. -/
theorem v6_at (a1 : (⟨S8192x8192, .f32⟩ : BufTy).Contents (Elt Ideal)) (r k : Fin 8192) :
    val_main_v6 (F := Ideal) a1 (ix2 r k) = Spec.ahat (fun r k => a1 (ix2 r k)) r k := by
  rw [val_main_v6_apply, val_main_v5_apply, val_main_v4_apply, val_main_v3_apply, val_main_v0_apply, val_main_v2_apply,
    val_main_c_apply, val_main_v1_apply]
  show a1 (ix2 r k) + FloatOps.uitofp (F := Ideal) .f32
    (IntOp.cmpi .eq (IntOp.addi (BitVec.ofNat 32 r.val) 0#32) (BitVec.ofNat 32 k.val)) = _
  rw [eye_word]
  rfl

/-- The degree scaling: the power `-1/2` of the clipped row sum of the matrix with self loops. -/
theorem v10_at (a1 : (⟨S8192x8192, .f32⟩ : BufTy).Contents (Elt Ideal)) (r : Fin 8192) :
    val_main_v10 (F := Ideal) a1 (ix1 r) = Spec.dR (fun r k => a1 (ix2 r k)) r := by
  rw [val_main_v10_apply, val_main_v8_apply, val_main_call0_v1_apply, val_main_call0_v0_apply, val_main_cst_0_apply,
    val_main_v9_apply, val_main_cst_1_apply, val_main_v7_apply, val_main_cst_apply]
  have e : ∀ k : Fin 8192, val_main_v6 (F := Ideal) a1 (idx_main_v7 (ix1 r) k) = Spec.ahat (fun r k => a1 (ix2 r k)) r k := fun k =>
    (congrArg (val_main_v6 (F := Ideal) a1) (show idx_main_v7 (ix1 r) k = ix2 r k from funext fun a => Fin.ext (by match a with | ⟨0, _⟩ => rfl | ⟨1, _⟩ => rfl))).trans (v6_at a1 r k)
  rw [Finset.sum_congr rfl (fun k _ => e k)]
  simp only [Ideal.ofBits_def, Ideal.hostPowf_def, Ideal.maximumf_def, Ideal.ofBits_zero_f32, word_one, word_neg_half,
    zero_add]
  rfl

/-- The normalised matrix. -/
theorem v16_at (a1 : (⟨S8192x8192, .f32⟩ : BufTy).Contents (Elt Ideal)) (r k : Fin 8192) :
    val_main_v16 (F := Ideal) a1 (ix2 r k) = Spec.anorm (fun r k => a1 (ix2 r k)) r k := by
  rw [val_main_v16_apply, val_main_v13_apply, val_main_v12_apply, val_main_v11_apply, val_main_v15_apply,
    val_main_v14_apply]
  rw [show idx_main_v11 (idx_main_v12 (ix2 r k)) = ix1 r from funext fun a => Fin.ext (by match a with | ⟨0, _⟩ => rfl),
    show idx_main_v14 (idx_main_v15 (ix2 r k)) = ix1 k from funext fun a => Fin.ext (by match a with | ⟨0, _⟩ => rfl), v10_at, v10_at, v6_at]
  rfl

/-- The first linear map. -/
theorem v20_at (a0 : (⟨S8192x128, .f32⟩ : BufTy).Contents (Elt Ideal)) (a2 : (⟨S128x32, .f32⟩ : BufTy).Contents (Elt Ideal)) (a3 : (⟨S32, .f32⟩ : BufTy).Contents (Elt Ideal)) (r : Fin 8192) (c : Fin 32) :
    val_main_v20 (F := Ideal) a0 a2 a3 (ix2 r c) = (Spec.lin (fun r k => a0 (ix2 r k)) (fun r k => a2 (ix2 r k)) (fun k => a3 (ix1 k))) r c := by
  rw [val_main_v20_apply, val_main_v17_apply, val_main_v19_apply, val_main_v18_apply]
  rw [show idx_main_v18 (idx_main_v19 (ix2 r c)) = ix1 c from funext fun a => Fin.ext (by match a with | ⟨0, _⟩ => rfl)]
  refine congrArg (· + a3 (ix1 c)) (Finset.sum_congr rfl fun k _ => ?_)
  rw [show lidx_main_v17 (ix2 r c) k = ix2 r k from funext fun a => Fin.ext (by match a with | ⟨0, _⟩ => rfl | ⟨1, _⟩ => rfl),
    show ridx_main_v17 (ix2 r c) k = ix2 k c from funext fun a => Fin.ext (by match a with | ⟨0, _⟩ => rfl | ⟨1, _⟩ => rfl)]

/-- The first layer. -/
theorem v22_at (a0 : (⟨S8192x128, .f32⟩ : BufTy).Contents (Elt Ideal)) (a1 : (⟨S8192x8192, .f32⟩ : BufTy).Contents (Elt Ideal)) (a2 : (⟨S128x32, .f32⟩ : BufTy).Contents (Elt Ideal)) (a3 : (⟨S32, .f32⟩ : BufTy).Contents (Elt Ideal)) (r : Fin 8192) (c : Fin 32) :
    val_main_v22 (F := Ideal) a0 a1 a2 a3 (ix2 r c) = (Spec.layerR (fun r k => a1 (ix2 r k)) (Spec.lin (fun r k => a0 (ix2 r k)) (fun r k => a2 (ix2 r k)) (fun k => a3 (ix1 k)))) r c := by
  rw [val_main_v22_apply, val_main_v21_apply, val_main_call1_v0_apply, val_main_call1_cst_apply]
  simp only [Ideal.ofBits_def, Ideal.maximumf_def, Ideal.ofBits_zero_f32]
  refine congrArg (max · 0) (Finset.sum_congr rfl fun k _ => ?_)
  rw [show lidx_main_v21 (ix2 r c) k = ix2 r k from funext fun a => Fin.ext (by match a with | ⟨0, _⟩ => rfl | ⟨1, _⟩ => rfl),
    show ridx_main_v21 (ix2 r c) k = ix2 k c from funext fun a => Fin.ext (by match a with | ⟨0, _⟩ => rfl | ⟨1, _⟩ => rfl), v16_at, v20_at]

/-- The second linear map. -/
theorem v26_at (a0 : (⟨S8192x128, .f32⟩ : BufTy).Contents (Elt Ideal)) (a1 : (⟨S8192x8192, .f32⟩ : BufTy).Contents (Elt Ideal)) (a2 : (⟨S128x32, .f32⟩ : BufTy).Contents (Elt Ideal)) (a3 : (⟨S32, .f32⟩ : BufTy).Contents (Elt Ideal)) (a4 : (⟨S32x32, .f32⟩ : BufTy).Contents (Elt Ideal)) (a5 : (⟨S32, .f32⟩ : BufTy).Contents (Elt Ideal)) (r : Fin 8192) (c : Fin 32) :
    val_main_v26 (F := Ideal) a0 a1 a2 a3 a4 a5 (ix2 r c) = (Spec.lin (Spec.layerR (fun r k => a1 (ix2 r k)) (Spec.lin (fun r k => a0 (ix2 r k)) (fun r k => a2 (ix2 r k)) (fun k => a3 (ix1 k)))) (fun r k => a4 (ix2 r k)) (fun k => a5 (ix1 k))) r c := by
  rw [val_main_v26_apply, val_main_v23_apply, val_main_v25_apply, val_main_v24_apply]
  rw [show idx_main_v24 (idx_main_v25 (ix2 r c)) = ix1 c from funext fun a => Fin.ext (by match a with | ⟨0, _⟩ => rfl)]
  refine congrArg (· + a5 (ix1 c)) (Finset.sum_congr rfl fun k _ => ?_)
  rw [show lidx_main_v23 (ix2 r c) k = ix2 r k from funext fun a => Fin.ext (by match a with | ⟨0, _⟩ => rfl | ⟨1, _⟩ => rfl),
    show ridx_main_v23 (ix2 r c) k = ix2 k c from funext fun a => Fin.ext (by match a with | ⟨0, _⟩ => rfl | ⟨1, _⟩ => rfl), v22_at]

/-- The second layer. -/
theorem v28_at (a0 : (⟨S8192x128, .f32⟩ : BufTy).Contents (Elt Ideal)) (a1 : (⟨S8192x8192, .f32⟩ : BufTy).Contents (Elt Ideal)) (a2 : (⟨S128x32, .f32⟩ : BufTy).Contents (Elt Ideal)) (a3 : (⟨S32, .f32⟩ : BufTy).Contents (Elt Ideal)) (a4 : (⟨S32x32, .f32⟩ : BufTy).Contents (Elt Ideal)) (a5 : (⟨S32, .f32⟩ : BufTy).Contents (Elt Ideal)) (r : Fin 8192) (c : Fin 32) :
    val_main_v28 (F := Ideal) a0 a1 a2 a3 a4 a5 (ix2 r c) = (Spec.layerR (fun r k => a1 (ix2 r k)) (Spec.lin (Spec.layerR (fun r k => a1 (ix2 r k)) (Spec.lin (fun r k => a0 (ix2 r k)) (fun r k => a2 (ix2 r k)) (fun k => a3 (ix1 k)))) (fun r k => a4 (ix2 r k)) (fun k => a5 (ix1 k)))) r c := by
  rw [val_main_v28_apply, val_main_v27_apply, val_main_call2_v0_apply, val_main_call2_cst_apply]
  simp only [Ideal.ofBits_def, Ideal.maximumf_def, Ideal.ofBits_zero_f32]
  refine congrArg (max · 0) (Finset.sum_congr rfl fun k _ => ?_)
  rw [show lidx_main_v27 (ix2 r c) k = ix2 r k from funext fun a => Fin.ext (by match a with | ⟨0, _⟩ => rfl | ⟨1, _⟩ => rfl),
    show ridx_main_v27 (ix2 r c) k = ix2 k c from funext fun a => Fin.ext (by match a with | ⟨0, _⟩ => rfl | ⟨1, _⟩ => rfl), v16_at, v26_at]

/-! ## The reference computes the plain arrangement -/

theorem ref_is_logitsR
    (a0 : (⟨S8192x128, .f32⟩ : BufTy).Contents (Elt Ideal)) (a1 : (⟨S8192x8192, .f32⟩ : BufTy).Contents (Elt Ideal))
    (a2 : (⟨S128x32, .f32⟩ : BufTy).Contents (Elt Ideal)) (a3 : (⟨S32, .f32⟩ : BufTy).Contents (Elt Ideal))
    (a4 : (⟨S32x32, .f32⟩ : BufTy).Contents (Elt Ideal)) (a5 : (⟨S32, .f32⟩ : BufTy).Contents (Elt Ideal))
    (a6 : (⟨S32x1, .f32⟩ : BufTy).Contents (Elt Ideal)) (a7 : (⟨S1, .f32⟩ : BufTy).Contents (Elt Ideal)) :
    val_main_v33 (F := Ideal) a0 a1 a2 a3 a4 a5 a6 a7
      = fun i : S8192.Idx => Cert.Spec.logitsR (fun r k => a0 (ix2 r k)) (fun r k => a1 (ix2 r k))
          (fun r k => a2 (ix2 r k)) (fun k => a3 (ix1 k)) (fun r k => a4 (ix2 r k)) (fun k => a5 (ix1 k))
          (fun r k => a6 (ix2 r k)) (fun k => a7 (ix1 k)) (i 0) := by
  funext i
  obtain ⟨r, rfl⟩ : ∃ r : Fin 8192, i = ix1 r := ⟨i 0, eq_ix1 i⟩
  rw [val_main_v33_apply, val_main_v32_apply, val_main_v29_apply, val_main_v31_apply, val_main_v30_apply]
  rw [show idx_main_v33 (ix1 r) = ix2 r (0 : Fin 1) from
    funext fun a => Fin.ext (by match a with | ⟨0, _⟩ => exact Nat.div_one _ | ⟨1, _⟩ => rfl)]
  rw [show idx_main_v30 (idx_main_v31 (ix2 r (0 : Fin 1))) = ix1 (0 : Fin 1) from funext fun a => Fin.ext (by match a with | ⟨0, _⟩ => rfl)]
  refine congrArg (· + a7 (ix1 (0 : Fin 1))) (Finset.sum_congr rfl fun k _ => ?_)
  rw [show lidx_main_v29 (ix2 r (0 : Fin 1)) k = ix2 r k from funext fun a => Fin.ext (by match a with | ⟨0, _⟩ => rfl | ⟨1, _⟩ => rfl),
    show ridx_main_v29 (ix2 r (0 : Fin 1)) k = ix2 k (0 : Fin 1) from funext fun a => Fin.ext (by match a with | ⟨0, _⟩ => rfl | ⟨1, _⟩ => rfl), v28_at]

end Cert.RefStage

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.Algebra.lean ====
/-
  The two arrangements of the graph-convolution network agree on real inputs.

  When every entry of every argument is a real number, every quantity either arrangement meets is a real number, and
  the whole computation can be read in the field of reals, where

    * the row sum of the matrix with self loops is the row sum plus one, so both degree scalings are the reciprocal
      square root `(√(max 1 (rowSum + 1)))⁻¹` of one and the same real, which is at least one (the power `-1/2` of a
      positive real is the reciprocal of its square root);
    * a row of the normalised matrix times a column splits as
      `Σ_k (d r · (a r k + [r = k]) · d k) · h k = d r · Σ_k a r k · (d k · h k) + d r · d r · h r`
      (distributivity, and the sum of an indicator picks out one term).

  The file states the network over the reals (`linℝ`, `dℝ`, `layerℝ`), shows that each stage of either arrangement,
  fed the images of reals, is the image of the real stage, and chains the stages.
-/
import proofs.«136441_j876173328454_2_alg».proof.Proof.Spec
import proofs.«136441_j876173328454_2_alg».proof.Proof.LibRealValued

noncomputable section

namespace Cert.Spec

open Idealize.ShloMosaic Cert.RealValued

/-! ## Small facts on the inclusion of the reals -/

/-- The inclusion of the reals commutes with the maximum. -/
theorem max_coe (x y : ℝ) : max (x : EReal) (y : EReal) = ((max x y : ℝ) : EReal) :=
  (EReal.coe_strictMono.monotone.map_max).symm

/-- A sum of images is the image of the sum. -/
theorem sum_coe {ι : Type} [Fintype ι] (f : ι → ℝ) : (∑ i, (f i : EReal)) = ((∑ i, f i : ℝ) : EReal) :=
  (coe_sum Finset.univ f).symm

/-- The reciprocal square root of a positive real. -/
theorem rsqrt_of_pos {y : ℝ} (hy : 0 < y) : Ideal.rsqrt (y : EReal) = (((Real.sqrt y)⁻¹ : ℝ) : EReal) := by
  rw [Ideal.rsqrt_coe, if_neg (not_lt.mpr hy.le), if_neg hy.ne']

/-- The power `-1/2` of a positive real is the reciprocal of its square root. -/
theorem pow_neg_half_of_pos {y : ℝ} (hy : 0 < y) :
    Ideal.pow (y : EReal) ((-(1 / 2) : ℝ) : EReal) = (((Real.sqrt y)⁻¹ : ℝ) : EReal) := by
  rw [Ideal.pow_coe_coe]
  refine congrArg _ ?_
  show y ^ (-(1 / 2) : ℝ) = _
  rw [Real.rpow_neg hy.le, Real.sqrt_eq_rpow]

/-! ## The algebra, over the reals and an abstract finite index type -/

/-- Adding the indicator of the diagonal to a row adds one to its sum. -/
theorem sum_add_indicator {ι : Type} [Fintype ι] [DecidableEq ι] (f : ι → ℝ) (r : ι) :
    ∑ k, (f k + if r = k then 1 else 0) = (∑ k, f k) + 1 := by
  rw [Finset.sum_add_distrib, Finset.sum_ite_eq, if_pos (Finset.mem_univ r)]

/-- A row of the normalised matrix with self loops times a column: the self loop's term comes apart. -/
theorem sum_normalised_split {ι : Type} [Fintype ι] [DecidableEq ι] (a : ι → ι → ℝ) (d : ι → ℝ) (h : ι → ℝ) (r : ι) :
    ∑ k, ((d r * (a r k + if r = k then 1 else 0)) * d k) * h k
      = d r * (∑ k, a r k * (d k * h k)) + (d r * d r) * h r := by
  have e : ∀ k, ((d r * (a r k + if r = k then 1 else 0)) * d k) * h k
      = d r * (a r k * (d k * h k)) + (if r = k then (d r * d k) * h k else 0) := by
    intro k
    split_ifs <;> ring
  rw [Finset.sum_congr rfl (fun k _ => e k), Finset.sum_add_distrib, ← Finset.mul_sum, Finset.sum_ite_eq,
    if_pos (Finset.mem_univ r)]

/-! ## The network over the reals -/

/-- `h · W + b` over the reals. -/
def linℝ {n a b : ℕ} (h : Fin n → Fin a → ℝ) (W : Fin a → Fin b → ℝ) (bias : Fin b → ℝ) (r : Fin n) (c : Fin b) : ℝ :=
  (∑ k : Fin a, h r k * W k c) + bias c

/-- The clipped degree with the self loop counted: a real that is at least one. -/
def degℝ (adj : Fin 8192 → Fin 8192 → ℝ) (r : Fin 8192) : ℝ := max 1 ((∑ k : Fin 8192, adj r k) + 1)

theorem degℝ_pos (adj : Fin 8192 → Fin 8192 → ℝ) (r : Fin 8192) : 0 < degℝ adj r :=
  lt_of_lt_of_le one_pos (le_max_left _ _)

/-- The degree scaling over the reals. -/
def dℝ (adj : Fin 8192 → Fin 8192 → ℝ) (r : Fin 8192) : ℝ := (Real.sqrt (degℝ adj r))⁻¹

/-- One layer over the reals, in the blocked arrangement's form. -/
def layerℝ (adj : Fin 8192 → Fin 8192 → ℝ) (hpre : Fin 8192 → Fin 32 → ℝ) (r : Fin 8192) (c : Fin 32) : ℝ :=
  max (dℝ adj r * (∑ k : Fin 8192, adj r k * (dℝ adj k * hpre k c)) + (dℝ adj r * dℝ adj r) * hpre r c) 0

/-! ## Each stage on images of reals is the image of the real stage -/

theorem lin_coe {n a b : ℕ} (h : Fin n → Fin a → ℝ) (W : Fin a → Fin b → ℝ) (bias : Fin b → ℝ) :
    lin (fun r k => (h r k : EReal)) (fun k c => (W k c : EReal)) (fun c => (bias c : EReal))
      = fun r c => ((linℝ h W bias r c : ℝ) : EReal) := by
  funext r c
  show (∑ k : Fin a, (h r k : EReal) * (W k c : EReal)) + (bias c : EReal) = _
  rw [linℝ, EReal.coe_add, ← sum_coe]
  simp only [EReal.coe_mul]

/-- The blocked arrangement's degree scaling. -/
theorem dK_coe (adj : Fin 8192 → Fin 8192 → ℝ) :
    dK (fun r k => (adj r k : EReal)) = fun r => ((dℝ adj r : ℝ) : EReal) := by
  funext r
  show Ideal.rsqrt (max 1 ((∑ k : Fin 8192, (adj r k : EReal)) + 1)) = _
  rw [sum_coe, ← EReal.coe_one, ← EReal.coe_add, max_coe]
  exact rsqrt_of_pos (degℝ_pos adj r)

/-- An entry of the matrix with self loops. -/
theorem ahat_coe (adj : Fin 8192 → Fin 8192 → ℝ) (r k : Fin 8192) :
    ahat (fun r k => (adj r k : EReal)) r k = ((adj r k + if r = k then 1 else 0 : ℝ) : EReal) := by
  show (adj r k : EReal) + (if r = k then 1 else 0) = _
  rw [EReal.coe_add]
  split_ifs <;> rfl

/-- The plain arrangement's degree scaling. -/
theorem dR_coe (adj : Fin 8192 → Fin 8192 → ℝ) :
    dR (fun r k => (adj r k : EReal)) = fun r => ((dℝ adj r : ℝ) : EReal) := by
  funext r
  show Ideal.pow (max 1 (∑ k : Fin 8192, ahat (fun r k => (adj r k : EReal)) r k)) ((-(1 / 2) : ℝ) : EReal) = _
  rw [Finset.sum_congr rfl (fun k _ => ahat_coe adj r k), sum_coe, sum_add_indicator, ← EReal.coe_one, max_coe]
  exact pow_neg_half_of_pos (degℝ_pos adj r)

/-- One layer of the blocked arrangement. -/
theorem layerK_coe (adj : Fin 8192 → Fin 8192 → ℝ) (hpre : Fin 8192 → Fin 32 → ℝ) :
    layerK (fun r k => (adj r k : EReal)) (dK (fun r k => (adj r k : EReal))) (fun r c => (hpre r c : EReal))
      = fun r c => ((layerℝ adj hpre r c : ℝ) : EReal) := by
  rw [dK_coe]
  funext r c
  show max ((dℝ adj r : EReal) * (∑ k : Fin 8192, (adj r k : EReal) * ((dℝ adj k : EReal) * (hpre k c : EReal)))
      + ((dℝ adj r : EReal) * (dℝ adj r : EReal)) * (hpre r c : EReal)) 0 = _
  simp only [← EReal.coe_mul]
  rw [sum_coe, ← EReal.coe_mul, ← EReal.coe_add, ← EReal.coe_zero, max_coe]
  rfl

/-- One layer of the plain arrangement: the same real, by the splitting of the sum. -/
theorem layerR_coe (adj : Fin 8192 → Fin 8192 → ℝ) (hpre : Fin 8192 → Fin 32 → ℝ) :
    layerR (fun r k => (adj r k : EReal)) (fun r c => (hpre r c : EReal))
      = fun r c => ((layerℝ adj hpre r c : ℝ) : EReal) := by
  funext r c
  have e : ∀ k : Fin 8192, anorm (fun r k => (adj r k : EReal)) r k * (hpre k c : EReal)
      = ((((dℝ adj r * (adj r k + if r = k then 1 else 0)) * dℝ adj k) * hpre k c : ℝ) : EReal) := by
    intro k
    show ((dR (fun r k => (adj r k : EReal)) r * ahat (fun r k => (adj r k : EReal)) r k)
      * dR (fun r k => (adj r k : EReal)) k) * (hpre k c : EReal) = _
    rw [dR_coe, ahat_coe, ← EReal.coe_mul, ← EReal.coe_mul, ← EReal.coe_mul]
  show max (∑ k : Fin 8192, anorm (fun r k => (adj r k : EReal)) r k * (hpre k c : EReal)) 0 = _
  rw [Finset.sum_congr rfl (fun k _ => e k), sum_coe,
    sum_normalised_split adj (dℝ adj) (fun k => hpre k c) r, ← EReal.coe_zero, max_coe]
  rfl

/-! ## The two arrangements agree -/

/-- On arguments all of whose entries are real numbers the plain and the blocked arrangement compute the same
    logits. -/
theorem logitsR_eq_logitsK
    (x : Fin 8192 → Fin 128 → EReal) (adj : Fin 8192 → Fin 8192 → EReal)
    (W1 : Fin 128 → Fin 32 → EReal) (b1 : Fin 32 → EReal) (W2 : Fin 32 → Fin 32 → EReal) (b2 : Fin 32 → EReal)
    (W3 : Fin 32 → Fin 1 → EReal) (b3 : Fin 1 → EReal)
    (hx : ∀ r k, ∃ v : ℝ, x r k = (v : EReal)) (hadj : ∀ r k, ∃ v : ℝ, adj r k = (v : EReal))
    (hW1 : ∀ r k, ∃ v : ℝ, W1 r k = (v : EReal)) (hb1 : ∀ k, ∃ v : ℝ, b1 k = (v : EReal))
    (hW2 : ∀ r k, ∃ v : ℝ, W2 r k = (v : EReal)) (hb2 : ∀ k, ∃ v : ℝ, b2 k = (v : EReal))
    (hW3 : ∀ r k, ∃ v : ℝ, W3 r k = (v : EReal)) (hb3 : ∀ k, ∃ v : ℝ, b3 k = (v : EReal)) :
    logitsR x adj W1 b1 W2 b2 W3 b3 = logitsK x adj W1 b1 W2 b2 W3 b3 := by
  choose x' hx' using hx
  choose adj' hadj' using hadj
  choose W1' hW1' using hW1
  choose b1' hb1' using hb1
  choose W2' hW2' using hW2
  choose b2' hb2' using hb2
  choose W3' hW3' using hW3
  choose b3' hb3' using hb3
  obtain rfl : x = fun r k => (x' r k : EReal) := funext fun r => funext fun k => hx' r k
  obtain rfl : adj = fun r k => (adj' r k : EReal) := funext fun r => funext fun k => hadj' r k
  obtain rfl : W1 = fun r k => (W1' r k : EReal) := funext fun r => funext fun k => hW1' r k
  obtain rfl : b1 = fun k => (b1' k : EReal) := funext fun k => hb1' k
  obtain rfl : W2 = fun r k => (W2' r k : EReal) := funext fun r => funext fun k => hW2' r k
  obtain rfl : b2 = fun k => (b2' k : EReal) := funext fun k => hb2' k
  obtain rfl : W3 = fun r k => (W3' r k : EReal) := funext fun r => funext fun k => hW3' r k
  obtain rfl : b3 = fun k => (b3' k : EReal) := funext fun k => hb3' k
  funext r
  unfold logitsR logitsK
  rw [lin_coe x' W1' b1', layerR_coe, layerK_coe, lin_coe _ W2' b2', layerR_coe, layerK_coe]

end Cert.Spec

end
-- ==== Proof.Finite.lean ====
/-
  From the precondition to "every entry is a real number".

  The precondition is the conjunction, over the eight argument arrays, of "every entry's absolute value is below
  `+∞`" (each array's test a reduction by `and` of the elementwise comparison, the eight results joined by `and`).
  On the extended reals the absolute value `max x (-x)` is below `+∞` exactly when `x` is neither infinity, that is,
  when `x` is the image of a real number.
-/
import proofs.«136441_j876173328454_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx Cert.Pre_finite_inputs

/-- The rank-0 index set has one element. -/
instance : Subsingleton S_.Idx := ⟨fun a b => funext fun d => d.elim0⟩

/-- The word `0x7F800000` reads as `+∞`. -/
theorem inf_word : Ideal.ofBits .f32 0x7F800000#32 = (⊤ : EReal) := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ v : ℝ, x = (v : EReal) := by
  rw [inf_word] at h
  induction x using EReal.rec with
  | bot => exact absurd h (by simp [Ideal.cmp])
  | coe v => exact ⟨v, rfl⟩
  | top => exact absurd h (by simp [Ideal.cmp])

/-- One array's test: if the reduction by `and` of "absolute value below `+∞`" is one, every entry is real. -/
theorem all_real {s : Shape} {axes : List (Fin s.rank)} (x : FVec Ideal s .f32)
    (b : S_.BroadcastsInDim s (![] : Fin 0 → Fin s.rank)) (hr : s.ReducesTo axes S_) (hu : 0 < S_.numel)
    (e : Host.reduce IntOp.andi
        (cmpf .olt (Host.absf x) (broadcastInDim s ![] b (constant (F := Ideal) S_ .f32 0x7F800000#32)))
        (constantI S_ 1 1#1) hr hu ix0 = 1#1) :
    ∀ i : s.Idx, ∃ v : ℝ, x i = (v : EReal) := by
  intro i
  have hi := Host.reduce_andi_all _ _ hr hu ix0 e i
  refine real_of_abs_lt_inf (x i) ?_
  rw [← hi]
  show _ = FloatOps.cmpf .olt (FloatOps.hostAbsf (x i))
    (broadcastInDim s ![] b (constant (F := Ideal) S_ .f32 0x7F800000#32) i)
  rw [broadcastInDim_apply _ b _ i (fun a => a.elim0) (fun a => a.elim0)]
  rfl

/-- The precondition makes every entry of every argument a real number. -/
theorem entries_real [Cert.Pre_finite_inputs.Facts]
    (a0 : FVec Ideal S8192x128 .f32) (a1 : FVec Ideal S8192x8192 .f32) (a2 : FVec Ideal S128x32 .f32)
    (a3 : FVec Ideal S32 .f32) (a4 : FVec Ideal S32x32 .f32) (a5 : FVec Ideal S32 .f32)
    (a6 : FVec Ideal S32x1 .f32) (a7 : FVec Ideal S1 .f32)
    (h : Cert.Pre_finite_inputs.fn (F := Ideal) a0 a1 a2 a3 a4 a5 a6 a7 = (fun _ => 1#1)) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) ∧ (∀ i, ∃ v : ℝ, a5 i = (v : EReal))
      ∧ (∀ i, ∃ v : ℝ, a6 i = (v : EReal)) ∧ (∀ i, ∃ v : ℝ, a7 i = (v : EReal)) := by
  have h0 := congrFun h ix0
  dsimp only [fn, fn_part1, fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7⟩

end Cert.Finite

end
-- ==== Proof.lean ====
/-
  A two-layer graph convolution: the blocked kernel against its plain reference, over the extended reals.

  The kernel program is three pipelined regions among stretches of host operations: a degree pass (the row sums of the
  adjacency matrix accumulated over four column blocks, then `d = (max 1 (rowSum + 1))^(-1/2)`, and a copy of the
  matrix in a narrower format) and two layer passes (`relu (d r · Σ_k adj r k · (d k · h k c) + d r · d r · h r c)`,
  the product accumulated over two column blocks), with the feature maps `h · W + b` and the column scaling computed on
  the host between them. The reference forms the matrix with self loops, normalises it entry by entry with
  `d r = (max 1 (Σ_k (adj r k + [r = k])))^(-1/2)` and multiplies.

  * Frames: every region's body meets the pipeline's obligation at every grid point (the scratch accumulator's contents
    carried in the region's invariant), the regions and host stretches chain, and no item writes an argument.
  * Values: each region's output array is one whole-array function of its inputs (the blocks cover the array; the
    partial sums regroup by commutativity and associativity alone); the host stretches are read stage by stage; the
    reference's run is read at an index.
  * The law joining the two: with every input entry a real number, the degree is a real ≥ 1, where the power `-1/2`
    is the reciprocal square root; and `Σ_k d r (adj r k + [r = k]) d k h k = d r Σ_k adj r k (d k h k) + d r d r h r`
    by distributivity over the reals.
-/
import proofs.«136441_j876173328454_2_alg».proof.Defs
import proofs.«136441_j876173328454_2_alg».proof.Proof.Gen.Kernel
import proofs.«136441_j876173328454_2_alg».proof.Proof.Gen.KernelIdeal
import proofs.«136441_j876173328454_2_alg».proof.Proof.Gen.ReferenceIdeal
import proofs.«136441_j876173328454_2_alg».proof.Proof.Gen.Pre_finite_inputs
import proofs.«136441_j876173328454_2_alg».proof.Proof.Gen.ReferenceIdeal.Run
import proofs.«136441_j876173328454_2_alg».proof.Proof.Gen.ReferenceIdeal.Read
import proofs.«136441_j876173328454_2_alg».proof.Proof.K.Whole
import proofs.«136441_j876173328454_2_alg».proof.Proof.KI.Whole
import proofs.«136441_j876173328454_2_alg».proof.Proof.KI.Value
import proofs.«136441_j876173328454_2_alg».proof.Proof.RefStage
import proofs.«136441_j876173328454_2_alg».proof.Proof.Algebra
import proofs.«136441_j876173328454_2_alg».proof.Proof.Finite

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ =>
  (θ_run (Cert.Kernel.defs (F := Bits)) _ _).mono (fun r h c =>
    ⟨(h c _ (Cert.Kernel.Whole.mem_uc Cert.Kernel.main_arg0 (by decide))).trans (Cert.Kernel.Whole.W6_main_arg0 m ρ c),
      (h c _ (Cert.Kernel.Whole.mem_uc Cert.Kernel.main_arg1 (by decide))).trans (Cert.Kernel.Whole.W6_main_arg1 m ρ c),
      (h c _ (Cert.Kernel.Whole.mem_uc Cert.Kernel.main_arg2 (by decide))).trans (Cert.Kernel.Whole.W6_main_arg2 m ρ c),
      (h c _ (Cert.Kernel.Whole.mem_uc Cert.Kernel.main_arg3 (by decide))).trans (Cert.Kernel.Whole.W6_main_arg3 m ρ c),
      (h c _ (Cert.Kernel.Whole.mem_uc Cert.Kernel.main_arg4 (by decide))).trans (Cert.Kernel.Whole.W6_main_arg4 m ρ c),
      (h c _ (Cert.Kernel.Whole.mem_uc Cert.Kernel.main_arg5 (by decide))).trans (Cert.Kernel.Whole.W6_main_arg5 m ρ c),
      (h c _ (Cert.Kernel.Whole.mem_uc Cert.Kernel.main_arg6 (by decide))).trans (Cert.Kernel.Whole.W6_main_arg6 m ρ c),
      (h c _ (Cert.Kernel.Whole.mem_uc Cert.Kernel.main_arg7 (by decide))).trans (Cert.Kernel.Whole.W6_main_arg7 m ρ c)⟩)
    (Cert.Kernel.Whole.run_all (F := Bits) m ρ)

/-- So does the kernel read over the extended reals. -/
theorem frame_ki : Cert.frame_KernelIdeal := fun m ρ _ =>
  (θ_run (Cert.KernelIdeal.defs (F := Ideal)) _ _).mono (fun r h c =>
    ⟨(h c _ (Cert.KernelIdeal.Whole.mem_uc Cert.KernelIdeal.main_arg0 (by decide))).trans (Cert.KernelIdeal.Whole.W6_main_arg0 m ρ c),
      (h c _ (Cert.KernelIdeal.Whole.mem_uc Cert.KernelIdeal.main_arg1 (by decide))).trans (Cert.KernelIdeal.Whole.W6_main_arg1 m ρ c),
      (h c _ (Cert.KernelIdeal.Whole.mem_uc Cert.KernelIdeal.main_arg2 (by decide))).trans (Cert.KernelIdeal.Whole.W6_main_arg2 m ρ c),
      (h c _ (Cert.KernelIdeal.Whole.mem_uc Cert.KernelIdeal.main_arg3 (by decide))).trans (Cert.KernelIdeal.Whole.W6_main_arg3 m ρ c),
      (h c _ (Cert.KernelIdeal.Whole.mem_uc Cert.KernelIdeal.main_arg4 (by decide))).trans (Cert.KernelIdeal.Whole.W6_main_arg4 m ρ c),
      (h c _ (Cert.KernelIdeal.Whole.mem_uc Cert.KernelIdeal.main_arg5 (by decide))).trans (Cert.KernelIdeal.Whole.W6_main_arg5 m ρ c),
      (h c _ (Cert.KernelIdeal.Whole.mem_uc Cert.KernelIdeal.main_arg6 (by decide))).trans (Cert.KernelIdeal.Whole.W6_main_arg6 m ρ c),
      (h c _ (Cert.KernelIdeal.Whole.mem_uc Cert.KernelIdeal.main_arg7 (by decide))).trans (Cert.KernelIdeal.Whole.W6_main_arg7 m ρ c)⟩)
    (Cert.KernelIdeal.Whole.run_all (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- Both programs end with the same result: the kernel's is the blocked arrangement of the network, the reference's the
    plain one, and with every input entry real the two agree. -/
theorem algebraic : Cert.algebraic_KernelIdeal_ReferenceIdeal := by
  intro m ρ m' ρ' hpre hagree
  refine ⟨fun c => Cert.KernelIdeal.Whole.W6 m ρ c (Proc.devRef .tc Cert.KernelIdeal.main_v19), ?_, ?_⟩
  · exact (θ_run (Cert.KernelIdeal.defs (F := Ideal)) _ _).mono (fun r h c =>
      ⟨h c _ (Cert.KernelIdeal.Whole.mem_uc Cert.KernelIdeal.main_v19 (by decide)),
      (h c _ (Cert.KernelIdeal.Whole.mem_uc Cert.KernelIdeal.main_arg0 (by decide))).trans (Cert.KernelIdeal.Whole.W6_main_arg0 m ρ c),
      (h c _ (Cert.KernelIdeal.Whole.mem_uc Cert.KernelIdeal.main_arg1 (by decide))).trans (Cert.KernelIdeal.Whole.W6_main_arg1 m ρ c),
      (h c _ (Cert.KernelIdeal.Whole.mem_uc Cert.KernelIdeal.main_arg2 (by decide))).trans (Cert.KernelIdeal.Whole.W6_main_arg2 m ρ c),
      (h c _ (Cert.KernelIdeal.Whole.mem_uc Cert.KernelIdeal.main_arg3 (by decide))).trans (Cert.KernelIdeal.Whole.W6_main_arg3 m ρ c),
      (h c _ (Cert.KernelIdeal.Whole.mem_uc Cert.KernelIdeal.main_arg4 (by decide))).trans (Cert.KernelIdeal.Whole.W6_main_arg4 m ρ c),
      (h c _ (Cert.KernelIdeal.Whole.mem_uc Cert.KernelIdeal.main_arg5 (by decide))).trans (Cert.KernelIdeal.Whole.W6_main_arg5 m ρ c),
      (h c _ (Cert.KernelIdeal.Whole.mem_uc Cert.KernelIdeal.main_arg6 (by decide))).trans (Cert.KernelIdeal.Whole.W6_main_arg6 m ρ c),
      (h c _ (Cert.KernelIdeal.Whole.mem_uc Cert.KernelIdeal.main_arg7 (by decide))).trans (Cert.KernelIdeal.Whole.W6_main_arg7 m ρ c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨f0, f1, f2, f3, f4, f5, f6, f7⟩ := Cert.Finite.entries_real _ _ _ _ _ _ _ _ (hpre c)
    rw [Cert.ReferenceIdeal.Read.val_main_v33_eq, Cert.RefStage.ref_is_logitsR,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    refine Eq.trans ?_ (Cert.KernelIdeal.Whole.kernel_value m ρ c).symm
    funext i
    exact congrFun (Cert.Spec.logitsR_eq_logitsK _ _ _ _ _ _ _ _
      (fun r k => f0 (ix2 r k)) (fun r k => f1 (ix2 r k)) (fun r k => f2 (ix2 r k)) (fun k => f3 (ix1 k))
      (fun r k => f4 (ix2 r k)) (fun k => f5 (ix1 k)) (fun r k => f6 (ix2 r k)) (fun k => f7 (ix1 k))) (i 0)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
